-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x10 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S1x128 : Shape := ⟨2, ![1, 128]⟩
abbrev S64 : Shape := ⟨1, ![64]⟩
abbrev S64x128 : Shape := ⟨2, ![64, 128]⟩
abbrev S64x1 : Shape := ⟨2, ![64, 1]⟩
abbrev S1x10 : Shape := ⟨2, ![1, 10]⟩
abbrev S64x10 : Shape := ⟨2, ![64, 10]⟩
abbrev S10000x128 : Shape := ⟨2, ![10000, 128]⟩
abbrev S10000x1 : Shape := ⟨2, ![10000, 1]⟩

abbrev nBuf : Space → Nat
  | .hbm => 100
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000x128, .f32⟩
  | .hbm, ⟨46, _⟩ => ⟨S_, .f32⟩
  | .hbm, ⟨47, _⟩ => ⟨S100000x128, .f32⟩
  | .hbm, ⟨48, _⟩ => ⟨S1700000x1, .i32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x128, .f32⟩
  | .hbm, ⟨76, _⟩ => ⟨S_, .f32⟩
  | .hbm, ⟨77, _⟩ => ⟨S100000x128, .f32⟩
  | .hbm, ⟨78, _⟩ => ⟨S1700000x1, .i32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S_, .f32⟩
  | .hbm, ⟨83, _⟩ => ⟨S100000, .f32⟩
  | .hbm, ⟨84, _⟩ => ⟨S_, .f32⟩
  | .hbm, ⟨85, _⟩ => ⟨S64, .f32⟩
  | .hbm, ⟨86, _⟩ => ⟨S100000x1, .i32⟩
  | .hbm, ⟨87, _⟩ => ⟨S64, .f32⟩
  | .hbm, ⟨88, _⟩ => ⟨S_, .f32⟩
  | .hbm, ⟨89, _⟩ => ⟨S64x128, .f32⟩
  | .hbm, ⟨90, _⟩ => ⟨S100000x1, .i32⟩
  | .hbm, ⟨91, _⟩ => ⟨S64x128, .f32⟩
  | .hbm, ⟨92, _⟩ => ⟨S_, .f32⟩
  | .hbm, ⟨93, _⟩ => ⟨S64, .f32⟩
  | .hbm, ⟨94, _⟩ => ⟨S64, .f32⟩
  | .hbm, ⟨95, _⟩ => ⟨S64x1, .f32⟩
  | .hbm, ⟨96, _⟩ => ⟨S64x128, .f32⟩
  | .hbm, ⟨97, _⟩ => ⟨S64x128, .f32⟩
  | .hbm, ⟨98, _⟩ => ⟨S1x10, .f32⟩
  | .hbm, ⟨99, _⟩ => ⟨S64x10, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x1, .f32⟩
  | .local _ .vmem, ⟨4, _⟩ => ⟨S10000x1, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x1, .f32⟩
  | .local _ .vmem, ⟨18, _⟩ => ⟨S10000x1, .f32⟩
  | .local _ .vmem, ⟨19, _⟩ => ⟨S1x128, .f32⟩
  | .local _ .vmem, ⟨20, _⟩ => ⟨S128x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x1, .f32⟩
  | .local _ .vmem, ⟨26, _⟩ => ⟨S10000x1, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | .local _ .vmem, ⟨30, _⟩ => ⟨S64x128, .f32⟩
  | .local _ .vmem, ⟨31, _⟩ => ⟨S128x10, .f32⟩
  | .local _ .vmem, ⟨32, _⟩ => ⟨S1x10, .f32⟩
  | .local _ .vmem, ⟨33, _⟩ => ⟨S64x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst : Ref sig .tc := ⟨.hbm, 18, rfl⟩
abbrev main_call0_v7 : Ref sig .tc := ⟨.hbm, 19, rfl⟩
abbrev main_call0_cst_0 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_cst_1 : Ref sig .tc := ⟨.hbm, 24, rfl⟩
abbrev main_call0_v11 : Ref sig .tc := ⟨.hbm, 25, rfl⟩
abbrev main_call0_v12 : Ref sig .tc := ⟨.hbm, 26, rfl⟩
abbrev main_call0_cst_2 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_cst_3 : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_v16 : Ref sig .tc := ⟨.hbm, 34, rfl⟩
abbrev main_call0_v17 : Ref sig .tc := ⟨.hbm, 35, rfl⟩
abbrev main_call0_v18 : Ref sig .tc := ⟨.hbm, 36, rfl⟩
abbrev main_call0_c : Ref sig .tc := ⟨.hbm, 37, rfl⟩
abbrev main_call0_v19 : Ref sig .tc := ⟨.hbm, 38, rfl⟩
abbrev main_call0_v20 : Ref sig .tc := ⟨.hbm, 39, rfl⟩
abbrev main_call0_c_4 : Ref sig .tc := ⟨.hbm, 40, rfl⟩
abbrev main_call0_v21 : Ref sig .tc := ⟨.hbm, 41, rfl⟩
abbrev main_call0_v22 : Ref sig .tc := ⟨.hbm, 42, rfl⟩
abbrev main_call0_v23 : Ref sig .tc := ⟨.hbm, 43, rfl⟩
abbrev main_call0_v24 : Ref sig .tc := ⟨.hbm, 44, rfl⟩
abbrev main_call0_v25 : Ref sig .tc := ⟨.hbm, 45, rfl⟩
abbrev main_call0_cst_5 : Ref sig .tc := ⟨.hbm, 46, rfl⟩
abbrev main_call0_v26 : Ref sig .tc := ⟨.hbm, 47, rfl⟩
abbrev main_call0_v27 : Ref sig .tc := ⟨.hbm, 48, rfl⟩
abbrev main_call0_v28 : Ref sig .tc := ⟨.hbm, 49, rfl⟩
abbrev main_call0_v29 : Ref sig .tc := ⟨.hbm, 50, rfl⟩
abbrev main_call0_v30 : Ref sig .tc := ⟨.hbm, 51, rfl⟩
abbrev main_call0_c_6 : Ref sig .tc := ⟨.hbm, 52, rfl⟩
abbrev main_call0_v31 : Ref sig .tc := ⟨.hbm, 53, rfl⟩
abbrev main_call0_v32 : Ref sig .tc := ⟨.hbm, 54, rfl⟩
abbrev main_call0_c_7 : Ref sig .tc := ⟨.hbm, 55, rfl⟩
abbrev main_call0_v33 : Ref sig .tc := ⟨.hbm, 56, rfl⟩
abbrev main_call0_v34 : Ref sig .tc := ⟨.hbm, 57, rfl⟩
abbrev main_call0_v35 : Ref sig .tc := ⟨.hbm, 58, rfl⟩
abbrev main_call0_v36 : Ref sig .tc := ⟨.hbm, 59, rfl⟩
abbrev main_call0_v37 : Ref sig .tc := ⟨.hbm, 60, rfl⟩
abbrev main_call0_cst_8 : Ref sig .tc := ⟨.hbm, 61, rfl⟩
abbrev main_call0_v38 : Ref sig .tc := ⟨.hbm, 62, rfl⟩
abbrev main_call0_v39 : Ref sig .tc := ⟨.hbm, 63, rfl⟩
abbrev main_call0_v40 : Ref sig .tc := ⟨.hbm, 64, rfl⟩
abbrev main_call0_v41 : Ref sig .tc := ⟨.hbm, 65, rfl⟩
abbrev main_call0_v42 : Ref sig .tc := ⟨.hbm, 66, rfl⟩
abbrev main_call0_c_9 : Ref sig .tc := ⟨.hbm, 67, rfl⟩
abbrev main_call0_v43 : Ref sig .tc := ⟨.hbm, 68, rfl⟩
abbrev main_call0_v44 : Ref sig .tc := ⟨.hbm, 69, rfl⟩
abbrev main_call0_c_10 : Ref sig .tc := ⟨.hbm, 70, rfl⟩
abbrev main_call0_v45 : Ref sig .tc := ⟨.hbm, 71, rfl⟩
abbrev main_call0_v46 : Ref sig .tc := ⟨.hbm, 72, rfl⟩
abbrev main_call0_v47 : Ref sig .tc := ⟨.hbm, 73, rfl⟩
abbrev main_call0_v48 : Ref sig .tc := ⟨.hbm, 74, rfl⟩
abbrev main_call0_v49 : Ref sig .tc := ⟨.hbm, 75, rfl⟩
abbrev main_call0_cst_11 : Ref sig .tc := ⟨.hbm, 76, rfl⟩
abbrev main_call0_v50 : Ref sig .tc := ⟨.hbm, 77, rfl⟩
abbrev main_call0_v51 : Ref sig .tc := ⟨.hbm, 78, rfl⟩
abbrev main_call0_v52 : Ref sig .tc := ⟨.hbm, 79, rfl⟩
abbrev main_call0_v53 : Ref sig .tc := ⟨.hbm, 80, rfl⟩
abbrev main_call0_v54 : Ref sig .tc := ⟨.hbm, 81, rfl⟩
abbrev main_call0_cst_12 : Ref sig .tc := ⟨.hbm, 82, rfl⟩
abbrev main_call0_v55 : Ref sig .tc := ⟨.hbm, 83, rfl⟩
abbrev main_call0_cst_13 : Ref sig .tc := ⟨.hbm, 84, rfl⟩
abbrev main_call0_v56 : Ref sig .tc := ⟨.hbm, 85, rfl⟩
abbrev main_call0_v57 : Ref sig .tc := ⟨.hbm, 86, rfl⟩
abbrev main_call0_v58 : Ref sig .tc := ⟨.hbm, 87, rfl⟩
abbrev main_call0_cst_14 : Ref sig .tc := ⟨.hbm, 88, rfl⟩
abbrev main_call0_v59 : Ref sig .tc := ⟨.hbm, 89, rfl⟩
abbrev main_call0_v60 : Ref sig .tc := ⟨.hbm, 90, rfl⟩
abbrev main_call0_v61 : Ref sig .tc := ⟨.hbm, 91, rfl⟩
abbrev main_call0_cst_15 : Ref sig .tc := ⟨.hbm, 92, rfl⟩
abbrev main_call0_v62 : Ref sig .tc := ⟨.hbm, 93, rfl⟩
abbrev main_call0_v63 : Ref sig .tc := ⟨.hbm, 94, rfl⟩
abbrev main_call0_v64 : Ref sig .tc := ⟨.hbm, 95, rfl⟩
abbrev main_call0_v65 : Ref sig .tc := ⟨.hbm, 96, rfl⟩
abbrev main_call0_v66 : Ref sig .tc := ⟨.hbm, 97, rfl⟩
abbrev main_call0_v67 : Ref sig .tc := ⟨.hbm, 98, rfl⟩
abbrev main_v0 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem1_0 : DmaSem sig := 31
abbrev cc4_sem2_0 : DmaSem sig := 32
abbrev cc4_sem3_0 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  bcast_S_S64 : S_.BroadcastsInDim S64 (![] : Fin 0 → Fin S64.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S10_S1x10 : S10.ShapeCasts S1x10
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  reduces_S64x10_S64 : S64x10.Reduces [1] S64
  shapeCasts_S64_S64x1 : S64.ShapeCasts S64x1
  broadcasts_S64x1_S64x10 : S64x1.Broadcasts S64x10
  inb_S64x10_S64x10_0_0 : ∀ a, (![0, 0] : Fin 2 → Nat) a + S64x10.size a ≤ S64x10.size a
  h_S64x10 : 0 < S64x10.numel
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S10000x128_S128x128_S10000x128_1_0_0_1_n_n_wf : DotDims.WF S10000x128 S128x128 S10000x128 [1] [0] [0] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x128.size a ≤ S100000x128.size a
  hwx2_4 : ∀ i : grid2.Coords, EltTy.bits .f32 = 32 ∨ (Rect.block (s := S100000x128) S10000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S100000x128.size a
  hwx3_3 : ∀ i : grid3.Coords, EltTy.bits .f32 = 32 ∨ (Rect.block (s := S100000x128) S10000x128.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x10.size a ≤ S128x10.size a
  hwx4_1 : ∀ i : grid4.Coords, EltTy.bits .f32 = 32 ∨ (Rect.block (s := S128x10) S128x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x10.size a ≤ S64x10.size a
  hwx4_3 : ∀ i : grid4.Coords, EltTy.bits .f32 = 32 ∨ (Rect.block (s := S64x10) S64x10.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v17) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v18) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v28) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v17) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v30) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_call0_v40) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v17) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v41) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v42) S10000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_call0_v52) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v17) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v53) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v54) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_call0_v66) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_call0_v67) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v0) S64x10.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64 : Shape := ⟨1, ![64]⟩
abbrev S100000x1 : Shape := ⟨2, ![100000, 1]⟩
abbrev S64x128 : Shape := ⟨2, ![64, 128]⟩
abbrev S64x1 : Shape := ⟨2, ![64, 1]⟩
abbrev S64x10 : Shape := ⟨2, ![64, 10]⟩
abbrev S1x10 : Shape := ⟨2, ![1, 10]⟩

abbrev nBuf : Space → Nat
  | .hbm => 154
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x10, .f32⟩
  | 10 => ⟨S10, .f32⟩
  | 11 => ⟨S1x1600000, .i32⟩
  | 12 => ⟨S1600000, .i32⟩
  | 13 => ⟨S1x1600000, .i32⟩
  | 14 => ⟨S1600000, .i32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x128, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x1, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x128, .f32⟩
  | 87 => ⟨S1700000x1, .f32⟩
  | 88 => ⟨S1700000x128, .f32⟩
  | 89 => ⟨S1700000x128, .f32⟩
  | 90 => ⟨S_, .f32⟩
  | 91 => ⟨S100000x128, .f32⟩
  | 92 => ⟨S1700000x1, .i32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S100000x128, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x128, .f32⟩
  | 110 => ⟨S1700000x1, .f32⟩
  | 111 => ⟨S1700000x128, .f32⟩
  | 112 => ⟨S1700000x128, .f32⟩
  | 113 => ⟨S_, .f32⟩
  | 114 => ⟨S100000x128, .f32⟩
  | 115 => ⟨S1700000x1, .i32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000, .f32⟩
  | 122 => ⟨S_, .f32⟩
  | 123 => ⟨S64, .f32⟩
  | 124 => ⟨S100000x1, .i32⟩
  | 125 => ⟨S64, .f32⟩
  | 126 => ⟨S_, .f32⟩
  | 127 => ⟨S64x128, .f32⟩
  | _ => ⟨S100000x128, .f32⟩

abbrev hbmTy0_1 (i : Nat) : BufTy := match i % 128 with
  | 0 => ⟨S100000x1, .i32⟩
  | 1 => ⟨S64x128, .f32⟩
  | 2 => ⟨S_, .f32⟩
  | 3 => ⟨S64, .f32⟩
  | 4 => ⟨S64, .f32⟩
  | 5 => ⟨S64x1, .f32⟩
  | 6 => ⟨S64x128, .f32⟩
  | 7 => ⟨S64x128, .f32⟩
  | 8 => ⟨S64x10, .f32⟩
  | 9 => ⟨S1x10, .f32⟩
  | 10 => ⟨S64x10, .f32⟩
  | 11 => ⟨S64x10, .f32⟩
  | 12 => ⟨S_, .f32⟩
  | 13 => ⟨S64, .f32⟩
  | 14 => ⟨S_, .f32⟩
  | 15 => ⟨S64, .f32⟩
  | 16 => ⟨S64, .f32⟩
  | 17 => ⟨S64x1, .f32⟩
  | 18 => ⟨S64x10, .f32⟩
  | 19 => ⟨S64x10, .f32⟩
  | 20 => ⟨S64x10, .f32⟩
  | 21 => ⟨S_, .f32⟩
  | 22 => ⟨S64, .f32⟩
  | 23 => ⟨S64x1, .f32⟩
  | 24 => ⟨S64x10, .f32⟩
  | 25 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_16 : Ref sig .tc := ⟨.hbm, 120, rfl⟩
abbrev main_v85 : Ref sig .tc := ⟨.hbm, 121, rfl⟩
abbrev main_cst_17 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_18 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_19 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_20 : Ref sig .tc := ⟨.hbm, 140, rfl⟩
abbrev main_v101 : Ref sig .tc := ⟨.hbm, 141, rfl⟩
abbrev main_cst_21 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_cst_22 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64 : S_.BroadcastsInDim S64 (![] : Fin 0 → Fin S64.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S64x1_S64x10_0_1 : S64x1.BroadcastsInDim S64x10 (![0, 1] : Fin 2 → Fin S64x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x10_S64x10_1_0_0_1_n_n_wf : DotDims.WF S64x128 S128x10 S64x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KRun.lean ====
/-
  The idealized kernel's run with its result named.

  The program is five pallas_calls among stretches of host operations. Its generated frame follows the contents of every
  buffer through the ten segments: `W10 m ρ c` is what core `c`'s buffers hold when the last region has flushed. The frame
  theorem keeps of this only that the eleven argument arrays end as launched; the same launch over the same segments also
  says what the result buffer holds at the end, namely `W10 m ρ c` at that buffer. That is the statement here: every weakly
  fair execution terminates, without a fault, with the result at `W10` and the arguments unchanged.
-/
import proofs.«151492_j3530463117755_2_alg».proof.Proof.Gen.KernelIdeal.Frame

set_option maxRecDepth 16384

noncomputable section

namespace Cert.KernelIdeal.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v0) = W10 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v0 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.KRun

end
-- ==== Proof.LibTRefCast.lean ====
/-
  Contents carried to a typed reference's buffer and back.

  A host function's operations state their values at the value's type and store them at the buffer's type, which is
  the same type by the reference's own equation; a value stored by one such operation and read by another goes through
  the transport and back, and is unchanged.
-/
import Idealize.ShloMosaic.Lib.StableHlo

namespace Cert.LibTRefCast

open Idealize.ShloMosaic Idealize.ShloMosaic.StableHlo

/-- There and back along the reference's type equation is the identity. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

end Cert.LibTRefCast
-- ==== Proof.KHost.lean ====
/-
  The host operations of the idealized kernel program, stretch by stretch.

  Between its five regions the program runs stretches of host operations. Here each buffer that a region or a later
  stretch reads is written as the operations' function of what the stretch found. The first stretch makes the edge lists
  (source and end nodes, the self-loops appended) and the node factors, as a vector and as a column; these are computed by
  the same operations as in the reference program and are stated as the reference's own stages of the edge list. Each
  layer's stretch wraps negative source numbers, gathers the previous region's rows at the sources, sums them at the end
  nodes from the zero array, and recasts the layer's bias vector as a row. The last stretch takes the mean over each
  graph's nodes and recasts the classifier's bias as a row.
-/
import proofs.«151492_j3530463117755_2_alg».proof.Proof.Gen.KernelIdeal.Frame
import proofs.«151492_j3530463117755_2_alg».proof.Proof.RefRead
import Idealize.ShloMosaic.Lib.StableHlo.Run
import Idealize.ShloMosaic.PureOps.Ideal
import proofs.«151492_j3530463117755_2_alg».proof.Proof.LibTRefCast

set_option maxRecDepth 16384
set_option maxHeartbeats 1000000

noncomputable section

namespace Cert.KernelIdeal.KHost

open Cert.KernelIdeal Cert.KernelIdeal.Gen Idealize.ShloMosaic Idealize.ShloMosaic.TcCoe Idealize.SL.Sem
open Idealize.ShloMosaic.StableHlo
open Cert.ReferenceIdeal.ReadP

variable (m : (ℓ : Loc nD τ sig) → Buf (Elt Ideal) ℓ) (ρ : Dev nD → PrngReg) (c : Dev nD)

/-! ## The first stretch: the edge lists with the self-loops, and the node factors -/

set_option maxRecDepth 100000 in
/-- The edges' source nodes, self-loops appended. -/
theorem src_W1 : W1 m ρ c (Proc.devRef .tc main_call0_v5) = val_main_v5 (F := Ideal) (m ((c : Thread nD τ).loc main_arg1)) := by
  dsimp only [W1, W0, hostOps0]
  after_results_simp <;> rfl

set_option maxRecDepth 100000 in
/-- The edges' end nodes, self-loops appended. -/
theorem dst_W1 : W1 m ρ c (Proc.devRef .tc main_call0_v6) = val_main_v6 (F := Ideal) (m ((c : Thread nD τ).loc main_arg1)) := by
  dsimp only [W1, W0, hostOps0]
  after_results_simp <;> rfl

/-- Two lines of host operations run one after the other. -/
theorem after_append {τ : Topo} {sig : RefSig} {Val : EltTy → Type} (l₁ l₂ : List (HloOp τ sig Val))
    (V : Valuation τ sig Val) : StableHlo.after (l₁ ++ l₂) V = StableHlo.after l₂ (StableHlo.after l₁ V) := by
  induction l₁ generalizing V with
  | nil => rfl
  | cons op l ih => simp only [List.cons_append, StableHlo.after_cons, ih]

/-- The buffer contents after the stretch's first seven operations, which make the two edge lists. -/
def edgesDone : Valuation τ sig (Elt Ideal) :=
  StableHlo.after ((hostOps0 : List (HloOp τ sig (Elt Ideal))).take 7) (W0 m ρ c)

/-- The rest of the first stretch runs from there. -/
theorem W1_eq : W1 m ρ c = StableHlo.after ((hostOps0 : List (HloOp τ sig (Elt Ideal))).drop 7) (edgesDone m ρ c) := by
  unfold edgesDone
  rw [← after_append, List.take_append_drop]

set_option maxRecDepth 100000 in
/-- The edges' end nodes after the first seven operations. -/
theorem dst_edgesDone : edgesDone m ρ c (Proc.devRef .tc main_call0_v6) = val_main_v6 (F := Ideal) (m ((c : Thread nD τ).loc main_arg1)) := by
  unfold edgesDone
  dsimp only [W0, hostOps0, List.take]
  after_results_simp <;> rfl

/-- The factor vector's buffer has the factor vector's type: storing into it changes nothing. -/
theorem toBuf_factors (h1 h2 h3) (v : (⟨S100000, .f32⟩ : BufTy).Contents (Elt Ideal)) :
    (TRef.of (T := ⟨S100000, .f32⟩) main_call0_v16 h1 h2 h3).toBuf v = v := rfl

/-- The end-node list's buffer has the list's type: reading from it changes nothing. -/
theorem ofBuf_ends (h1 h2 h3) (e : (main_call0_v6 : Ref sig .tc).ty.Contents (Elt Ideal)) :
    (TRef.of (T := ⟨S1700000, .i32⟩) main_call0_v6 h1 h2 h3).ofBuf e = e := rfl

/-- The node factors as a function of the end-node list: the count of the edges ending at a node (the scatter of ones),
    and of it  select(count > 0, rsqrt(max(count, 1)), 0). -/
def factorOf (e6 : IVec S1700000 32) : S100000.Idx → EReal :=
  select
      (cmpf .ogt
        (Host.scatterAdd (F := Ideal) (φ := .f32) scatter_S100000_S1700000x1_S1700000_n_0_0_1
          (broadcastInDim S100000 ![] bcast_S_S100000 (constant (F := Ideal) S_ .f32 0x00000000#32))
          (broadcastInDim S1700000x1 ![0] bcast_S1700000_S1700000x1_0 e6)
          (broadcastInDim S1700000 ![] bcast_S_S1700000 (constant (F := Ideal) S_ .f32 0x3F800000#32)))
        (broadcastInDim S100000 ![] bcast_S_S100000 (constant (F := Ideal) S_ .f32 0x00000000#32)))
      (Host.rsqrt
        (maximumf
          (Host.scatterAdd (F := Ideal) (φ := .f32) scatter_S100000_S1700000x1_S1700000_n_0_0_1
            (broadcastInDim S100000 ![] bcast_S_S100000 (constant (F := Ideal) S_ .f32 0x00000000#32))
            (broadcastInDim S1700000x1 ![0] bcast_S1700000_S1700000x1_0 e6)
            (broadcastInDim S1700000 ![] bcast_S_S1700000 (constant (F := Ideal) S_ .f32 0x3F800000#32)))
          (broadcastInDim S100000 ![] bcast_S_S100000 (constant (F := Ideal) S_ .f32 0x3F800000#32))))
      (broadcastInDim S100000 ![] bcast_S_S100000 (id (constant (F := Ideal) S_ .f32 0x00000000#32)))

/-- It is the reference's factor stage, at the reference's end-node list. -/
theorem factorOf_eq (x1 : IVec S2x1600000 32) :
    factorOf (val_main_v6 (F := Ideal) x1) = val_main_v16 (F := Ideal) x1 := rfl

/-- The node factors, as a vector, after the whole stretch. -/
theorem dinv_raw : W1 m ρ c (Proc.devRef .tc main_call0_v16)
    = factorOf (edgesDone m ρ c (Proc.devRef .tc main_call0_v6)) := by
  rw [W1_eq]
  dsimp only [hostOps0, List.drop]
  after_results_simp
  try simp only [Cert.LibTRefCast.ofBuf_toBuf]
  rw [toBuf_factors, ofBuf_ends]
  unfold factorOf
  rfl

/-- The node factors, as a vector. -/
theorem dinv_W1 : W1 m ρ c (Proc.devRef .tc main_call0_v16) = val_main_v16 (F := Ideal) (m ((c : Thread nD τ).loc main_arg1)) := by
  rw [dinv_raw, dst_edgesDone, factorOf_eq]

/-- The node factors, as a column, after the whole stretch: the vector recast. -/
theorem dcol_raw : W1 m ρ c (Proc.devRef .tc main_call0_v17)
    = shapeCast S100000x1 (factorOf (edgesDone m ρ c (Proc.devRef .tc main_call0_v6))) shapeCasts_S100000_S100000x1 := by
  rw [W1_eq]
  dsimp only [hostOps0, List.drop]
  after_results_simp
  try simp only [Cert.LibTRefCast.ofBuf_toBuf]
  rw [toBuf_factors, ofBuf_ends]
  unfold factorOf
  rfl

/-- The node factors, as a column. -/
theorem dcol_W1 : W1 m ρ c (Proc.devRef .tc main_call0_v17)
    = shapeCast S100000x1 (val_main_v16 (F := Ideal) (m ((c : Thread nD τ).loc main_arg1))) shapeCasts_S100000_S100000x1 := by
  rw [dcol_raw, dst_edgesDone, factorOf_eq]

/-! ## A layer's stretch -/

/-- A list of node numbers with the negative ones wrapped by the number of nodes, as a column of indices. -/
def wrapCol (x : IVec S1700000 32) : IVec S1700000x1 32 :=
  broadcastInDim S1700000x1 ![0] bcast_S1700000_S1700000x1_0
    (select (cmpi .slt x (broadcastInDim S1700000 ![] bcast_S_S1700000 (constantI S_ 32 0#32)))
      (addi x (broadcastInDim S1700000 ![] bcast_S_S1700000 (constantI S_ 32 100000#32))) x)

/-- The neighbour sums of layer 1: the previous region's rows gathered at the wrapped source nodes, summed at the end nodes. -/
theorem agg1_raw : W3 m ρ c (Proc.devRef .tc main_call0_v28)
    = Host.scatterAdd scatter_S100000x128_S1700000x1_S1700000x128_1_0_0_1
        (broadcastInDim S100000x128 ![] bcast_S_S100000x128 (constant (F := Ideal) S_ .f32 0x00000000#32))
        (broadcastInDim S1700000x1 ![0] bcast_S1700000_S1700000x1_0 (W2 m ρ c (Proc.devRef .tc main_call0_v6)))
        (Host.gather gather_S100000x128_S1700000x1_S1700000x128_1_0_n_n_0_1_1128
          (W2 m ρ c (Proc.devRef .tc main_call0_v18)) (wrapCol (W2 m ρ c (Proc.devRef .tc main_call0_v5)))) := by
  dsimp only [W3, hostOps1]
  after_results_simp
  try simp only [Cert.LibTRefCast.ofBuf_toBuf]
  first | rfl | (unfold wrapCol; rfl)

/-- The bias of layer 1 as a row. -/
theorem brow1_raw : W3 m ρ c (Proc.devRef .tc main_call0_v29)
    = shapeCast S1x128 (W2 m ρ c (Proc.devRef .tc main_arg4)) shapeCasts_S128_S1x128 := by
  dsimp only [W3, hostOps1]
  after_results_simp
  try simp only [Cert.LibTRefCast.ofBuf_toBuf]
  first | rfl | (unfold wrapCol; rfl)

/-- The neighbour sums of layer 2: the previous region's rows gathered at the wrapped source nodes, summed at the end nodes. -/
theorem agg2_raw : W5 m ρ c (Proc.devRef .tc main_call0_v40)
    = Host.scatterAdd scatter_S100000x128_S1700000x1_S1700000x128_1_0_0_1
        (broadcastInDim S100000x128 ![] bcast_S_S100000x128 (constant (F := Ideal) S_ .f32 0x00000000#32))
        (broadcastInDim S1700000x1 ![0] bcast_S1700000_S1700000x1_0 (W4 m ρ c (Proc.devRef .tc main_call0_v6)))
        (Host.gather gather_S100000x128_S1700000x1_S1700000x128_1_0_n_n_0_1_1128
          (W4 m ρ c (Proc.devRef .tc main_call0_v30)) (wrapCol (W4 m ρ c (Proc.devRef .tc main_call0_v5)))) := by
  dsimp only [W5, hostOps2]
  after_results_simp
  try simp only [Cert.LibTRefCast.ofBuf_toBuf]
  first | rfl | (unfold wrapCol; rfl)

/-- The bias of layer 2 as a row. -/
theorem brow2_raw : W5 m ρ c (Proc.devRef .tc main_call0_v41)
    = shapeCast S1x128 (W4 m ρ c (Proc.devRef .tc main_arg6)) shapeCasts_S128_S1x128 := by
  dsimp only [W5, hostOps2]
  after_results_simp
  try simp only [Cert.LibTRefCast.ofBuf_toBuf]
  first | rfl | (unfold wrapCol; rfl)

/-- The neighbour sums of layer 3: the previous region's rows gathered at the wrapped source nodes, summed at the end nodes. -/
theorem agg3_raw : W7 m ρ c (Proc.devRef .tc main_call0_v52)
    = Host.scatterAdd scatter_S100000x128_S1700000x1_S1700000x128_1_0_0_1
        (broadcastInDim S100000x128 ![] bcast_S_S100000x128 (constant (F := Ideal) S_ .f32 0x00000000#32))
        (broadcastInDim S1700000x1 ![0] bcast_S1700000_S1700000x1_0 (W6 m ρ c (Proc.devRef .tc main_call0_v6)))
        (Host.gather gather_S100000x128_S1700000x1_S1700000x128_1_0_n_n_0_1_1128
          (W6 m ρ c (Proc.devRef .tc main_call0_v42)) (wrapCol (W6 m ρ c (Proc.devRef .tc main_call0_v5)))) := by
  dsimp only [W7, hostOps3]
  after_results_simp
  try simp only [Cert.LibTRefCast.ofBuf_toBuf]
  first | rfl | (unfold wrapCol; rfl)

/-- The bias of layer 3 as a row. -/
theorem brow3_raw : W7 m ρ c (Proc.devRef .tc main_call0_v53)
    = shapeCast S1x128 (W6 m ρ c (Proc.devRef .tc main_arg8)) shapeCasts_S128_S1x128 := by
  dsimp only [W7, hostOps3]
  after_results_simp
  try simp only [Cert.LibTRefCast.ofBuf_toBuf]
  first | rfl | (unfold wrapCol; rfl)

/-! ## The last stretch: the mean over each graph's nodes, and the classifier's bias as a row -/

/-- The pooled rows: the last layer's rows summed per graph, divided by the graph's node count (at least 1). -/
theorem pooled_raw : W9 m ρ c (Proc.devRef .tc main_call0_v66)
    = Host.divf
        (Host.scatterAdd scatter_S64x128_S100000x1_S100000x128_1_0_0_1
          (broadcastInDim S64x128 ![] bcast_S_S64x128 (constant (F := Ideal) S_ .f32 0x00000000#32))
          (broadcastInDim S100000x1 ![0] bcast_S100000_S100000x1_0 (W8 m ρ c (Proc.devRef .tc main_arg2)))
          (W8 m ρ c (Proc.devRef .tc main_call0_v54)))
        (broadcastInDim S64x128 ![0, 1] bcast_S64x1_S64x128_0_1 (broadcastInDim S64x1 ![0] bcast_S64_S64x1_0
          (maximumf
            (Host.scatterAdd scatter_S64_S100000x1_S100000_n_0_0_1
              (broadcastInDim S64 ![] bcast_S_S64 (constant (F := Ideal) S_ .f32 0x00000000#32))
              (broadcastInDim S100000x1 ![0] bcast_S100000_S100000x1_0 (W8 m ρ c (Proc.devRef .tc main_arg2)))
              (broadcastInDim S100000 ![] bcast_S_S100000 (constant (F := Ideal) S_ .f32 0x3F800000#32)))
            (broadcastInDim S64 ![] bcast_S_S64 (constant (F := Ideal) S_ .f32 0x3F800000#32))))) := by
  dsimp only [W9, hostOps4]
  after_results_simp
  try simp only [Cert.LibTRefCast.ofBuf_toBuf]
  first | rfl | (unfold wrapCol; rfl)

/-- The classifier's bias as a row. -/
theorem blrow_raw : W9 m ρ c (Proc.devRef .tc main_call0_v67)
    = shapeCast S1x10 (W8 m ρ c (Proc.devRef .tc main_arg10)) shapeCasts_S10_S1x10 := by
  dsimp only [W9, hostOps4]
  after_results_simp
  try simp only [Cert.LibTRefCast.ofBuf_toBuf]
  first | rfl | (unfold wrapCol; rfl)

end Cert.KernelIdeal.KHost

end
-- ==== Proof.KKeep.lean ====
/-
  Which buffers the program leaves alone on its way, and up to where.

  The program is ten segments: five stretches of host operations, each followed by a region. A stretch of host operations
  changes only the buffers its operations write; a region changes only its own output arrays, and hands its input arrays
  back as it found them. So a buffer that the first segments neither write nor own still holds, when it is read, what it
  held earlier: an argument holds what the launch put there; the two edge lists and the column of node factors, which the
  first stretch computes, hold after the later segments what they held after that first stretch. The column of factors is
  an input array of the first three regions, which is the one place where "hands its inputs back" is used.
-/
import proofs.«151492_j3530463117755_2_alg».proof.Proof.Gen.KernelIdeal.Frame
import Idealize.ShloMosaic.Lib.StableHlo.Run
import Idealize.ShloMosaic.PureOps.Ideal

set_option maxRecDepth 16384

namespace Cert.KernelIdeal.KKeep

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- No operation of the named stretch writes the buffer in question: each operation's written buffer is compared with it. -/
local macro "unwritten " ops:ident : tactic => `(tactic|
  exact List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## A buffer no segment touches, from the launch upward, one segment at a time -/

section Ladder

variable (b : Ref sig .tc)
  (h0 : ∀ op ∈ hostOps0 (F := Ideal), Proc.devRef (τ := τ) .tc b ∉ op.writes)

include h0 in
theorem keep1 : W1 m ρ c (Proc.devRef .tc b) = m ((c : Thread nD τ).loc b) :=
  (StableHlo.after_of_forall_not_mem (b := Proc.devRef .tc b) _ _ h0).trans rfl

variable (r0 : ∀ w, Pipeline.arrRef spec0 w ≠ b)

include h0 r0 in
theorem keep2 : W2 m ρ c (Proc.devRef .tc b) = m ((c : Thread nD τ).loc b) :=
  (W2_of_ne m ρ c b r0).trans (keep1 m ρ c b h0)

variable (h1 : ∀ op ∈ hostOps1 (F := Ideal), Proc.devRef (τ := τ) .tc b ∉ op.writes)

include h0 r0 h1 in
theorem keep3 : W3 m ρ c (Proc.devRef .tc b) = m ((c : Thread nD τ).loc b) :=
  (StableHlo.after_of_forall_not_mem (b := Proc.devRef .tc b) _ _ h1).trans (keep2 m ρ c b h0 r0)

variable (r1 : ∀ w, Pipeline.arrRef spec1 w ≠ b)

include h0 r0 h1 r1 in
theorem keep4 : W4 m ρ c (Proc.devRef .tc b) = m ((c : Thread nD τ).loc b) :=
  (W4_of_ne m ρ c b r1).trans (keep3 m ρ c b h0 r0 h1)

variable (h2 : ∀ op ∈ hostOps2 (F := Ideal), Proc.devRef (τ := τ) .tc b ∉ op.writes)

include h0 r0 h1 r1 h2 in
theorem keep5 : W5 m ρ c (Proc.devRef .tc b) = m ((c : Thread nD τ).loc b) :=
  (StableHlo.after_of_forall_not_mem (b := Proc.devRef .tc b) _ _ h2).trans (keep4 m ρ c b h0 r0 h1 r1)

variable (r2 : ∀ w, Pipeline.arrRef spec2 w ≠ b)

include h0 r0 h1 r1 h2 r2 in
theorem keep6 : W6 m ρ c (Proc.devRef .tc b) = m ((c : Thread nD τ).loc b) :=
  (W6_of_ne m ρ c b r2).trans (keep5 m ρ c b h0 r0 h1 r1 h2)

variable (h3 : ∀ op ∈ hostOps3 (F := Ideal), Proc.devRef (τ := τ) .tc b ∉ op.writes)

include h0 r0 h1 r1 h2 r2 h3 in
theorem keep7 : W7 m ρ c (Proc.devRef .tc b) = m ((c : Thread nD τ).loc b) :=
  (StableHlo.after_of_forall_not_mem (b := Proc.devRef .tc b) _ _ h3).trans (keep6 m ρ c b h0 r0 h1 r1 h2 r2)

variable (r3 : ∀ w, Pipeline.arrRef spec3 w ≠ b)

include h0 r0 h1 r1 h2 r2 h3 r3 in
theorem keep8 : W8 m ρ c (Proc.devRef .tc b) = m ((c : Thread nD τ).loc b) :=
  (W8_of_ne m ρ c b r3).trans (keep7 m ρ c b h0 r0 h1 r1 h2 r2 h3)

variable (h4 : ∀ op ∈ hostOps4 (F := Ideal), Proc.devRef (τ := τ) .tc b ∉ op.writes)

include h0 r0 h1 r1 h2 r2 h3 r3 h4 in
theorem keep9 : W9 m ρ c (Proc.devRef .tc b) = m ((c : Thread nD τ).loc b) :=
  (StableHlo.after_of_forall_not_mem (b := Proc.devRef .tc b) _ _ h4).trans (keep8 m ρ c b h0 r0 h1 r1 h2 r2 h3 r3)

end Ladder

/-! ## The arguments, each where it is read -/

/-- The node features, at the first region's entry. -/
theorem x_W1 : W1 m ρ c (Proc.devRef .tc main_arg0) = m ((c : Thread nD τ).loc main_arg0) :=
  keep1 m ρ c main_arg0 (by unwritten hostOps0)

/-- The first layer's weights, at the first region's entry. -/
theorem w1_W1 : W1 m ρ c (Proc.devRef .tc main_arg3) = m ((c : Thread nD τ).loc main_arg3) :=
  keep1 m ρ c main_arg3 (by unwritten hostOps0)

/-- The first layer's bias, after the first region. -/
theorem b1_W2 : W2 m ρ c (Proc.devRef .tc main_arg4) = m ((c : Thread nD τ).loc main_arg4) :=
  keep2 m ρ c main_arg4 (by unwritten hostOps0) (by decide)

/-- The second layer's weights, at the second region's entry. -/
theorem w2_W3 : W3 m ρ c (Proc.devRef .tc main_arg5) = m ((c : Thread nD τ).loc main_arg5) :=
  keep3 m ρ c main_arg5 (by unwritten hostOps0) (by decide) (by unwritten hostOps1)

/-- The second layer's bias, after the second region. -/
theorem b2_W4 : W4 m ρ c (Proc.devRef .tc main_arg6) = m ((c : Thread nD τ).loc main_arg6) :=
  keep4 m ρ c main_arg6 (by unwritten hostOps0) (by decide) (by unwritten hostOps1) (by decide)

/-- The third layer's weights, at the third region's entry. -/
theorem w3_W5 : W5 m ρ c (Proc.devRef .tc main_arg7) = m ((c : Thread nD τ).loc main_arg7) :=
  keep5 m ρ c main_arg7 (by unwritten hostOps0) (by decide) (by unwritten hostOps1) (by decide) (by unwritten hostOps2)

/-- The third layer's bias, after the third region. -/
theorem b3_W6 : W6 m ρ c (Proc.devRef .tc main_arg8) = m ((c : Thread nD τ).loc main_arg8) :=
  keep6 m ρ c main_arg8 (by unwritten hostOps0) (by decide) (by unwritten hostOps1) (by decide) (by unwritten hostOps2)
    (by decide)

/-- The nodes' graph numbers, after the fourth region. -/
theorem batch_W8 : W8 m ρ c (Proc.devRef .tc main_arg2) = m ((c : Thread nD τ).loc main_arg2) :=
  keep8 m ρ c main_arg2 (by unwritten hostOps0) (by decide) (by unwritten hostOps1) (by decide) (by unwritten hostOps2)
    (by decide) (by unwritten hostOps3) (by decide)

/-- The classifier's bias, after the fourth region. -/
theorem bl_W8 : W8 m ρ c (Proc.devRef .tc main_arg10) = m ((c : Thread nD τ).loc main_arg10) :=
  keep8 m ρ c main_arg10 (by unwritten hostOps0) (by decide) (by unwritten hostOps1) (by decide) (by unwritten hostOps2)
    (by decide) (by unwritten hostOps3) (by decide)

/-- The classifier's weights, at the last region's entry. -/
theorem wl_W9 : W9 m ρ c (Proc.devRef .tc main_arg9) = m ((c : Thread nD τ).loc main_arg9) :=
  keep9 m ρ c main_arg9 (by unwritten hostOps0) (by decide) (by unwritten hostOps1) (by decide) (by unwritten hostOps2)
    (by decide) (by unwritten hostOps3) (by decide) (by unwritten hostOps4)

/-! ## The edge lists: computed by the first stretch, touched by nothing after it -/

section Edges

variable (b : Ref sig .tc) (r0 : ∀ w, Pipeline.arrRef spec0 w ≠ b)
  (h1 : ∀ op ∈ hostOps1 (F := Ideal), Proc.devRef (τ := τ) .tc b ∉ op.writes) (r1 : ∀ w, Pipeline.arrRef spec1 w ≠ b)
  (h2 : ∀ op ∈ hostOps2 (F := Ideal), Proc.devRef (τ := τ) .tc b ∉ op.writes) (r2 : ∀ w, Pipeline.arrRef spec2 w ≠ b)

include r0 h1 r1 in
theorem same4 : W4 m ρ c (Proc.devRef .tc b) = W1 m ρ c (Proc.devRef .tc b) :=
  (W4_of_ne m ρ c b r1).trans
    ((StableHlo.after_of_forall_not_mem (b := Proc.devRef .tc b) _ _ h1).trans (W2_of_ne m ρ c b r0))

include r0 h1 r1 h2 r2 in
theorem same6 : W6 m ρ c (Proc.devRef .tc b) = W1 m ρ c (Proc.devRef .tc b) :=
  (W6_of_ne m ρ c b r2).trans
    ((StableHlo.after_of_forall_not_mem (b := Proc.devRef .tc b) _ _ h2).trans (same4 m ρ c b r0 h1 r1))

end Edges

/-- The edges' source nodes. -/
theorem src_W2 : W2 m ρ c (Proc.devRef .tc main_call0_v5) = W1 m ρ c (Proc.devRef .tc main_call0_v5) :=
  W2_of_ne m ρ c main_call0_v5 (by decide)
theorem src_W4 : W4 m ρ c (Proc.devRef .tc main_call0_v5) = W1 m ρ c (Proc.devRef .tc main_call0_v5) :=
  same4 m ρ c main_call0_v5 (by decide) (by unwritten hostOps1) (by decide)
theorem src_W6 : W6 m ρ c (Proc.devRef .tc main_call0_v5) = W1 m ρ c (Proc.devRef .tc main_call0_v5) :=
  same6 m ρ c main_call0_v5 (by decide) (by unwritten hostOps1) (by decide) (by unwritten hostOps2) (by decide)

/-- The edges' destination nodes. -/
theorem dst_W2 : W2 m ρ c (Proc.devRef .tc main_call0_v6) = W1 m ρ c (Proc.devRef .tc main_call0_v6) :=
  W2_of_ne m ρ c main_call0_v6 (by decide)
theorem dst_W4 : W4 m ρ c (Proc.devRef .tc main_call0_v6) = W1 m ρ c (Proc.devRef .tc main_call0_v6) :=
  same4 m ρ c main_call0_v6 (by decide) (by unwritten hostOps1) (by decide)
theorem dst_W6 : W6 m ρ c (Proc.devRef .tc main_call0_v6) = W1 m ρ c (Proc.devRef .tc main_call0_v6) :=
  same6 m ρ c main_call0_v6 (by decide) (by unwritten hostOps1) (by decide) (by unwritten hostOps2) (by decide)

/-! ## The column of node factors: an input of the first three regions, which hand it back as they found it -/

theorem dcol_W3 : W3 m ρ c (Proc.devRef .tc main_call0_v17) = W1 m ρ c (Proc.devRef .tc main_call0_v17) :=
  calc W3 m ρ c (Proc.devRef .tc main_call0_v17)
    _ = W2 m ρ c (Proc.devRef .tc main_call0_v17) :=
        StableHlo.after_of_forall_not_mem (b := Proc.devRef .tc main_call0_v17) _ _ (by unwritten hostOps1)
    _ = W1 m ρ c (Proc.devRef .tc main_call0_v17) :=
        (W2_arr m ρ c 2).trans (((dat0 (V1 m ρ) c).arrAt_in 2 rfl _).trans (A_eq0 (V1 m ρ) c 2))

theorem dcol_W5 : W5 m ρ c (Proc.devRef .tc main_call0_v17) = W1 m ρ c (Proc.devRef .tc main_call0_v17) :=
  calc W5 m ρ c (Proc.devRef .tc main_call0_v17)
    _ = W4 m ρ c (Proc.devRef .tc main_call0_v17) :=
        StableHlo.after_of_forall_not_mem (b := Proc.devRef .tc main_call0_v17) _ _ (by unwritten hostOps2)
    _ = W3 m ρ c (Proc.devRef .tc main_call0_v17) :=
        (W4_arr m ρ c 1).trans (((dat1 (V3 m ρ) c).arrAt_in 1 rfl _).trans (A_eq1 (V3 m ρ) c 1))
    _ = W1 m ρ c (Proc.devRef .tc main_call0_v17) := dcol_W3 m ρ c

theorem dcol_W7 : W7 m ρ c (Proc.devRef .tc main_call0_v17) = W1 m ρ c (Proc.devRef .tc main_call0_v17) :=
  calc W7 m ρ c (Proc.devRef .tc main_call0_v17)
    _ = W6 m ρ c (Proc.devRef .tc main_call0_v17) :=
        StableHlo.after_of_forall_not_mem (b := Proc.devRef .tc main_call0_v17) _ _ (by unwritten hostOps3)
    _ = W5 m ρ c (Proc.devRef .tc main_call0_v17) :=
        (W6_arr m ρ c 1).trans (((dat2 (V5 m ρ) c).arrAt_in 1 rfl _).trans (A_eq2 (V5 m ρ) c 1))
    _ = W1 m ρ c (Proc.devRef .tc main_call0_v17) := dcol_W5 m ρ c

end Cert.KernelIdeal.KKeep
-- ==== Proof.Spec.lean ====
/-
  A three-layer graph convolution network with mean pooling and a softmax head: the pieces of its value, entry by entry,
  over the extended reals.

  There are 100000 nodes with 128 channels, 64 graphs and 10 classes. Each node n has a factor d(n), stored as the one
  column of a 100000 × 1 array. The program computes the layers in a factored arrangement:

    prescale A W d   (n, q) ↦ (∑ k, A(n, k) · W(k, q)) · d(n)              a dense transform, each row scaled by its factor
    finish S d β     (n, q) ↦ max (S(n, q) · d(n) + β(q)) 0                a neighbour sum, scaled, plus a bias row, ramped
    fused S d β W    = prescale (finish S d β) W d                         the end of one layer and the start of the next
    biasFinal S d β  (n, q) ↦ S(n, q) · d(n) + β(q)                        the end of the last layer (no ramp)
    logits H W β     (g, o) ↦ (∑ k, H(g, k) · W(k, o)) + β(o)              the classifier on the pooled rows
    softmaxRows L    (g, o) ↦ exp (L(g, o) − M g) / ∑ o', exp (L(g, o') − M g),   M g = max w (max over o' of L(g, o') folded from w), w the −∞ word

  The bias rows are stored as 1 × 128 (1 × 10) arrays. Division is the extended reals' guarded one (Ideal.div), the
  exponential is Ideal.exp, and the maximum over a row is the fold of max from the single-precision word for −∞.
-/
import Idealize.ShloMosaic.PureOps.Ideal
import Idealize.ShloMosaic.Lib.ValueIdx

noncomputable section

namespace Cert.Gcn

open Idealize.ShloMosaic Idealize.ShloMosaic.ValueIdx

/-- nodes × channels -/
abbrev SNC : Shape := ⟨2, ![100000, 128]⟩
/-- the node factors as a column -/
abbrev SN1 : Shape := ⟨2, ![100000, 1]⟩
/-- a weight matrix -/
abbrev SCC : Shape := ⟨2, ![128, 128]⟩
/-- a bias row -/
abbrev S1C : Shape := ⟨2, ![1, 128]⟩
/-- graphs × channels -/
abbrev SGC : Shape := ⟨2, ![64, 128]⟩
/-- the classifier's weights -/
abbrev SCO : Shape := ⟨2, ![128, 10]⟩
/-- the classifier's bias row -/
abbrev S1O : Shape := ⟨2, ![1, 10]⟩
/-- graphs × classes -/
abbrev SGO : Shape := ⟨2, ![64, 10]⟩

/-- A dense transform with each row scaled by its node's factor. -/
def prescale (A : SNC.Idx → EReal) (W : SCC.Idx → EReal) (d : SN1.Idx → EReal) : SNC.Idx → EReal :=
  fun i => (∑ k : Fin 128, A (ix2 (show Fin 100000 from i 0) k) * W (ix2 k (show Fin 128 from i 1)))
    * d (ix2 (show Fin 100000 from i 0) (0 : Fin 1))

theorem prescale_apply (A : SNC.Idx → EReal) (W : SCC.Idx → EReal) (d : SN1.Idx → EReal) (p : Fin 100000) (q : Fin 128) :
    prescale A W d (ix2 p q) = (∑ k : Fin 128, A (ix2 p k) * W (ix2 k q)) * d (ix2 p (0 : Fin 1)) := rfl

/-- A neighbour sum scaled by the node's factor, plus the bias row, ramped at zero. -/
def finish (S : SNC.Idx → EReal) (d : SN1.Idx → EReal) (β : S1C.Idx → EReal) : SNC.Idx → EReal :=
  fun i => max (S i * d (ix2 (show Fin 100000 from i 0) (0 : Fin 1)) + β (ix2 (0 : Fin 1) (show Fin 128 from i 1))) 0

theorem finish_apply (S : SNC.Idx → EReal) (d : SN1.Idx → EReal) (β : S1C.Idx → EReal) (p : Fin 100000) (q : Fin 128) :
    finish S d β (ix2 p q) = max (S (ix2 p q) * d (ix2 p (0 : Fin 1)) + β (ix2 (0 : Fin 1) q)) 0 := rfl

/-- The end of one layer and the start of the next. -/
def fused (S : SNC.Idx → EReal) (d : SN1.Idx → EReal) (β : S1C.Idx → EReal) (W : SCC.Idx → EReal) : SNC.Idx → EReal :=
  prescale (finish S d β) W d

theorem fused_apply (S : SNC.Idx → EReal) (d : SN1.Idx → EReal) (β : S1C.Idx → EReal) (W : SCC.Idx → EReal)
    (p : Fin 100000) (q : Fin 128) :
    fused S d β W (ix2 p q)
      = (∑ k : Fin 128, max (S (ix2 p k) * d (ix2 p (0 : Fin 1)) + β (ix2 (0 : Fin 1) k)) 0 * W (ix2 k q))
        * d (ix2 p (0 : Fin 1)) := rfl

/-- The end of the last layer: scaled, plus the bias row, no ramp. -/
def biasFinal (S : SNC.Idx → EReal) (d : SN1.Idx → EReal) (β : S1C.Idx → EReal) : SNC.Idx → EReal :=
  fun i => S i * d (ix2 (show Fin 100000 from i 0) (0 : Fin 1)) + β (ix2 (0 : Fin 1) (show Fin 128 from i 1))

theorem biasFinal_apply (S : SNC.Idx → EReal) (d : SN1.Idx → EReal) (β : S1C.Idx → EReal) (p : Fin 100000) (q : Fin 128) :
    biasFinal S d β (ix2 p q) = S (ix2 p q) * d (ix2 p (0 : Fin 1)) + β (ix2 (0 : Fin 1) q) := rfl

/-- The classifier on the pooled rows. -/
def logits (H : SGC.Idx → EReal) (W : SCO.Idx → EReal) (β : S1O.Idx → EReal) : SGO.Idx → EReal :=
  fun i => (∑ k : Fin 128, H (ix2 (show Fin 64 from i 0) k) * W (ix2 k (show Fin 10 from i 1)))
    + β (ix2 (0 : Fin 1) (show Fin 10 from i 1))

theorem logits_apply (H : SGC.Idx → EReal) (W : SCO.Idx → EReal) (β : S1O.Idx → EReal) (g : Fin 64) (o : Fin 10) :
    logits H W β (ix2 g o) = (∑ k : Fin 128, H (ix2 g k) * W (ix2 k o)) + β (ix2 (0 : Fin 1) o) := rfl

/-- The value of the single-precision word for −∞, kept as the word: both programs start their row maxima from it. -/
def negInf : EReal := Ideal.ofBits .f32 0xFF800000#32

/-- The maximum of a row of a 64 × 10 array, folded from the −∞ word, and once more against it. -/
def rowMax (L : SGO.Idx → EReal) (g : Fin 64) : EReal :=
  max negInf ((Finset.univ : Finset (Fin 10)).fold max negInf fun o => L (ix2 g o))

/-- The softmax of each row. -/
def softmaxRows (L : SGO.Idx → EReal) : SGO.Idx → EReal :=
  fun i => Ideal.div (Ideal.exp (L i - rowMax L (show Fin 64 from i 0)))
    (∑ o : Fin 10, Ideal.exp (L (ix2 (show Fin 64 from i 0) o) - rowMax L (show Fin 64 from i 0)))

theorem softmaxRows_apply (L : SGO.Idx → EReal) (g : Fin 64) (o : Fin 10) :
    softmaxRows L (ix2 g o)
      = Ideal.div (Ideal.exp (L (ix2 g o) - rowMax L g)) (∑ o' : Fin 10, Ideal.exp (L (ix2 g o') - rowMax L g)) := rfl

/-- The head: the classifier, then the softmax of each row. -/
def head (H : SGC.Idx → EReal) (W : SCO.Idx → EReal) (β : S1O.Idx → EReal) : SGO.Idx → EReal :=
  softmaxRows (logits H W β)

end Cert.Gcn

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibRowStat.lean ====
/-
  Rows of a rank-2 array: the keepdims layouts of a row statistic, read at an index written by coordinates.

  A statistic of each row of an [a, b] array (a sum over the b lanes) is an [a] vector; to be combined with the array again it
  is cast to an [a, 1] column and the column is broadcast back over the b lanes. Each of these reads its operand at the row
  coordinate alone; the lane sum ranges over the lane coordinate.
-/
import Idealize.ShloMosaic.PureOps.Ideal.Laws
import Idealize.ShloMosaic.Lib.ValueIdx
import Idealize.ShloMosaic.Lib.Pipeline.Value

namespace Cert.LibRowStat

open Idealize.ShloMosaic Idealize.ShloMosaic.ValueIdx

variable {α : Type}

/-- An `[a, 1]` column broadcast to `[a, b]` reads, at `(p, q)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- The sum of an `[a, b]` array over its lanes reads, at row `p`, the sum over `k` of the array at `(p, k)`. At the ideal
    values. -/
theorem sum_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext
      (match ax with | ⟨0, _⟩ => rfl | ⟨1, _⟩ => rfl)))

end Cert.LibRowStat
-- ==== Proof.Region0.lean ====
/-
  The first region: a dense transform of the node features, each row scaled by its node's factor.

  The region walks the 100000 rows in ten blocks of 10000. At block t it holds rows 10000·t … 10000·t + 9999 of the
  features x, the same rows of the one-column array d of node factors, and the whole 128 × 128 weight matrix W, and
  leaves in the same rows of its result the array whose entry at local row p and column q is

      (∑ k, x(10000·t + p, k) · W(k, q)) · d(10000·t + p).

  Row p of the product reads row p of the block only, and the scaling reads the factor of the same row, so the block
  the region writes at t is exactly block t of the whole-array function prescale x W d. The ten blocks tile the rows
  (row r lies in block r / 10000), hence the result array ends holding prescale x W d.

  Rounding the two factors of the product to a narrower format is the identity over the extended reals, and the
  accumulator the product starts from is the zero word, whose value is 0.
-/
import proofs.«151492_j3530463117755_2_alg».proof.Proof.Gen.KernelIdeal.Frame
import proofs.«151492_j3530463117755_2_alg».proof.Proof.Spec
import proofs.«151492_j3530463117755_2_alg».proof.Proof.LibMatmulPlain
import proofs.«151492_j3530463117755_2_alg».proof.Proof.LibRowStat
import Idealize.ShloMosaic.Lib.Pipeline.Value
import Idealize.ShloMosaic.Lib.ValueIdx

namespace Cert.KernelIdeal.Region0

open Idealize.ShloMosaic Idealize.ShloMosaic.TcCoe Idealize.ShloMosaic.ValueIdx
open Idealize.SL.Sem
open Idealize.ShloMosaic.Pipeline (Dat)
open Cert.KernelIdeal Cert.KernelIdeal.Gen

/-- The zero offsets of a whole-block access, as a constant function. -/
theorem zero_offsets : (![0, 0] : Fin 2 → Nat) = fun _ => 0 := funext fun a => by fin_cases a <;> rfl

/-- The product's dimension numbers are the plain ones: contract the columns of the left factor with the rows of the
    right one. -/
theorem dims_plain : dot_S10000x128_S128x128_S10000x128_1_0_0_1_n_n = DotDims.plain 10000 128 128 := rfl

/-- The block the body stores, entry by entry: the product of the block of features with the weights, scaled by the
    block of factors. -/
theorem payload_apply (x0 : Vec Ideal S10000x128 .f32) (x1 : Vec Ideal S128x128 .f32) (x2 : Vec Ideal S10000x1 .f32)
    (p : Fin 10000) (q : Fin 128) :
    k0_pay1 (F := Ideal) x0 x1 x2 (ix2 p q)
      = (∑ k : Fin 128, x0 (ix2 p k) * x1 (ix2 k q)) * x2 (ix2 p (0 : Fin 1)) := by
  unfold k0_pay1
  rw [mulf_apply, dims_plain, Cert.LibMatmulPlain.matmul_plain_zero_apply, shapeCast_self,
    Cert.LibRowStat.broadcastTo_a1_ab_apply]
  rfl

/-- The printed block index maps, decided over the ten grid points: the blocks of features, factors and results at
    point t are the t-th blocks of rows; the weights are one block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The whole-array function at any index, by its coordinates. -/
theorem prescale_at (A : Cert.Gcn.SNC.Idx → EReal) (W : Cert.Gcn.SCC.Idx → EReal) (d : Cert.Gcn.SN1.Idx → EReal)
    (i : Cert.Gcn.SNC.Idx) :
    Cert.Gcn.prescale A W d i
      = (∑ k : Fin 128, A (ix2 (show Fin 100000 from i 0) k) * W (ix2 k (show Fin 128 from i 1)))
        * d (ix2 (show Fin 100000 from i 0) (0 : Fin 1)) := rfl

section Blocks

variable (V : (c : Dev nD) → (b : Ref sig .tc) → Buf (Elt Ideal) ((c : Thread nD τ).loc b))

/-- Row p of the block of features at point t is the row of the features that the result's block at t has at its
    row p. -/
theorem features_block (c : Dev nD) (t : Fin cfg0.N) (p : Fin 10000) (q k : Fin 128) :
    iblk0 V c 0 t (ix2 p k)
      = V c main_arg0 (ix2 (show Fin 100000 from ((cfg0.win 3).blk t).view.emb (ix2 p q) 0) k) := by
  obtain ⟨e0, e1, -, -, -, -, e6, -⟩ := index_facts t
  show V c main_arg0 (((cfg0.win 0).blk t).view.emb (ix2 p k)) = V c main_arg0 _
  refine congrArg (V c main_arg0) (funext fun a => Fin.ext ?_)
  match a with
  | ⟨0, _⟩ =>
    show win0_0.index t (0 : Fin 2) * 10000 + 1 * p.val = win0_3.index t (0 : Fin 2) * 10000 + 1 * p.val
    omega
  | ⟨1, _⟩ =>
    show win0_0.index t (1 : Fin 2) * 128 + 1 * k.val = k.val
    omega

/-- The block of weights at any point is the whole matrix. -/
theorem weights_block (c : Dev nD) (t : Fin cfg0.N) (k q : Fin 128) :
    iblk0 V c 1 t (ix2 k q) = V c main_arg3 (ix2 k q) := by
  obtain ⟨-, -, e2, e3, -, -, -, -⟩ := index_facts t
  show V c main_arg3 (((cfg0.win 1).blk t).view.emb (ix2 k q)) = V c main_arg3 _
  refine congrArg (V c main_arg3) (funext fun a => Fin.ext ?_)
  match a with
  | ⟨0, _⟩ =>
    show win0_1.index t (0 : Fin 2) * 128 + 1 * k.val = k.val
    omega
  | ⟨1, _⟩ =>
    show win0_1.index t (1 : Fin 2) * 128 + 1 * q.val = q.val
    omega

/-- Row p of the block of factors at point t is the factor of the row that the result's block at t has at its row p. -/
theorem factors_block (c : Dev nD) (t : Fin cfg0.N) (p : Fin 10000) (q : Fin 128) :
    iblk0 V c 2 t (ix2 p (0 : Fin 1))
      = V c main_call0_v17 (ix2 (show Fin 100000 from ((cfg0.win 3).blk t).view.emb (ix2 p q) 0) (0 : Fin 1)) := by
  obtain ⟨-, -, -, -, e4, e5, e6, -⟩ := index_facts t
  show V c main_call0_v17 (((cfg0.win 2).blk t).view.emb (ix2 p (0 : Fin 1))) = V c main_call0_v17 _
  refine congrArg (V c main_call0_v17) (funext fun a => Fin.ext ?_)
  match a with
  | ⟨0, _⟩ =>
    show win0_2.index t (0 : Fin 2) * 10000 + 1 * p.val = win0_3.index t (0 : Fin 2) * 10000 + 1 * p.val
    omega
  | ⟨1, _⟩ =>
    show win0_2.index t (1 : Fin 2) * 1 + 1 * 0 = 0
    omega

/-- The column of the result's block at point t is the column of the array. -/
theorem result_column (t : Fin cfg0.N) (p : Fin 10000) (q : Fin 128) :
    (show Fin 128 from ((cfg0.win 3).blk t).view.emb (ix2 p q) 1) = q := by
  obtain ⟨-, -, -, -, -, -, -, e7⟩ := index_facts t
  refine Fin.ext ?_
  show win0_3.index t (1 : Fin 2) * 128 + 1 * q.val = q.val
  omega

/-- What point t writes back is block t of the whole-array function. -/
theorem flushed_eq (c : Dev nD) (t : Fin cfg0.N) :
    (dat0 (F := Ideal) V c).flushed 3 t
      = ((cfg0.win 3).blk t).view.read (Elt Ideal)
          (Cert.Gcn.prescale (V c main_arg0) (V c main_arg3) (V c main_call0_v17)) := by
  show (cfg0.win 3).cut (grid0.coords t) ((dat0 (F := Ideal) V c).after 3 t) = _
  rw [after0_3]
  unfold out0_3
  rw [View.canon_unit_zero zero_offsets]
  simp only [View.ld_unit_zero (S := S10000x128) zero_offsets, View.ld_unit_zero (S := S128x128) zero_offsets,
    View.ld_unit_zero (S := S10000x1) zero_offsets]
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (iblk0 V c 2 t) (ix2 p q)
    = Cert.Gcn.prescale (V c main_arg0) (V c main_arg3) (V c main_call0_v17) (((cfg0.win 3).blk t).view.emb (ix2 p q))
  rw [payload_apply (iblk0 V c 0 t) (iblk0 V c 1 t) (iblk0 V c 2 t) p q, factors_block V c t p q]
  rw [prescale_at (V c main_arg0) (V c main_arg3) (V c main_call0_v17), result_column t p q]
  refine congrArg (· * _) (Finset.sum_congr rfl fun k _ => ?_)
  rw [features_block V c t p q k, weights_block V c t k q]

/-- An index of the result array is in point t's block iff each coordinate is in the block's range on its axis. -/
theorem mem_block (t : Fin cfg0.N) (i : S100000x128.Idx) :
    i ∈ ((cfg0.win 3).blk t).view.set
      ↔ ∀ a : Fin 2, win0_3.index t a * S10000x128.size a ≤ (i a).val
          ∧ (i a).val < win0_3.index t a * S10000x128.size a + S10000x128.size a := by
  show i ∈ ((View.whole main_call0_v18).slice (win0_3.rect t)).set ↔ _
  rw [View.set_slice_whole, Rect.mem_set_unit]
  exact Iff.rfl

/-- The ten blocks tile the rows: row r is in the block of point r / 10000. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  let t : Fin cfg0.N := ⟨(i 0).val / 10000, by omega⟩
  have ht : t.val = (i 0).val / 10000 := rfl
  obtain ⟨-, -, -, -, -, -, e6, e7⟩ := index_facts t
  refine ⟨t, flush0_3 t, ?_⟩
  rw [mem_block]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 128 ≤ (i 1).val ∧ (i 1).val < win0_3.index t (1 : Fin 2) * 128 + 128
    omega

end Blocks

/-- The result array after the region: the dense transform of the features by the weights, each row scaled by its
    node's factor. -/
theorem final0 (V : (c : Dev nD) → (b : Ref sig .tc) → Buf (Elt Ideal) ((c : Thread nD τ).loc b)) (c : Dev nD) :
    (dat0 (F := Ideal) V c).arrAt 3 cfg0.N
      = Cert.Gcn.prescale (V c main_arg0) (V c main_arg3) (V c main_call0_v17) :=
  (dat0 (F := Ideal) V c).arrAt_eq_of_cover 3
    (Cert.Gcn.prescale (V c main_arg0) (V c main_arg3) (V c main_call0_v17))
    (fun t _ => flushed_eq V c t) covered

end Cert.KernelIdeal.Region0
-- ==== Proof.FusedBody.lean ====
/-
  The body shared by the two middle layers, read entry by entry.

  A block of rows S of a neighbour sum, the rows' factors d (one column), a bias row β and a square weight matrix W go in.
  The body first finishes the previous layer on the block, h(p, k) = max (S(p, k) · d(p) + β(k)) 0, and then starts the
  next one: it multiplies h by W and scales row p of the product by d(p) again. Rounding the two factors of the product to
  a narrower format changes nothing over the extended reals, the accumulator the product starts from is the zero array,
  and the ramp's zero is the zero word. So the entry at row p and column q is
      (∑ k, max (S(p, k) · d(p) + β(k)) 0 · W(k, q)) · d(p).
  The two layers' bodies are the same text, so one reading serves both. When the block's rows are rows r of whole arrays
  (and the bias row and the weights are the whole ones), that entry is the fused layer of the whole arrays at row r.
-/
import proofs.«151492_j3530463117755_2_alg».proof.Proof.Gen.KernelIdeal.Skeleton
import proofs.«151492_j3530463117755_2_alg».proof.Proof.LibMatmulPlain
import proofs.«151492_j3530463117755_2_alg».proof.Proof.LibRowStat
import proofs.«151492_j3530463117755_2_alg».proof.Proof.Spec
import Idealize.ShloMosaic.PureOps.Ideal.Laws
import Idealize.ShloMosaic.Lib.ValueIdx
import Idealize.ShloMosaic.Lib.ValueLayout
import Idealize.ShloMosaic.Lib.Pipeline.Value

namespace Cert.KernelIdeal.FusedBody

open Cert.KernelIdeal Cert.KernelIdeal.Gen Idealize.ShloMosaic Idealize.ShloMosaic.ValueIdx

/-- The product's dimension numbers are the plain ones: rows by columns, one contracted coordinate. -/
theorem dims_plain : dot_S10000x128_S128x128_S10000x128_1_0_0_1_n_n = DotDims.plain 10000 128 128 := rfl

/-- The first middle layer's body at row p and column q of its block. -/
theorem layer_apply (d : Vec Ideal S10000x1 .f32) (S : Vec Ideal S10000x128 .f32) (β : Vec Ideal S1x128 .f32)
    (W : Vec Ideal S128x128 .f32) (p : Fin 10000) (q : Fin 128) :
    k1_pay1 d S β W (ix2 p q)
      = (∑ k : Fin 128, max (S (ix2 p k) * d (ix2 p (0 : Fin 1)) + β (ix2 (0 : Fin 1) k)) 0 * W (ix2 k q))
        * d (ix2 p (0 : Fin 1)) := by
  unfold k1_pay1
  simp only [shapeCast_self]
  -- the outer scaling, the product at (p, q), and the factor broadcast along the row
  rw [mulf_apply, dims_plain, Cert.LibMatmulPlain.matmul_plain_zero_apply, Cert.LibRowStat.broadcastTo_a1_ab_apply]
  congr 1
  refine Finset.sum_congr rfl fun k _ => ?_
  -- the left factor of the product at (p, k): the ramp of the scaled sum plus the bias
  rw [truncf_apply, truncf_apply, maximumf_apply, addf_apply, mulf_apply, Cert.LibRowStat.broadcastTo_a1_ab_apply,
    broadcastTo_1b_ab_apply, broadcast_apply]
  rw [show (FloatOps.ofBits FTy.f32 0x00000000#32 : Ideal .f32) = 0 from Ideal.ofBits_zero_f32]

/-- Rows of the fused layer: if row p of the block of sums and of the block of factors is row r of the whole arrays, and
    the bias row and the weights are the whole ones, the body at (p, q) is the fused layer of the whole arrays at (r, q). -/
theorem layer_rows (d : Vec Ideal S10000x1 .f32) (S : Vec Ideal S10000x128 .f32) (β : Vec Ideal S1x128 .f32)
    (W : Vec Ideal S128x128 .f32) (dA : Cert.Gcn.SN1.Idx → EReal) (SA : Cert.Gcn.SNC.Idx → EReal)
    (βA : Cert.Gcn.S1C.Idx → EReal) (WA : Cert.Gcn.SCC.Idx → EReal) (p : Fin 10000) (q : Fin 128) (r : Fin 100000)
    (hd : d (ix2 p (0 : Fin 1)) = dA (ix2 r (0 : Fin 1))) (hS : ∀ k : Fin 128, S (ix2 p k) = SA (ix2 r k))
    (hβ : ∀ k : Fin 128, β (ix2 (0 : Fin 1) k) = βA (ix2 (0 : Fin 1) k))
    (hW : ∀ k : Fin 128, W (ix2 k q) = WA (ix2 k q)) :
    k1_pay1 d S β W (ix2 p q) = Cert.Gcn.fused SA dA βA WA (ix2 r q) := by
  rw [layer_apply, Cert.Gcn.fused_apply, hd]
  congr 1
  exact Finset.sum_congr rfl fun k _ => by rw [hS k, hβ k, hW k]

/-- The second middle layer's body is the first one's, word for word. -/
theorem layer2_eq_layer : @k2_pay1 = @k1_pay1 := rfl

/-- The second middle layer's body at row p and column q of its block. -/
theorem layer2_apply (d : Vec Ideal S10000x1 .f32) (S : Vec Ideal S10000x128 .f32) (β : Vec Ideal S1x128 .f32)
    (W : Vec Ideal S128x128 .f32) (p : Fin 10000) (q : Fin 128) :
    k2_pay1 d S β W (ix2 p q)
      = (∑ k : Fin 128, max (S (ix2 p k) * d (ix2 p (0 : Fin 1)) + β (ix2 (0 : Fin 1) k)) 0 * W (ix2 k q))
        * d (ix2 p (0 : Fin 1)) := by
  rw [layer2_eq_layer]
  exact layer_apply d S β W p q

/-- Rows of the fused layer, for the second middle layer's body. -/
theorem layer2_rows (d : Vec Ideal S10000x1 .f32) (S : Vec Ideal S10000x128 .f32) (β : Vec Ideal S1x128 .f32)
    (W : Vec Ideal S128x128 .f32) (dA : Cert.Gcn.SN1.Idx → EReal) (SA : Cert.Gcn.SNC.Idx → EReal)
    (βA : Cert.Gcn.S1C.Idx → EReal) (WA : Cert.Gcn.SCC.Idx → EReal) (p : Fin 10000) (q : Fin 128) (r : Fin 100000)
    (hd : d (ix2 p (0 : Fin 1)) = dA (ix2 r (0 : Fin 1))) (hS : ∀ k : Fin 128, S (ix2 p k) = SA (ix2 r k))
    (hβ : ∀ k : Fin 128, β (ix2 (0 : Fin 1) k) = βA (ix2 (0 : Fin 1) k))
    (hW : ∀ k : Fin 128, W (ix2 k q) = WA (ix2 k q)) :
    k2_pay1 d S β W (ix2 p q) = Cert.Gcn.fused SA dA βA WA (ix2 r q) := by
  rw [layer2_eq_layer]
  exact layer_rows d S β W dA SA βA WA p q r hd hS hβ hW

end Cert.KernelIdeal.FusedBody
-- ==== Proof.Region1.lean ====
/-
  The first middle layer's region computes the fused layer of the whole arrays.

  The region walks the 100000 rows in ten blocks of 10000. At point t it reads rows 10000·t … 10000·t + 9999 of the
  neighbour sum and of the column of node factors, the whole bias row and the whole weight matrix, and writes the same
  rows of the output. Row p of the block it writes is, by the reading of the body, the fused layer of the whole arrays at
  row 10000·t + p: an entry of that layer depends on the row's own sums and factor only, besides the bias row and the
  weights. So what each point writes back is its block of the one whole-array function, the ten blocks cover every row
  (row r lies in the block of point r / 10000), and the output array after the region is that function.
-/
import proofs.«151492_j3530463117755_2_alg».proof.Proof.Gen.KernelIdeal.Frame
import proofs.«151492_j3530463117755_2_alg».proof.Proof.Spec
import proofs.«151492_j3530463117755_2_alg».proof.Proof.FusedBody
import Idealize.ShloMosaic.Lib.Pipeline.Value
import Idealize.ShloMosaic.Lib.ValueIdx

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

section Blocks

variable (V : (c : Dev nD) → (b : Ref sig .tc) → Buf (Elt Ideal) ((c : Thread nD τ).loc b))

/-- The body reads and writes its buffers from their first entry. -/
theorem zero_offsets : (![0, 0] : Fin 2 → Nat) = fun _ => 0 := funext fun a => by fin_cases a <;> rfl

/-- The block index of each window at each of the ten points: the row windows move with the point, the bias row and
    the weights stay. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The block of the neighbour sum at point t holds rows 10000·t … 10000·t + 9999 of the array. -/
theorem sum_block (c : Dev nD) (t : Fin cfg1.N) (p : Fin 10000) (k : Fin 128) (r : Fin 100000)
    (hr : r.val = t.val * 10000 + p.val) :
    (iblk1 V c 0 t : Vec Ideal S10000x128 .f32) (ix2 p k) = (V c main_call0_v28 : S100000x128.Idx → EReal) (ix2 r k) := by
  obtain ⟨e0, e1, -⟩ := block_indices t
  unfold iblk1
  rw [View.read_apply]
  show V c main_call0_v28 (((cfg1.win 0).blk t).view.emb (ix2 p k)) = V c main_call0_v28 (ix2 r k)
  refine congrArg _ (funext fun a => Fin.ext ?_)
  match a with
  | ⟨0, _⟩ => show win1_0.index t (0 : Fin 2) * 10000 + 1 * p.val = r.val; omega
  | ⟨1, _⟩ => show win1_0.index t (1 : Fin 2) * 128 + 1 * k.val = k.val; omega

/-- The block of the factors at point t holds the same rows of the column. -/
theorem factor_block (c : Dev nD) (t : Fin cfg1.N) (p : Fin 10000) (r : Fin 100000)
    (hr : r.val = t.val * 10000 + p.val) :
    (iblk1 V c 1 t : Vec Ideal S10000x1 .f32) (ix2 p (0 : Fin 1))
      = (V c main_call0_v17 : S100000x1.Idx → EReal) (ix2 r (0 : Fin 1)) := by
  obtain ⟨-, -, e0, e1, -⟩ := block_indices t
  unfold iblk1
  rw [View.read_apply]
  show V c main_call0_v17 (((cfg1.win 1).blk t).view.emb (ix2 p (0 : Fin 1))) = V c main_call0_v17 (ix2 r (0 : Fin 1))
  refine congrArg _ (funext fun a => Fin.ext ?_)
  match a with
  | ⟨0, _⟩ => show win1_1.index t (0 : Fin 2) * 10000 + 1 * p.val = r.val; omega
  | ⟨1, _⟩ => show win1_1.index t (1 : Fin 2) * 1 + 1 * 0 = 0; omega

/-- The bias row's block is the whole row at every point. -/
theorem bias_block (c : Dev nD) (t : Fin cfg1.N) (k : Fin 128) :
    (iblk1 V c 2 t : Vec Ideal S1x128 .f32) (ix2 (0 : Fin 1) k)
      = (V c main_call0_v29 : S1x128.Idx → EReal) (ix2 (0 : Fin 1) k) := by
  obtain ⟨-, -, -, -, e0, e1, -⟩ := block_indices t
  unfold iblk1
  rw [View.read_apply]
  show V c main_call0_v29 (((cfg1.win 2).blk t).view.emb (ix2 (0 : Fin 1) k)) = V c main_call0_v29 (ix2 (0 : Fin 1) k)
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * k.val = k.val; omega

/-- The weights' block is the whole matrix at every point. -/
theorem weight_block (c : Dev nD) (t : Fin cfg1.N) (k q : Fin 128) :
    (iblk1 V c 3 t : Vec Ideal S128x128 .f32) (ix2 k q) = (V c main_arg5 : S128x128.Idx → EReal) (ix2 k q) := by
  obtain ⟨-, -, -, -, -, -, e0, e1, -⟩ := block_indices t
  unfold iblk1
  rw [View.read_apply]
  show V c main_arg5 (((cfg1.win 3).blk t).view.emb (ix2 k q)) = V c main_arg5 (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- Where an entry of the output's block at point t sits in the array: row 10000·t + p, the same column. -/
theorem out_block_emb (t : Fin cfg1.N) (p : Fin 10000) (q : Fin 128) (r : Fin 100000)
    (hr : r.val = t.val * 10000 + p.val) :
    ((cfg1.win 4).blk t).view.emb (ix2 p q) = (ix2 r q : S100000x128.Idx) := by
  obtain ⟨-, -, -, -, -, -, -, -, e0, e1⟩ := block_indices t
  refine funext fun a => Fin.ext ?_
  match a with
  | ⟨0, _⟩ => show win1_4.index t (0 : Fin 2) * 10000 + 1 * p.val = r.val; omega
  | ⟨1, _⟩ => show win1_4.index t (1 : Fin 2) * 128 + 1 * q.val = q.val; omega

/-- What point t writes back is block t of the fused layer of the whole arrays. -/
theorem flushed_eq (c : Dev nD) (t : Fin cfg1.N) :
    (dat1 (F := Ideal) V c).flushed 4 t = ((cfg1.win 4).blk t).view.read (Elt Ideal)
      (Cert.Gcn.fused (V c main_call0_v28) (V c main_call0_v17) (V c main_call0_v29) (V c main_arg5)) := by
  show (cfg1.win 4).cut (grid1.coords t) ((dat1 V c).after 4 t) = _
  rw [after1_4]
  unfold out1_4
  rw [View.canon_unit_zero zero_offsets]
  simp only [View.ld_unit_zero (S := S10000x128) zero_offsets, View.ld_unit_zero (S := S10000x1) zero_offsets,
    View.ld_unit_zero (S := S1x128) zero_offsets, View.ld_unit_zero (S := S128x128) zero_offsets]
  funext j
  revert j
  show ∀ j : S10000x128.Idx, k1_pay1 (iblk1 V c 1 t) (iblk1 V c 0 t) (iblk1 V c 2 t) (iblk1 V c 3 t) j
    = Cert.Gcn.fused (V c main_call0_v28) (V c main_call0_v17) (V c main_call0_v29) (V c main_arg5)
        (((cfg1.win 4).blk t).view.emb j)
  intro j
  obtain ⟨p, q, rfl⟩ : ∃ (p : Fin 10000) (q : Fin 128), j = ix2 p q := ⟨j 0, j 1, eq_ix2 j⟩
  have hN : cfg1.N = 10 := N_1
  have hr : t.val * 10000 + p.val < 100000 := by have := t.isLt; have := p.isLt; omega
  refine (FusedBody.layer_rows (iblk1 V c 1 t) (iblk1 V c 0 t) (iblk1 V c 2 t) (iblk1 V c 3 t)
    (V c main_call0_v17) (V c main_call0_v28) (V c main_call0_v29) (V c main_arg5) p q ⟨t.val * 10000 + p.val, hr⟩
    (factor_block V c t p ⟨t.val * 10000 + p.val, hr⟩ rfl) (fun k => sum_block V c t p k ⟨t.val * 10000 + p.val, hr⟩ rfl)
    (fun k => bias_block V c t k) (fun k => weight_block V c t k q)).trans ?_
  exact (congrArg (Cert.Gcn.fused (V c main_call0_v28) (V c main_call0_v17) (V c main_call0_v29) (V c main_arg5))
    (out_block_emb t p q ⟨t.val * 10000 + p.val, hr⟩ rfl)).symm

/-- An index of the array is in point t's block iff each coordinate is in the block's range on its axis. -/
theorem mem_block (t : Fin cfg1.N) (i : S100000x128.Idx) :
    i ∈ ((cfg1.win 4).blk t).view.set ↔ ∀ a : Fin 2, win1_4.index t a * S10000x128.size a ≤ (i a).val
      ∧ (i a).val < win1_4.index t a * S10000x128.size a + S10000x128.size a := by
  show i ∈ ((View.whole main_call0_v30).slice (win1_4.rect t)).set ↔ _
  rw [View.set_slice_whole, Rect.mem_set_unit]
  exact Iff.rfl

/-- Every row is in some point's block: row r is in the block of point r / 10000. -/
theorem covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, -, -, -, -, e0, e1⟩ := block_indices t
  refine ⟨t, flush1_4 t, ?_⟩
  rw [mem_block]
  intro a
  match a with
  | ⟨0, _⟩ =>
    show win1_4.index t (0 : Fin 2) * 10000 ≤ (i 0).val ∧ (i 0).val < win1_4.index t (0 : Fin 2) * 10000 + 10000
    omega
  | ⟨1, _⟩ =>
    show win1_4.index t (1 : Fin 2) * 128 ≤ (i 1).val ∧ (i 1).val < win1_4.index t (1 : Fin 2) * 128 + 128
    omega

end Blocks

/-- The output array after the region is the fused layer of the arrays the region finds. -/
theorem final1 (V : (c : Dev nD) → (b : Ref sig .tc) → Buf (Elt Ideal) ((c : Thread nD τ).loc b)) (c : Dev nD) :
    (dat1 (F := Ideal) V c).arrAt 4 cfg1.N
      = Cert.Gcn.fused (V c main_call0_v28) (V c main_call0_v17) (V c main_call0_v29) (V c main_arg5) :=
  (dat1 (F := Ideal) V c).arrAt_eq_of_cover 4
    (Cert.Gcn.fused (V c main_call0_v28) (V c main_call0_v17) (V c main_call0_v29) (V c main_arg5))
    (fun t _ => flushed_eq V c t) covered

end Cert.KernelIdeal.Region1
-- ==== Proof.Region2.lean ====
/-
  The second middle layer's region computes the fused layer of the whole arrays.

  The region walks the 100000 rows in ten blocks of 10000. At point t it reads rows 10000·t … 10000·t + 9999 of the
  neighbour sum and of the column of node factors, the whole bias row and the whole weight matrix, and writes the same
  rows of the output. Row p of the block it writes is, by the reading of the body, the fused layer of the whole arrays at
  row 10000·t + p: an entry of that layer depends on the row's own sums and factor only, besides the bias row and the
  weights. So what each point writes back is its block of the one whole-array function, the ten blocks cover every row
  (row r lies in the block of point r / 10000), and the output array after the region is that function.
-/
import proofs.«151492_j3530463117755_2_alg».proof.Proof.Gen.KernelIdeal.Frame
import proofs.«151492_j3530463117755_2_alg».proof.Proof.Spec
import proofs.«151492_j3530463117755_2_alg».proof.Proof.FusedBody
import Idealize.ShloMosaic.Lib.Pipeline.Value
import Idealize.ShloMosaic.Lib.ValueIdx

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

section Blocks

variable (V : (c : Dev nD) → (b : Ref sig .tc) → Buf (Elt Ideal) ((c : Thread nD τ).loc b))

/-- The body reads and writes its buffers from their first entry. -/
theorem zero_offsets : (![0, 0] : Fin 2 → Nat) = fun _ => 0 := funext fun a => by fin_cases a <;> rfl

/-- The block index of each window at each of the ten points: the row windows move with the point, the bias row and
    the weights stay. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The block of the neighbour sum at point t holds rows 10000·t … 10000·t + 9999 of the array. -/
theorem sum_block (c : Dev nD) (t : Fin cfg2.N) (p : Fin 10000) (k : Fin 128) (r : Fin 100000)
    (hr : r.val = t.val * 10000 + p.val) :
    (iblk2 V c 0 t : Vec Ideal S10000x128 .f32) (ix2 p k) = (V c main_call0_v40 : S100000x128.Idx → EReal) (ix2 r k) := by
  obtain ⟨e0, e1, -⟩ := block_indices t
  unfold iblk2
  rw [View.read_apply]
  show V c main_call0_v40 (((cfg2.win 0).blk t).view.emb (ix2 p k)) = V c main_call0_v40 (ix2 r k)
  refine congrArg _ (funext fun a => Fin.ext ?_)
  match a with
  | ⟨0, _⟩ => show win2_0.index t (0 : Fin 2) * 10000 + 1 * p.val = r.val; omega
  | ⟨1, _⟩ => show win2_0.index t (1 : Fin 2) * 128 + 1 * k.val = k.val; omega

/-- The block of the factors at point t holds the same rows of the column. -/
theorem factor_block (c : Dev nD) (t : Fin cfg2.N) (p : Fin 10000) (r : Fin 100000)
    (hr : r.val = t.val * 10000 + p.val) :
    (iblk2 V c 1 t : Vec Ideal S10000x1 .f32) (ix2 p (0 : Fin 1))
      = (V c main_call0_v17 : S100000x1.Idx → EReal) (ix2 r (0 : Fin 1)) := by
  obtain ⟨-, -, e0, e1, -⟩ := block_indices t
  unfold iblk2
  rw [View.read_apply]
  show V c main_call0_v17 (((cfg2.win 1).blk t).view.emb (ix2 p (0 : Fin 1))) = V c main_call0_v17 (ix2 r (0 : Fin 1))
  refine congrArg _ (funext fun a => Fin.ext ?_)
  match a with
  | ⟨0, _⟩ => show win2_1.index t (0 : Fin 2) * 10000 + 1 * p.val = r.val; omega
  | ⟨1, _⟩ => show win2_1.index t (1 : Fin 2) * 1 + 1 * 0 = 0; omega

/-- The bias row's block is the whole row at every point. -/
theorem bias_block (c : Dev nD) (t : Fin cfg2.N) (k : Fin 128) :
    (iblk2 V c 2 t : Vec Ideal S1x128 .f32) (ix2 (0 : Fin 1) k)
      = (V c main_call0_v41 : S1x128.Idx → EReal) (ix2 (0 : Fin 1) k) := by
  obtain ⟨-, -, -, -, e0, e1, -⟩ := block_indices t
  unfold iblk2
  rw [View.read_apply]
  show V c main_call0_v41 (((cfg2.win 2).blk t).view.emb (ix2 (0 : Fin 1) k)) = V c main_call0_v41 (ix2 (0 : Fin 1) k)
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * k.val = k.val; omega

/-- The weights' block is the whole matrix at every point. -/
theorem weight_block (c : Dev nD) (t : Fin cfg2.N) (k q : Fin 128) :
    (iblk2 V c 3 t : Vec Ideal S128x128 .f32) (ix2 k q) = (V c main_arg7 : S128x128.Idx → EReal) (ix2 k q) := by
  obtain ⟨-, -, -, -, -, -, e0, e1, -⟩ := block_indices t
  unfold iblk2
  rw [View.read_apply]
  show V c main_arg7 (((cfg2.win 3).blk t).view.emb (ix2 k q)) = V c main_arg7 (ix2 k q)
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- Where an entry of the output's block at point t sits in the array: row 10000·t + p, the same column. -/
theorem out_block_emb (t : Fin cfg2.N) (p : Fin 10000) (q : Fin 128) (r : Fin 100000)
    (hr : r.val = t.val * 10000 + p.val) :
    ((cfg2.win 4).blk t).view.emb (ix2 p q) = (ix2 r q : S100000x128.Idx) := by
  obtain ⟨-, -, -, -, -, -, -, -, e0, e1⟩ := block_indices t
  refine funext fun a => Fin.ext ?_
  match a with
  | ⟨0, _⟩ => show win2_4.index t (0 : Fin 2) * 10000 + 1 * p.val = r.val; omega
  | ⟨1, _⟩ => show win2_4.index t (1 : Fin 2) * 128 + 1 * q.val = q.val; omega

/-- What point t writes back is block t of the fused layer of the whole arrays. -/
theorem flushed_eq (c : Dev nD) (t : Fin cfg2.N) :
    (dat2 (F := Ideal) V c).flushed 4 t = ((cfg2.win 4).blk t).view.read (Elt Ideal)
      (Cert.Gcn.fused (V c main_call0_v40) (V c main_call0_v17) (V c main_call0_v41) (V c main_arg7)) := by
  show (cfg2.win 4).cut (grid2.coords t) ((dat2 V c).after 4 t) = _
  rw [after2_4]
  unfold out2_4
  rw [View.canon_unit_zero zero_offsets]
  simp only [View.ld_unit_zero (S := S10000x128) zero_offsets, View.ld_unit_zero (S := S10000x1) zero_offsets,
    View.ld_unit_zero (S := S1x128) zero_offsets, View.ld_unit_zero (S := S128x128) zero_offsets]
  funext j
  revert j
  show ∀ j : S10000x128.Idx, k2_pay1 (iblk2 V c 1 t) (iblk2 V c 0 t) (iblk2 V c 2 t) (iblk2 V c 3 t) j
    = Cert.Gcn.fused (V c main_call0_v40) (V c main_call0_v17) (V c main_call0_v41) (V c main_arg7)
        (((cfg2.win 4).blk t).view.emb j)
  intro j
  obtain ⟨p, q, rfl⟩ : ∃ (p : Fin 10000) (q : Fin 128), j = ix2 p q := ⟨j 0, j 1, eq_ix2 j⟩
  have hN : cfg2.N = 10 := N_2
  have hr : t.val * 10000 + p.val < 100000 := by have := t.isLt; have := p.isLt; omega
  refine (FusedBody.layer2_rows (iblk2 V c 1 t) (iblk2 V c 0 t) (iblk2 V c 2 t) (iblk2 V c 3 t)
    (V c main_call0_v17) (V c main_call0_v40) (V c main_call0_v41) (V c main_arg7) p q ⟨t.val * 10000 + p.val, hr⟩
    (factor_block V c t p ⟨t.val * 10000 + p.val, hr⟩ rfl) (fun k => sum_block V c t p k ⟨t.val * 10000 + p.val, hr⟩ rfl)
    (fun k => bias_block V c t k) (fun k => weight_block V c t k q)).trans ?_
  exact (congrArg (Cert.Gcn.fused (V c main_call0_v40) (V c main_call0_v17) (V c main_call0_v41) (V c main_arg7))
    (out_block_emb t p q ⟨t.val * 10000 + p.val, hr⟩ rfl)).symm

/-- An index of the array is in point t's block iff each coordinate is in the block's range on its axis. -/
theorem mem_block (t : Fin cfg2.N) (i : S100000x128.Idx) :
    i ∈ ((cfg2.win 4).blk t).view.set ↔ ∀ a : Fin 2, win2_4.index t a * S10000x128.size a ≤ (i a).val
      ∧ (i a).val < win2_4.index t a * S10000x128.size a + S10000x128.size a := by
  show i ∈ ((View.whole main_call0_v42).slice (win2_4.rect t)).set ↔ _
  rw [View.set_slice_whole, Rect.mem_set_unit]
  exact Iff.rfl

/-- Every row is in some point's block: row r is in the block of point r / 10000. -/
theorem covered (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, -, -, -, -, e0, e1⟩ := block_indices t
  refine ⟨t, flush2_4 t, ?_⟩
  rw [mem_block]
  intro a
  match a with
  | ⟨0, _⟩ =>
    show win2_4.index t (0 : Fin 2) * 10000 ≤ (i 0).val ∧ (i 0).val < win2_4.index t (0 : Fin 2) * 10000 + 10000
    omega
  | ⟨1, _⟩ =>
    show win2_4.index t (1 : Fin 2) * 128 ≤ (i 1).val ∧ (i 1).val < win2_4.index t (1 : Fin 2) * 128 + 128
    omega

end Blocks

/-- The output array after the region is the fused layer of the arrays the region finds. -/
theorem final2 (V : (c : Dev nD) → (b : Ref sig .tc) → Buf (Elt Ideal) ((c : Thread nD τ).loc b)) (c : Dev nD) :
    (dat2 (F := Ideal) V c).arrAt 4 cfg2.N
      = Cert.Gcn.fused (V c main_call0_v40) (V c main_call0_v17) (V c main_call0_v41) (V c main_arg7) :=
  (dat2 (F := Ideal) V c).arrAt_eq_of_cover 4
    (Cert.Gcn.fused (V c main_call0_v40) (V c main_call0_v17) (V c main_call0_v41) (V c main_arg7))
    (fun t _ => flushed_eq V c t) covered

end Cert.KernelIdeal.Region2
-- ==== Proof.Region3.lean ====
/-
  The last layer's end: the aggregated features scaled row by row by the node factors, plus the bias row.

  The region walks the 100000 rows in ten blocks of 10000. At block t it holds rows 10000·t … 10000·t + 9999 of the
  aggregated features S, the same rows of the one-column array d of node factors, and the whole 1 × 128 bias row β,
  and leaves in the same rows of its result the array whose entry at local row p and column q is

      S(10000·t + p, q) · d(10000·t + p) + β(q).

  Each entry reads its own row of S and of d and its own column of β, so the block the region writes at t is exactly
  block t of the whole-array function biasFinal S d β. The ten blocks tile the rows (row r lies in block r / 10000),
  hence the result array ends holding biasFinal S d β.
-/
import proofs.«151492_j3530463117755_2_alg».proof.Proof.Gen.KernelIdeal.Frame
import proofs.«151492_j3530463117755_2_alg».proof.Proof.Spec
import proofs.«151492_j3530463117755_2_alg».proof.Proof.LibRowStat
import Idealize.ShloMosaic.Lib.Pipeline.Value
import Idealize.ShloMosaic.Lib.ValueIdx
import Idealize.ShloMosaic.Lib.ValueLayout

namespace Cert.KernelIdeal.Region3

open Idealize.ShloMosaic Idealize.ShloMosaic.TcCoe Idealize.ShloMosaic.ValueIdx
open Idealize.SL.Sem
open Idealize.ShloMosaic.Pipeline (Dat)
open Cert.KernelIdeal Cert.KernelIdeal.Gen

/-- The zero offsets of a whole-block access, as a constant function. -/
theorem zero_offsets : (![0, 0] : Fin 2 → Nat) = fun _ => 0 := funext fun a => by fin_cases a <;> rfl

/-- The block the body stores, entry by entry: the block of aggregated features times the factor of its row, plus the
    bias of its column. -/
theorem payload_apply (x0 : Vec Ideal S10000x128 .f32) (x1 : Vec Ideal S10000x1 .f32) (x2 : Vec Ideal S1x128 .f32)
    (p : Fin 10000) (q : Fin 128) :
    k3_pay1 (F := Ideal) x0 x1 x2 (ix2 p q)
      = x0 (ix2 p q) * x1 (ix2 p (0 : Fin 1)) + x2 (ix2 (0 : Fin 1) q) := by
  unfold k3_pay1
  rw [addf_apply, mulf_apply, shapeCast_self, shapeCast_self, shapeCast_self,
    Cert.LibRowStat.broadcastTo_a1_ab_apply, broadcastTo_1b_ab_apply]

/-- The printed block index maps, decided over the ten grid points: the blocks of aggregated features, factors and
    results at point t are the t-th blocks of rows; the bias row is one block. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

section Blocks

variable (V : (c : Dev nD) → (b : Ref sig .tc) → Buf (Elt Ideal) ((c : Thread nD τ).loc b))

/-- The block of aggregated features at point t sits in the array where the result's block at t does. -/
theorem features_block (c : Dev nD) (t : Fin cfg3.N) (p : Fin 10000) (q : Fin 128) :
    iblk3 V c 0 t (ix2 p q) = V c main_call0_v52 (((cfg3.win 3).blk t).view.emb (ix2 p q)) := by
  obtain ⟨e0, e1, -, -, -, -, e6, e7⟩ := index_facts t
  show V c main_call0_v52 (((cfg3.win 0).blk t).view.emb (ix2 p q)) = V c main_call0_v52 _
  refine congrArg (V c main_call0_v52) (funext fun a => Fin.ext ?_)
  match a with
  | ⟨0, _⟩ =>
    show win3_0.index t (0 : Fin 2) * 10000 + 1 * p.val = win3_3.index t (0 : Fin 2) * 10000 + 1 * p.val
    omega
  | ⟨1, _⟩ =>
    show win3_0.index t (1 : Fin 2) * 128 + 1 * q.val = win3_3.index t (1 : Fin 2) * 128 + 1 * q.val
    omega

/-- Row p of the block of factors at point t is the factor of the row that the result's block at t has at its row p. -/
theorem factors_block (c : Dev nD) (t : Fin cfg3.N) (p : Fin 10000) (q : Fin 128) :
    iblk3 V c 1 t (ix2 p (0 : Fin 1))
      = V c main_call0_v17 (ix2 (show Fin 100000 from ((cfg3.win 3).blk t).view.emb (ix2 p q) 0) (0 : Fin 1)) := by
  obtain ⟨-, -, e2, e3, -, -, e6, -⟩ := index_facts t
  show V c main_call0_v17 (((cfg3.win 1).blk t).view.emb (ix2 p (0 : Fin 1))) = V c main_call0_v17 _
  refine congrArg (V c main_call0_v17) (funext fun a => Fin.ext ?_)
  match a with
  | ⟨0, _⟩ =>
    show win3_1.index t (0 : Fin 2) * 10000 + 1 * p.val = win3_3.index t (0 : Fin 2) * 10000 + 1 * p.val
    omega
  | ⟨1, _⟩ =>
    show win3_1.index t (1 : Fin 2) * 1 + 1 * 0 = 0
    omega

/-- The block of the bias row at any point is the whole row; its column q is the column of the array that the
    result's block has at its column q. -/
theorem bias_block (c : Dev nD) (t : Fin cfg3.N) (p : Fin 10000) (q : Fin 128) :
    iblk3 V c 2 t (ix2 (0 : Fin 1) q)
      = V c main_call0_v53 (ix2 (0 : Fin 1) (show Fin 128 from ((cfg3.win 3).blk t).view.emb (ix2 p q) 1)) := by
  obtain ⟨-, -, -, -, e4, e5, -, e7⟩ := index_facts t
  show V c main_call0_v53 (((cfg3.win 2).blk t).view.emb (ix2 (0 : Fin 1) q)) = V c main_call0_v53 _
  refine congrArg (V c main_call0_v53) (funext fun a => Fin.ext ?_)
  match a with
  | ⟨0, _⟩ =>
    show win3_2.index t (0 : Fin 2) * 1 + 1 * 0 = 0
    omega
  | ⟨1, _⟩ =>
    show win3_2.index t (1 : Fin 2) * 128 + 1 * q.val = win3_3.index t (1 : Fin 2) * 128 + 1 * q.val
    omega

/-- What point t writes back is block t of the whole-array function. -/
theorem flushed_eq (c : Dev nD) (t : Fin cfg3.N) :
    (dat3 (F := Ideal) V c).flushed 3 t
      = ((cfg3.win 3).blk t).view.read (Elt Ideal)
          (Cert.Gcn.biasFinal (V c main_call0_v52) (V c main_call0_v17) (V c main_call0_v53)) := by
  show (cfg3.win 3).cut (grid3.coords t) ((dat3 (F := Ideal) V c).after 3 t) = _
  rw [after3_3]
  unfold out3_3
  rw [View.canon_unit_zero zero_offsets]
  simp only [View.ld_unit_zero (S := S10000x128) zero_offsets, View.ld_unit_zero (S := S10000x1) zero_offsets,
    View.ld_unit_zero (S := S1x128) zero_offsets]
  funext j
  obtain ⟨p, q, rfl⟩ : ∃ (p : Fin 10000) (q : Fin 128), j = ix2 p q := ⟨j 0, j 1, eq_ix2 j⟩
  show k3_pay1 (F := Ideal) (iblk3 V c 0 t) (iblk3 V c 1 t) (iblk3 V c 2 t) (ix2 p q)
    = Cert.Gcn.biasFinal (V c main_call0_v52) (V c main_call0_v17) (V c main_call0_v53)
        (((cfg3.win 3).blk t).view.emb (ix2 p q))
  rw [payload_apply (iblk3 V c 0 t) (iblk3 V c 1 t) (iblk3 V c 2 t) p q, features_block V c t p q,
    factors_block V c t p q, bias_block V c t p q]
  rfl

/-- An index of the result array is in point t's block iff each coordinate is in the block's range on its axis. -/
theorem mem_block (t : Fin cfg3.N) (i : S100000x128.Idx) :
    i ∈ ((cfg3.win 3).blk t).view.set
      ↔ ∀ a : Fin 2, win3_3.index t a * S10000x128.size a ≤ (i a).val
          ∧ (i a).val < win3_3.index t a * S10000x128.size a + S10000x128.size a := by
  show i ∈ ((View.whole main_call0_v54).slice (win3_3.rect t)).set ↔ _
  rw [View.set_slice_whole, Rect.mem_set_unit]
  exact Iff.rfl

/-- The ten blocks tile the rows: row r is in the block of point r / 10000. -/
theorem covered (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 10 := N_3
  let t : Fin cfg3.N := ⟨(i 0).val / 10000, by omega⟩
  have ht : t.val = (i 0).val / 10000 := rfl
  obtain ⟨-, -, -, -, -, -, e6, e7⟩ := index_facts t
  refine ⟨t, flush3_3 t, ?_⟩
  rw [mem_block]
  intro a
  match a with
  | ⟨0, _⟩ =>
    show win3_3.index t (0 : Fin 2) * 10000 ≤ (i 0).val ∧ (i 0).val < win3_3.index t (0 : Fin 2) * 10000 + 10000
    omega
  | ⟨1, _⟩ =>
    show win3_3.index t (1 : Fin 2) * 128 ≤ (i 1).val ∧ (i 1).val < win3_3.index t (1 : Fin 2) * 128 + 128
    omega

end Blocks

/-- The result array after the region: the aggregated features scaled by the node factors, plus the bias row. -/
theorem final3 (V : (c : Dev nD) → (b : Ref sig .tc) → Buf (Elt Ideal) ((c : Thread nD τ).loc b)) (c : Dev nD) :
    (dat3 (F := Ideal) V c).arrAt 3 cfg3.N
      = Cert.Gcn.biasFinal (V c main_call0_v52) (V c main_call0_v17) (V c main_call0_v53) :=
  (dat3 (F := Ideal) V c).arrAt_eq_of_cover 3
    (Cert.Gcn.biasFinal (V c main_call0_v52) (V c main_call0_v17) (V c main_call0_v53))
    (fun t _ => flushed_eq V c t) covered

end Cert.KernelIdeal.Region3
-- ==== Proof.LibKeepdims.lean ====
/-
  Keepdims layouts and single-axis sums of rank-3 arrays, read at an index written by coordinates.

  A sum over one axis that keeps the axis as a unit axis is, in a kernel, a lane or sublane reduction followed by a
  shape cast that appends or inserts the unit axis, and its consumer broadcasts the unit axis back. Each of these
  operations reads its operand at an index whose coordinates are those of the result index with the unit coordinate
  dropped, added or set to zero; the sums range over the coordinates of the reduced axis.
-/
import Idealize.ShloMosaic.PureOps.Ideal.Laws
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => exact (if_pos rfl).symm

/-- A `[1, 1, b]` array broadcast to `[1, a, b]` reads, at `(u, i, r)`, the operand's one row at `r`. -/
theorem broadcastTo_11b_1ab_apply {a b : ℕ} (v : (⟨3, ![1, 1, b]⟩ : Shape).Idx → α)
    (h : (⟨3, ![1, 1, b]⟩ : Shape).Broadcasts ⟨3, ![1, a, b]⟩) (u : Fin 1) (i : Fin a) (r : Fin b) :
    broadcastTo ⟨3, ![1, a, b]⟩ v h (ix3 u i r) = v (ix3 (0 : Fin 1) (0 : Fin 1) r) := by
  refine broadcastTo_apply v h (ix3 u i r) (ix3 (0 : Fin 1) (0 : Fin 1) r) fun ax => ?_
  match ax with
  | ⟨0, _⟩ => exact (if_pos rfl).symm
  | ⟨1, _⟩ => exact (if_pos rfl).symm
  | ⟨2, _⟩ =>
    show r.val = if b = 1 then 0 else r.val
    split
    · have := r.isLt; omega
    · rfl

/-- The sum of an `[a, b, c]` array over its last axis reads, at `(i, j)`, the sum over `k` of the operand at
    `(i, j, k)`. At the ideal values. -/
theorem sum_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext
      (match ax with | ⟨0, _⟩ => rfl | ⟨1, _⟩ => rfl | ⟨2, _⟩ => rfl)))

/-- The sum of an `[a, b, c]` array over its middle axis reads, at `(i, r)`, the sum over `k` of the operand at
    `(i, k, r)`. At the ideal values. -/
theorem sum_middle_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (r : Fin c) :
    multiReduction .add [1] ⟨2, ![a, c]⟩ src acc h hφ hacc (ix2 i r) = ∑ k : Fin b, src (ix3 i k r) :=
  (Ideal.multiReduction_add_single src acc h hφ hacc (ix2 i r)).trans
    (Finset.sum_congr rfl fun k _ => congrArg src (funext fun ax => Fin.ext
      (match ax with | ⟨0, _⟩ => rfl | ⟨1, _⟩ => rfl | ⟨2, _⟩ => rfl)))

end Cert.LibKeepdims
-- ==== Proof.Region4.lean ====
/-
  The last region: the classifier on the pooled rows followed by the softmax of each row.

  The region has one grid point and every window's block is its whole array. Its body forms the 64 × 10 logits as the
  product of the pooled rows with the classifier's weights plus the bias row, takes each row's maximum (the ten lanes
  folded from the −∞ word, then once more against that word), exponentiates the entries less their row's maximum, and
  divides each exponential by its row's sum. Read entry by entry these stages are the specification's logits and
  softmaxRows, so what the body stores is the head of the three blocks it loads. Each block read through its window
  is the array itself, the stored block covers the output array, and therefore the output array after the region is the
  head of the three input arrays as the region finds them.
-/
import proofs.«151492_j3530463117755_2_alg».proof.Proof.Gen.KernelIdeal.Frame
import proofs.«151492_j3530463117755_2_alg».proof.Proof.Spec
import proofs.«151492_j3530463117755_2_alg».proof.Proof.LibMatmulPlain
import proofs.«151492_j3530463117755_2_alg».proof.Proof.LibRowStat
import proofs.«151492_j3530463117755_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region4

open Idealize.ShloMosaic Idealize.ShloMosaic.TcCoe Idealize.ShloMosaic.ValueIdx Idealize.SL.Sem
open Idealize.ShloMosaic.Pipeline (Dat)
open Cert.KernelIdeal Cert.KernelIdeal.Gen

/-! ## The body's value, stage by stage -/

/-- The body's contraction is the plain 64 × 128 by 128 × 10 product. -/
theorem dims_plain : dot_S64x128_S128x10_S64x10_1_0_0_1_n_n = DotDims.plain 64 128 10 := rfl

/-- The classifier as the body computes it: the product into a zero accumulator plus the bias row over all rows. -/
def bodyLogits (x0 : FVec Ideal S64x128 .f32) (x1 : FVec Ideal S128x10 .f32) (x2 : FVec Ideal S1x10 .f32) :
    FVec Ideal S64x10 .f32 :=
  addf (matmul dot_S64x128_S128x10_S64x10_1_0_0_1_n_n none (shapeCast S64x128 x0 shapeCasts_S64x128_S64x128) x1
      (constant S64x10 .f32 0x00000000#32))
    (broadcastTo S64x10 (shapeCast S1x10 x2 shapeCasts_S1x10_S1x10) broadcasts_S1x10_S64x10)

/-- Each row's maximum as the body takes it: the lanes folded from the −∞ word, then once more against that word. -/
def bodyRowMax (L : FVec Ideal S64x10 .f32) : FVec Ideal S64 .f32 :=
  maximumf (broadcast S64 (Scalar.ofBits .f32 0xFF800000#32))
    (multiReduction .maximumf [1] S64 L 0xFF800000#32 reduces_S64x10_S64 (.inl rfl) rfl)

/-- The exponentials of the entries less their row's maximum. -/
def bodyExp (L : FVec Ideal S64x10 .f32) : FVec Ideal S64x10 .f32 :=
  exp (subf L (broadcastTo S64x10 (shapeCast S64x1 (bodyRowMax L) shapeCasts_S64_S64x1) broadcasts_S64x1_S64x10))

/-- Each row's sum of exponentials. -/
def bodyRowSum (L : FVec Ideal S64x10 .f32) : FVec Ideal S64 .f32 :=
  multiReduction .add [1] S64 (bodyExp L) 0x00000000#32 reduces_S64x10_S64 (.inl rfl) rfl

/-- Each exponential over its row's sum. -/
def bodySoftmax (L : FVec Ideal S64x10 .f32) : FVec Ideal S64x10 .f32 :=
  divf (bodyExp L) (broadcastTo S64x10 (shapeCast S64x1 (bodyRowSum L) shapeCasts_S64_S64x1) broadcasts_S64x1_S64x10)

/-- The body's stored value is these stages composed. -/
theorem pay_eq_stages (x0 : Vec Ideal S64x128 .f32) (x1 : Vec Ideal S128x10 .f32) (x2 : Vec Ideal S1x10 .f32) :
    k4_pay1 x0 x1 x2 = bodySoftmax (bodyLogits x0 x1 x2) := rfl

/-- The body's classifier is the specification's, entry by entry. -/
theorem bodyLogits_eq (x0 : FVec Ideal S64x128 .f32) (x1 : FVec Ideal S128x10 .f32) (x2 : FVec Ideal S1x10 .f32) :
    bodyLogits x0 x1 x2 = Cert.Gcn.logits x0 x1 x2 := by
  funext j
  obtain ⟨g, o, rfl⟩ : ∃ (g : Fin 64) (o : Fin 10), j = ix2 g o := ⟨j 0, j 1, eq_ix2 j⟩
  unfold bodyLogits
  rw [addf_apply, shapeCast_self, shapeCast_self, dims_plain, Cert.LibMatmulPlain.matmul_plain_zero_apply,
    broadcastTo_1b_ab_apply, Cert.Gcn.logits_apply]

/-- The exponential of an array reads entry by entry. -/
theorem exp_apply {s : Shape} {φ : FTy} (a : FVec Ideal s φ) (i : s.Idx) : exp a i = Ideal.exp (a i) := rfl

/-- The body's row maximum is the specification's. -/
theorem bodyRowMax_apply (L : FVec Ideal S64x10 .f32) (g : Fin 64) : bodyRowMax L (ix1 g) = Cert.Gcn.rowMax L g := by
  unfold bodyRowMax Cert.Gcn.rowMax Cert.Gcn.negInf
  rw [maximumf_apply, broadcast_apply]
  refine congrArg₂ max rfl ?_
  refine (Ideal.multiReduction_maximumf_single L _ reduces_S64x10_S64 (.inl rfl) rfl (ix1 g)).trans ?_
  rw [Ideal.ofBits_def]
  refine congrArg (fun f => Finset.fold max _ f Finset.univ) (funext fun o => congrArg L (funext fun ax => Fin.ext ?_))
  match ax with
  | ⟨0, _⟩ => rfl
  | ⟨1, _⟩ => rfl

/-- An exponential of the body reads as the specification's numerator. -/
theorem bodyExp_apply (L : FVec Ideal S64x10 .f32) (g : Fin 64) (o : Fin 10) :
    bodyExp L (ix2 g o) = Ideal.exp (L (ix2 g o) - Cert.Gcn.rowMax L g) := by
  unfold bodyExp
  rw [exp_apply, subf_apply, Cert.LibRowStat.broadcastTo_a1_ab_apply, Cert.LibKeepdims.shapeCast_a_a1_apply,
    bodyRowMax_apply]

/-- A row's sum of the body's exponentials, read over the row's entries. -/
theorem bodyRowSum_apply (L : FVec Ideal S64x10 .f32) (g : Fin 64) :
    bodyRowSum L (ix1 g) = ∑ o' : Fin 10, bodyExp L (ix2 g o') :=
  Cert.LibRowStat.sum_lanes_apply (bodyExp L) _ reduces_S64x10_S64 (.inl rfl) rfl g

/-- The body's softmax is the specification's, entry by entry. -/
theorem bodySoftmax_eq (L : FVec Ideal S64x10 .f32) : bodySoftmax L = Cert.Gcn.softmaxRows L := by
  funext j
  obtain ⟨g, o, rfl⟩ : ∃ (g : Fin 64) (o : Fin 10), j = ix2 g o := ⟨j 0, j 1, eq_ix2 j⟩
  unfold bodySoftmax
  rw [divf_apply, Cert.LibRowStat.broadcastTo_a1_ab_apply, Cert.LibKeepdims.shapeCast_a_a1_apply,
    bodyRowSum_apply, Cert.Gcn.softmaxRows_apply, bodyExp_apply]
  simp only [bodyExp_apply]

/-- What the body stores is the head of the three blocks it loads. -/
theorem pay_eq (x0 : Vec Ideal S64x128 .f32) (x1 : Vec Ideal S128x10 .f32) (x2 : Vec Ideal S1x10 .f32) :
    k4_pay1 x0 x1 x2 = Cert.Gcn.head x0 x1 x2 := by
  rw [pay_eq_stages, bodyLogits_eq, bodySoftmax_eq]
  rfl

/-! ## From the one point's blocks to the arrays -/

/-- The zero offsets, however they are spelt. -/
theorem offsets_zero : (![0, 0] : Fin 2 → Nat) = fun _ => 0 := funext fun a => by fin_cases a <;> rfl

/-- Every window's block index is zero on both axes at the grid's one point: each block is its whole array. -/
theorem index_zero : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

variable (V : (c : Dev nD) → (b : Ref sig .tc) → Buf (Elt Ideal) ((c : Thread nD τ).loc b))

/-- The pooled rows' block is the whole array of pooled rows. -/
theorem block_pooled (c : Dev nD) (t : Fin cfg4.N) (y : S64x128.Idx) :
    iblk4 V c 0 t y = V c main_call0_v66 y := by
  obtain ⟨e0, e1, -, -, -, -, -, -⟩ := index_zero t
  show V c main_call0_v66 (((cfg4.win 0).blk t).view.emb y) = V c main_call0_v66 y
  refine congrArg (V c main_call0_v66) (funext fun a => Fin.ext ?_)
  match a with
  | ⟨0, _⟩ => show win4_0.index t (0 : Fin 2) * 64 + 1 * (y 0).val = (y 0).val; omega
  | ⟨1, _⟩ => show win4_0.index t (1 : Fin 2) * 128 + 1 * (y 1).val = (y 1).val; omega

/-- The classifier weights' block is the whole weight array. -/
theorem block_weights (c : Dev nD) (t : Fin cfg4.N) (y : S128x10.Idx) :
    iblk4 V c 1 t y = V c main_arg9 y := by
  obtain ⟨-, -, e0, e1, -, -, -, -⟩ := index_zero t
  show V c main_arg9 (((cfg4.win 1).blk t).view.emb y) = V c main_arg9 y
  refine congrArg (V c main_arg9) (funext fun a => Fin.ext ?_)
  match a with
  | ⟨0, _⟩ => show win4_1.index t (0 : Fin 2) * 128 + 1 * (y 0).val = (y 0).val; omega
  | ⟨1, _⟩ => show win4_1.index t (1 : Fin 2) * 10 + 1 * (y 1).val = (y 1).val; omega

/-- The bias row's block is the whole row. -/
theorem block_bias (c : Dev nD) (t : Fin cfg4.N) (y : S1x10.Idx) :
    iblk4 V c 2 t y = V c main_call0_v67 y := by
  obtain ⟨-, -, -, -, e0, e1, -, -⟩ := index_zero t
  show V c main_call0_v67 (((cfg4.win 2).blk t).view.emb y) = V c main_call0_v67 y
  refine congrArg (V c main_call0_v67) (funext fun a => Fin.ext ?_)
  match a with
  | ⟨0, _⟩ => show win4_2.index t (0 : Fin 2) * 1 + 1 * (y 0).val = (y 0).val; omega
  | ⟨1, _⟩ => show win4_2.index t (1 : Fin 2) * 10 + 1 * (y 1).val = (y 1).val; omega

/-- What the one point writes back is the whole head of the three arrays as the region finds them. -/
theorem flushed_eq (c : Dev nD) (t : Fin cfg4.N) :
    (dat4 (F := Ideal) V c).flushed 3 t
      = ((cfg4.win 3).blk t).view.read (Elt Ideal)
          (Cert.Gcn.head (V c main_call0_v66) (V c main_arg9) (V c main_call0_v67)) := by
  show (cfg4.win 3).cut (grid4.coords t) ((dat4 V c).after 3 t) = _
  rw [after4_3]
  unfold out4_3
  rw [View.canon_unit_zero offsets_zero]
  simp only [View.ld_unit_zero (S := S64x128) offsets_zero, View.ld_unit_zero (S := S128x10) offsets_zero,
    View.ld_unit_zero (S := S1x10) offsets_zero]
  have h0 : (iblk4 V c 0 t : Vec Ideal S64x128 .f32) = V c main_call0_v66 := funext (block_pooled V c t)
  have h1 : (iblk4 V c 1 t : Vec Ideal S128x10 .f32) = V c main_arg9 := funext (block_weights V c t)
  have h2 : (iblk4 V c 2 t : Vec Ideal S1x10 .f32) = V c main_call0_v67 := funext (block_bias V c t)
  rw [h0, h1, h2, pay_eq]
  obtain ⟨-, -, -, -, -, -, e0, e1⟩ := index_zero t
  funext j
  show Cert.Gcn.head (V c main_call0_v66) (V c main_arg9) (V c main_call0_v67) j
    = Cert.Gcn.head (V c main_call0_v66) (V c main_arg9) (V c main_call0_v67) (((cfg4.win 3).blk t).view.emb j)
  refine congrArg (Cert.Gcn.head (V c main_call0_v66) (V c main_arg9) (V c main_call0_v67)) (funext fun a => Fin.ext ?_)
  match a with
  | ⟨0, _⟩ => show (j 0).val = win4_3.index t (0 : Fin 2) * 64 + 1 * (j 0).val; omega
  | ⟨1, _⟩ => show (j 1).val = win4_3.index t (1 : Fin 2) * 10 + 1 * (j 1).val; omega

/-- An index of the output array is in the point's block iff each coordinate is in the block's range on its axis. -/
theorem mem_block (t : Fin cfg4.N) (i : S64x10.Idx) :
    i ∈ ((cfg4.win 3).blk t).view.set
      ↔ ∀ a : Fin 2, win4_3.index t a * S64x10.size a ≤ (i a).val
          ∧ (i a).val < win4_3.index t a * S64x10.size a + S64x10.size a := by
  show i ∈ ((View.whole main_v0).slice (win4_3.rect t)).set ↔ _
  rw [View.set_slice_whole, Rect.mem_set_unit]
  exact Iff.rfl

/-- The one point's block covers the output array. -/
theorem covered (i : S64x10.Idx) :
    ∃ t : Fin cfg4.N, (cfg4.win 3).flush t = true ∧ i ∈ ((cfg4.win 3).blk t).view.set := by
  refine ⟨t4_0, flush4_3 t4_0, ?_⟩
  rw [mem_block]
  obtain ⟨-, -, -, -, -, -, e0, e1⟩ := index_zero t4_0
  have h0 : (i 0).val < 64 := (i 0).isLt
  have h1 : (i 1).val < 10 := (i 1).isLt
  intro a
  match a with
  | ⟨0, _⟩ => show win4_3.index t4_0 (0 : Fin 2) * 64 ≤ (i 0).val ∧ (i 0).val < win4_3.index t4_0 (0 : Fin 2) * 64 + 64; omega
  | ⟨1, _⟩ => show win4_3.index t4_0 (1 : Fin 2) * 10 ≤ (i 1).val ∧ (i 1).val < win4_3.index t4_0 (1 : Fin 2) * 10 + 10; omega

/-- The output array after the region: the head of the pooled rows, the classifier's weights and its bias row as the region finds them. -/
theorem final4 (V : (c : Dev nD) → (b : Ref sig .tc) → Buf (Elt Ideal) ((c : Thread nD τ).loc b)) (c : Dev nD) :
    (dat4 (F := Ideal) V c).arrAt 3 cfg4.N
      = Cert.Gcn.head (V c main_call0_v66) (V c main_arg9) (V c main_call0_v67) :=
  (dat4 (F := Ideal) V c).arrAt_eq_of_cover 3 _ (fun t _ => flushed_eq V c t) covered

end Cert.KernelIdeal.Region4

end
-- ==== Proof.LibGatherRows.lean ====
/-
  A gather of whole rows, read at an index written by coordinates.

  Taking rows of an [N, C] table at an [R, 1] array of row numbers gives an [R, C] array. Its element (p, q) is the table's
  element (ρ p, q): the row ρ p is the row number stored for p, read as a signed integer and clamped into [0, N − 1]; the lane q
  is kept. The row ρ p depends on the row numbers alone — not on the table, nor on the lane — so taking rows commutes with
  anything done to each row of the table separately.
-/
import Idealize.ShloMosaic.Lib.ValueIdx
import Idealize.ShloMosaic.Lib.Pipeline.Value

namespace Cert.LibGatherRows

open Idealize.ShloMosaic Idealize.ShloMosaic.ValueIdx

variable {α : Type}

/-- The dimension numbers of taking rows: the table's row axis is collapsed and indexed by the one component of each start index,
    its lane axis is the result's second axis, taken whole. Their conditions `wf` are decided on a program's literal shapes. -/
abbrev rowDims (N R C : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Of a table's two axes, the one that is not the collapsed row axis is the lane axis. -/
private theorem kept_lanes :
    (List.finRange 2).filter (fun a : Fin 2 => a ∉ ([0] ++ [] : List (Fin 2))) = [1] := by decide

/-- The row of an `N`-row table that result row `p` reads: the stored row number, signed, clamped into `[0, N − 1]`. -/
def rowOf {N R w : ℕ} (hN : 0 < N) (idx : IVec ⟨2, ![R, 1]⟩ w) (p : Fin R) : Fin N :=
  ⟨min (idx (ix2 p (0 : Fin 1))).toInt.toNat (N - 1), by omega⟩

/-- Rows of an `[N, C]` table taken at an `[R, 1]` array of row numbers: element `(p, q)` is the table's `(rowOf p, q)`. -/
theorem gather_rows_apply {N R C w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (p : Fin R) (q : Fin C) :
    Host.gather (rowDims N R C wf) x idx (ix2 p q) = x (ix2 (rowOf hN idx p) q) := by
  unfold Host.gather
  congr 1
  funext a
  refine Fin.ext ?_
  show (rowDims N R C wf).start (ix2 p q) idx a + (rowDims N R C wf).batchCoord (ix2 p q) a
    + (rowDims N R C wf).offCoord (ix2 p q) a = _
  rw [GatherDims.batchCoord_eq_zero _ _ _ List.not_mem_nil]
  match a with
  | ⟨0, _⟩ =>
    show (rowDims N R C wf).start (ix2 p q) idx (0 : Fin 2) + 0 + (rowDims N R C wf).offCoord (ix2 p q) (0 : Fin 2)
      = (rowOf hN idx p).val
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 p q) ⟨List.idxOf (0 : Fin 2) (rowDims N R C wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims N R C wf).start (ix2 p q) idx (1 : Fin 2) + 0 + (rowDims N R C wf).offCoord (ix2 p q) (1 : Fin 2) = q.val
    have hs : (rowDims N R C wf).start (ix2 p q) idx (1 : Fin 2) = 0 := by
      unfold GatherDims.start
      rw [dif_neg (show (1 : Fin 2) ∉ ([0] : List (Fin 2)) by decide)]
    have hkept : (rowDims N R C wf).sKept = [(1 : Fin 2)] := kept_lanes
    have hk : (1 : Fin 2) ∈ (rowDims N R C wf).sKept := by rw [hkept]; exact List.mem_singleton.mpr rfl
    rw [hs]
    unfold GatherDims.offCoord
    rw [dif_pos hk]
    simp only [List.getElem_singleton, Nat.add_zero, Nat.zero_add]
    rfl

end Cert.LibGatherRows
-- ==== Proof.LibRowIndex.lean ====
/-
  Rows named by an array of row numbers: a flat gather, and where an accumulating scatter of rows lands.

  Taking entries of a length-N vector at an [R, 1] array of row numbers gives a length-R vector whose entry p is the vector's
  entry ρ p, the SAME row ρ p (the stored number read signed and clamped into [0, N − 1]) that taking whole rows of an [N, C]
  table at those numbers reads. A scatter of the rows of an [R, C] array of updates into an [N, C] array at an [R, 1] array
  of row numbers lands update (e, f) — when it lands at all — on row "the stored number of e, read signed, not clamped", so an
  update that lands on row n has stored number exactly n. jnp's indexing first wraps a negative number by adding the extent:
  on a number that is already a valid row the wrap does nothing, so a scatter target n is also the row a gather at the wrapped
  numbers reads.
-/
import Idealize.ShloMosaic.Lib.ValueIdx
import Idealize.ShloMosaic.Lib.Pipeline.Value
import proofs.«151492_j3530463117755_2_alg».proof.Proof.LibGatherRows

namespace Cert.LibRowIndex

open Idealize.ShloMosaic Idealize.ShloMosaic.ValueIdx Cert.LibGatherRows

variable {α : Type}

/-- The dimension numbers of taking entries of a vector: its one axis is collapsed and indexed by the one component of each
    start index; the result has no offset axis. -/
abbrev vecDims (N R : ℕ) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entries of a length-`N` vector taken at an `[R, 1]` array of row numbers: entry `p` is the vector's entry `rowOf p`. -/
theorem gather_vec_apply {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (p : Fin R) :
    Host.gather (vecDims N R wf) x idx (ix1 p) = x (ix1 (rowOf hN idx p)) := by
  unfold Host.gather
  congr 1
  funext a
  refine Fin.ext ?_
  show (vecDims N R wf).start (ix1 p) idx a + (vecDims N R wf).batchCoord (ix1 p) a
    + (vecDims N R wf).offCoord (ix1 p) a = _
  rw [GatherDims.batchCoord_eq_zero _ _ _ List.not_mem_nil]
  match a with
  | ⟨0, _⟩ =>
    show (vecDims N R wf).start (ix1 p) idx (0 : Fin 1) + 0 + (vecDims N R wf).offCoord (ix1 p) (0 : Fin 1)
      = (rowOf hN idx p).val
    rw [GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx (ix1 p) ⟨List.idxOf (0 : Fin 1) (vecDims N R wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl

/-- The dimension numbers of scattering rows: the update's lane axis is its window axis, the operand's row axis is inserted
    and indexed by the one component of each scatter index. -/
abbrev rowScatterDims (N R C : ℕ) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Of an operand's two axes, the inserted row axis is not a kept one. -/
private theorem row_not_kept : (0 : Fin 2) ∉ (List.finRange 2).filter (fun a : Fin 2 => a ∉ ([0] : List (Fin 2))) := by decide

/-- An update `(e, f)` of a scatter of rows that lands on element `i` has stored row number exactly `i`'s row. -/
theorem scatter_rows_target {N R C w : ℕ} (wf : ScatterDims.WF ⟨2, ![N, C]⟩ ⟨2, ![R, 1]⟩ ⟨2, ![R, C]⟩ [1] [0] [0] 1)
    (idx : IVec ⟨2, ![R, 1]⟩ w) (e : Fin R) (f : Fin C) (i : (⟨2, ![N, C]⟩ : Shape).Idx)
    (h : (rowScatterDims N R C wf).resultIdx? (ix2 e f) idx = some i) :
    (idx (ix2 e (0 : Fin 1))).toInt = ((i 0).val : ℤ) := by
  have hst : (rowScatterDims N R C wf).start (ix2 e f) idx (0 : Fin 2) = (idx (ix2 e (0 : Fin 1))).toInt := by
    unfold ScatterDims.start
    rw [dif_pos (show (0 : Fin 2) ∈ (rowScatterDims N R C wf).scatterDimsToOperandDims from List.mem_singleton.mpr rfl)]
    have hsi : (rowScatterDims N R C wf).siIdx (ix2 e f) ⟨List.idxOf (0 : Fin 2) (rowScatterDims N R C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowScatterDims N R C wf).window (ix2 e f) (0 : Fin 2) = 0 := by
    unfold ScatterDims.window
    rw [dif_neg (show (0 : Fin 2) ∉ (rowScatterDims N R C wf).sKept from row_not_kept)]
  unfold ScatterDims.resultIdx? at h
  split at h
  · rename_i hin
    have h0 := congrArg Fin.val (congrFun (Option.some.inj h) (0 : Fin 2))
    have hpos := (hin (0 : Fin 2)).1
    rw [hst, hw] at hpos
    simp only [hst, hw] at h0
    omega
  · exact absurd h (by simp)

/-- jnp's wrap of a negative row number, `select(v < 0, v + k, v)`, leaves a non-negative number alone. -/
theorem wrap_of_nonneg (v k : BitVec 32) (hv : 0 ≤ v.toInt) :
    Scalar.select (IntOp.cmpi .slt v 0#32) (IntOp.addi v k) v = v := by
  have : IntOp.cmpi .slt v 0#32 ≠ 1 := by
    simp only [IntOp.cmpi, BitVec.slt]
    have h0 : (0#32 : BitVec 32).toInt = 0 := by decide
    rw [h0, decide_eq_false (by omega)]
    decide
  rw [Scalar.select, if_neg this]

/-- The row a gather reads at a row number that is stored as a valid row `n`: that row. -/
theorem rowOf_of_toInt {N R : ℕ} (hN : 0 < N) (idx : IVec ⟨2, ![R, 1]⟩ 32) (p : Fin R) (n : Fin N)
    (h : (idx (ix2 p (0 : Fin 1))).toInt = (n.val : ℤ)) : rowOf hN idx p = n := by
  refine Fin.ext ?_
  show min (idx (ix2 p (0 : Fin 1))).toInt.toNat (N - 1) = n.val
  rw [h]
  have := n.isLt
  simp only [Int.toNat_natCast]
  omega

end Cert.LibRowIndex
-- ==== Proof.LibScatterScale.lean ====
/-
  Scaling the result of an accumulating scatter by a non-negative finite factor.

  Over the extended reals multiplication by a factor x distributes over a sum as soon as 0 ≤ x < ⊤, whatever the summands
  (infinite ones included). An accumulating scatter from the zero array puts at each element the sum of the updates that land
  on it. So if every update landing on element i is, in a second array of updates, multiplied by one factor x (that may depend
  on i), the second scatter's element i is the first one's times x: (∑ u) · x = ∑ (u · x).

  Also here: the inverse square root of a count, guarded against zero as  select(d > 0, rsqrt d, 0),  is non-negative and
  finite for every extended real d (at ⊥ and at d ≤ 0 it is 0, at ⊤ it is 0, at a positive real it is 1/√d).
-/
import Idealize.ShloMosaic.PureOps.Ideal

namespace Cert.LibScatterScale

open Idealize.ShloMosaic

/-- A finite sum of extended reals times a non-negative finite factor is the sum of the products. -/
theorem sum_mul_of_nonneg_of_ne_top {ι : Type} (S : Finset ι) (f : ι → EReal) {x : EReal} (h0 : 0 ≤ x) (ht : x ≠ ⊤) :
    (∑ j ∈ S, f j) * x = ∑ j ∈ S, f j * x := by
  classical
  induction S using Finset.induction_on with
  | empty => simp
  | insert a s ha ih =>
    rw [Finset.sum_insert ha, Finset.sum_insert ha, EReal.right_distrib_of_nonneg_of_ne_top h0 ht, ih]

/-- An accumulating scatter from the zero array: if each update that lands on element `i` is, in `upd'`, the one of `upd`
    times `x`, then element `i` of the scatter of `upd'` is element `i` of the scatter of `upd`, times `x`. -/
theorem hostScatterAdd_zero_mul {s si su : Shape} (d : ScatterDims s si su) {w : ℕ} (idx : IVec si w)
    (upd upd' : su.Idx → EReal) (i : s.Idx) {x : EReal} (h0 : 0 ≤ x) (ht : x ≠ ⊤)
    (h : ∀ j, d.resultIdx? j idx = some i → upd' j = upd j * x) :
    Ideal.hostScatterAdd d (fun _ => 0) idx upd' i = Ideal.hostScatterAdd d (fun _ => 0) idx upd i * x := by
  unfold Ideal.hostScatterAdd
  rw [EReal.right_distrib_of_nonneg_of_ne_top h0 ht, zero_mul, sum_mul_of_nonneg_of_ne_top _ _ h0 ht]
  congr 1
  exact Finset.sum_congr rfl (fun j hj => h j (Finset.mem_filter.mp hj).2)

/-- The same for the host operation, started from an array that is zero everywhere. -/
theorem host_scatterAdd_zero_mul {φ : FTy} {s si su : Shape} (d : ScatterDims s si su) {w : ℕ}
    (z : s.Idx → EReal) (hz : z = fun _ => 0) (idx : IVec si w)
    (upd upd' : su.Idx → EReal) (i : s.Idx) {x : EReal} (h0 : 0 ≤ x) (ht : x ≠ ⊤)
    (h : ∀ j, d.resultIdx? j idx = some i → upd' j = upd j * x) :
    Host.scatterAdd (F := Ideal) (φ := φ) d z idx upd' i = Host.scatterAdd (F := Ideal) (φ := φ) d z idx upd i * x := by
  subst hz
  exact hostScatterAdd_zero_mul d idx upd upd' i h0 ht h

/-- The guarded inverse square root `select(d > 0, rsqrt d, 0)` is non-negative and finite at every extended real. -/
theorem guarded_rsqrt_nonneg_ne_top (d : EReal) :
    0 ≤ Scalar.select (Ideal.cmp .ogt d 0) (Ideal.rsqrt d) 0 ∧ Scalar.select (Ideal.cmp .ogt d 0) (Ideal.rsqrt d) 0 ≠ ⊤ := by
  induction d using EReal.rec with
  | bot => simp [Scalar.select, Ideal.cmp]
  | top => simp [Scalar.select, Ideal.cmp]
  | coe r =>
    by_cases hr : 0 < r
    · have h1 : Ideal.cmp .ogt (r : EReal) 0 = 1 := by simp [Ideal.cmp, hr]
      have h2 : Ideal.rsqrt (r : EReal) = (((Real.sqrt r)⁻¹ : ℝ) : EReal) := by
        rw [Ideal.rsqrt_coe, if_neg (not_lt.mpr hr.le), if_neg hr.ne']
      rw [Scalar.select, if_pos h1, h2]
      exact ⟨by exact_mod_cast inv_nonneg.mpr (Real.sqrt_nonneg r), EReal.coe_ne_top _⟩
    · have h1 : Ideal.cmp .ogt (r : EReal) 0 ≠ 1 := by simp [Ideal.cmp, hr]
      rw [Scalar.select, if_neg h1]
      exact ⟨le_refl _, EReal.zero_ne_top⟩

end Cert.LibScatterScale
-- ==== Proof.LibEdgeLaw.lean ====
/-
  The edge law of a graph convolution in its two arrangements.

  Every node n carries a factor d(n), a non-negative finite number. A layer sums, for each node i, the rows M(s(e), ·) of
  the edges e that end at i, each weighted by d(s(e)) · d(i), s(e) the edge's source. Since all the edges summed at i end at
  i, the factor d(i) is common to the whole sum: weighting each summand by d(s(e)) alone — which is summing the rows of the
  row-scaled array g(n, ·) = M(n, ·) · d(n) — and multiplying the sum by d(i) afterwards gives the same number. Over the
  extended reals a common factor moves out of a sum exactly when it is non-negative and finite, whatever the summands.

  In the programs the sum is an accumulating scatter of rows from the zero array at the edges' stored end nodes, an update
  landing on row i exactly when its stored number is i; the rows and the factors are gathered at stored node numbers, read
  signed and clamped; and the factor of the end node is gathered at the stored number after a wrap of negative numbers,
  which leaves the number of an update that lands alone.
-/
import Idealize.ShloMosaic.PureOps.Ideal
import Idealize.ShloMosaic.Lib.ValueIdx
import proofs.«151492_j3530463117755_2_alg».proof.Proof.LibGatherRows
import proofs.«151492_j3530463117755_2_alg».proof.Proof.LibRowIndex
import proofs.«151492_j3530463117755_2_alg».proof.Proof.LibScatterScale

namespace Cert.Gcn.EdgeLaw

open Idealize.ShloMosaic Idealize.ShloMosaic.ValueIdx Cert.LibGatherRows Cert.LibRowIndex Cert.LibScatterScale

variable {N R C : ℕ}

/-- The sum, over the edges ending at node i, of the source rows weighted by both end factors is the sum of the
    row-scaled source rows, times the factor of i. -/
theorem scatter_weighted_eq_scaled (hN : 0 < N)
    (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (wfV : GatherDims.WF ⟨1, ![N]⟩ ⟨2, ![R, 1]⟩ ⟨1, ![R]⟩ [] [0] [] [0] [] 1 ![1])
    (z : (⟨2, ![N, C]⟩ : Shape).Idx → EReal) (hz : z = fun _ => 0)
    (src dstw dst : IVec ⟨2, ![R, 1]⟩ 32) (k : BitVec 32)
    (hw : ∀ e : Fin R, dstw (ix2 e (0 : Fin 1))
      = Scalar.select (IntOp.cmpi .slt (dst (ix2 e (0 : Fin 1))) 0#32) (IntOp.addi (dst (ix2 e (0 : Fin 1))) k)
          (dst (ix2 e (0 : Fin 1))))
    (d : (⟨1, ![N]⟩ : Shape).Idx → EReal) (hd : ∀ n, 0 ≤ d n ∧ d n ≠ ⊤)
    (M g : (⟨2, ![N, C]⟩ : Shape).Idx → EReal)
    (hg : ∀ (p : Fin N) (q : Fin C), g (ix2 p q) = M (ix2 p q) * d (ix1 p))
    (w : (⟨2, ![R, C]⟩ : Shape).Idx → EReal)
    (hwgt : ∀ (e : Fin R) (f : Fin C), w (ix2 e f)
      = Host.gather (vecDims N R wfV) d src (ix1 e) * Host.gather (vecDims N R wfV) d dstw (ix1 e))
    (i : Fin N) (q : Fin C) :
    Host.scatterAdd (F := Ideal) (φ := .f32) (rowScatterDims N R C wfS) z dst
        (fun j => Host.gather (rowDims N R C wfG) M src j * w j) (ix2 i q)
      = Host.scatterAdd (F := Ideal) (φ := .f32) (rowScatterDims N R C wfS) z dst
          (Host.gather (rowDims N R C wfG) g src) (ix2 i q) * d (ix1 i) := by
  refine host_scatterAdd_zero_mul _ z hz dst _ _ (ix2 i q) (hd _).1 (hd _).2 fun j hj => ?_
  obtain ⟨e, f, rfl⟩ : ∃ (e : Fin R) (f : Fin C), j = ix2 e f := ⟨j 0, j 1, eq_ix2 j⟩
  have ht : (dst (ix2 e (0 : Fin 1))).toInt = (i.val : ℤ) := scatter_rows_target wfS dst e f (ix2 i q) hj
  have hwe : dstw (ix2 e (0 : Fin 1)) = dst (ix2 e (0 : Fin 1)) := by
    rw [hw e]
    exact wrap_of_nonneg _ _ (by rw [ht]; exact Int.natCast_nonneg _)
  have hrow : rowOf hN dstw e = i := rowOf_of_toInt hN dstw e i (by rw [hwe]; exact ht)
  show Host.gather (rowDims N R C wfG) M src (ix2 e f) * w (ix2 e f)
    = Host.gather (rowDims N R C wfG) g src (ix2 e f) * d (ix1 i)
  rw [hwgt, gather_rows_apply hN, gather_rows_apply hN, gather_vec_apply hN, gather_vec_apply hN, hrow, hg, mul_assoc]

end Cert.Gcn.EdgeLaw
-- ==== Proof.LibNodeFactor.lean ====
/-
  The node factor of the symmetric normalisation is a non-negative finite number.

  A node with D incoming edges (self-loop included) gets the factor  select(D > 0, rsqrt(max(D, 1)), 0).  Whatever extended
  real D is, max(D, 1) is at least 1, so its inverse square root is a real number in (0, 1], or 0 when max(D, 1) = ⊤; the
  other branch of the selection is 0. Either way the factor is ≥ 0 and not ⊤ — which is what lets it move out of a sum of
  extended reals.
-/
import Idealize.ShloMosaic.PureOps.Ideal

namespace Cert.Gcn.NodeFactor

open Idealize.ShloMosaic

/-- The inverse square root of a number that is at least 1 (or ⊤) is non-negative and finite. -/
theorem rsqrt_max_one_nonneg_ne_top (D : EReal) : 0 ≤ Ideal.rsqrt (max D 1) ∧ Ideal.rsqrt (max D 1) ≠ ⊤ := by
  have hreal : ∀ r : ℝ, 1 ≤ r → 0 ≤ Ideal.rsqrt (r : EReal) ∧ Ideal.rsqrt (r : EReal) ≠ ⊤ := by
    intro r hr
    rw [Ideal.rsqrt_coe, if_neg (by linarith), if_neg (by linarith)]
    exact ⟨by exact_mod_cast inv_nonneg.mpr (Real.sqrt_nonneg r), EReal.coe_ne_top _⟩
  induction D using EReal.rec with
  | bot =>
    rw [max_eq_right bot_le, ← EReal.coe_one]
    exact hreal 1 le_rfl
  | top =>
    rw [max_eq_left le_top, Ideal.rsqrt_top]
    exact ⟨le_rfl, EReal.zero_ne_top⟩
  | coe r =>
    have h : max (r : EReal) 1 = ((max r 1 : ℝ) : EReal) := by
      rw [← EReal.coe_one]
      exact (EReal.coe_strictMono.monotone.map_max).symm
    rw [h]
    exact hreal _ (le_max_right r 1)

/-- The node factor is non-negative and finite at every extended real. -/
theorem factor_nonneg_ne_top (D : EReal) :
    0 ≤ Scalar.select (Ideal.cmp .ogt D 0) (Ideal.rsqrt (max D 1)) 0
      ∧ Scalar.select (Ideal.cmp .ogt D 0) (Ideal.rsqrt (max D 1)) 0 ≠ ⊤ := by
  unfold Scalar.select
  split
  · exact rsqrt_max_one_nonneg_ne_top D
  · exact ⟨le_rfl, EReal.zero_ne_top⟩

end Cert.Gcn.NodeFactor
-- ==== Proof.LibF32Literals.lean ====
/-
  Binary32 literals as extended reals. At the exact (extended-real) reading of floats a literal is the value its
  IEEE-754 pattern denotes: sign bit, eight exponent bits with bias 127, twenty-three fraction bits. The patterns
  here are those of 0, 1, 2, 16, 256 and 16384.
-/
import Idealize.ShloMosaic.PureOps.Ideal

noncomputable section

namespace Cert.LibF32Literals

open Idealize.ShloMosaic

/-- The pattern of +0.0 denotes 0. -/
theorem ofBits_zero : Ideal.ofBits .f32 0x00000000#32 = 0 := by
  simp [Ideal.ofBits, Ideal.ieee]

/-- The pattern 0x3F800000 denotes 1. -/
theorem ofBits_one : Ideal.ofBits .f32 0x3F800000#32 = 1 := by
  simp [Ideal.ofBits, Ideal.ieee, -EReal.coe_mul]; norm_num

/-- The pattern 0x3F800000 denotes the real 1. -/
theorem ofBits_one_coe : Ideal.ofBits .f32 0x3F800000#32 = ((1 : ℝ) : EReal) := by
  rw [ofBits_one]; norm_cast

/-- The pattern 0x40000000 denotes the real 2. -/
theorem ofBits_two : Ideal.ofBits .f32 0x40000000#32 = ((2 : ℝ) : EReal) := by
  simp [Ideal.ofBits, Ideal.ieee, -EReal.coe_mul]; norm_num

/-- The pattern 0x41800000 denotes the real 16. -/
theorem ofBits_16 : Ideal.ofBits .f32 0x41800000#32 = ((16 : ℝ) : EReal) := by
  simp [Ideal.ofBits, Ideal.ieee, -EReal.coe_mul]; norm_num

/-- The pattern 0x43800000 denotes the real 256. -/
theorem ofBits_256 : Ideal.ofBits .f32 0x43800000#32 = ((256 : ℝ) : EReal) := by
  simp [Ideal.ofBits, Ideal.ieee, -EReal.coe_mul]; norm_num

/-- The pattern 0x46800000 denotes the real 16384. -/
theorem ofBits_16384 : Ideal.ofBits .f32 0x46800000#32 = ((16384 : ℝ) : EReal) := by
  simp [Ideal.ofBits, Ideal.ieee, -EReal.coe_mul]; norm_num

end Cert.LibF32Literals

end
-- ==== Proof.RefSide.lean ====
/-
  The reference program's graph convolution layers, read as functions of its arguments.

  The reference computes, for every node n, a factor d(n) = select(D(n) > 0, 1/√(max(D(n), 1)), 0) from the number D(n)
  of edges ending at n, and then three layers. A layer multiplies the node features by a weight matrix, takes for every
  edge the row of its source node, weights it by d(source) · d(end), and sums the weighted rows at the edges' end
  nodes; then it adds a bias row and (in the first two layers) ramps at zero.

  Proved here, all over the extended reals:
    * the factor d(n) is non-negative and finite at every node;
    * the edge law in the program's own spelling: since every edge summed at node i ends at i, the factor d(i) is common
      to the whole sum and moves out of it, so the sum of the source rows weighted by both factors is the sum of the
      row-scaled source rows M(n, ·) · d(n), times d(i);
    * each layer's accumulating scatter is the one term the edge law is stated for (the three layers re-spell the same
      edge arrays);
    * the dense products, the bias-and-ramp stages and the classifier's bias row, entry by entry.
-/
import proofs.«151492_j3530463117755_2_alg».proof.Proof.RefRead
import proofs.«151492_j3530463117755_2_alg».proof.Proof.LibEdgeLaw
import proofs.«151492_j3530463117755_2_alg».proof.Proof.LibNodeFactor
import proofs.«151492_j3530463117755_2_alg».proof.Proof.LibF32Literals
import proofs.«151492_j3530463117755_2_alg».proof.Proof.LibGatherRows
import proofs.«151492_j3530463117755_2_alg».proof.Proof.LibRowIndex
import Idealize.ShloMosaic.Lib.StackMember

namespace Cert.ReferenceIdeal.RefSide

open Cert.ReferenceIdeal Cert.ReferenceIdeal.Gen Cert.ReferenceIdeal.ReadP Idealize.ShloMosaic Idealize.ShloMosaic.ValueIdx

/-! ## The node factors -/

/-- The factor of every node is a non-negative finite number. -/
theorem factor_ok (x1 : (⟨S2x1600000, .i32⟩ : BufTy).Contents (Elt Ideal)) (n : S100000.Idx) :
    0 ≤ val_main_v16 (F := Ideal) x1 n ∧ val_main_v16 (F := Ideal) x1 n ≠ ⊤ := by
  rw [val_main_v16_apply, val_main_v12_apply, val_main_v15_apply, val_main_v14_apply, val_main_v11_apply,
    val_main_v13_apply, val_main_call0_v1_apply, val_main_call0_v0_apply, val_main_cst_1_apply, val_main_cst_2_apply,
    val_main_cst_3_apply]
  generalize val_main_v10 (F := Ideal) x1 n = D
  show 0 ≤ Scalar.select (Ideal.cmp .ogt D (Ideal.ofBits .f32 0x00000000#32))
        (Ideal.rsqrt (max D (Ideal.ofBits .f32 0x3F800000#32))) (Ideal.ofBits .f32 0x00000000#32)
    ∧ Scalar.select (Ideal.cmp .ogt D (Ideal.ofBits .f32 0x00000000#32))
        (Ideal.rsqrt (max D (Ideal.ofBits .f32 0x3F800000#32))) (Ideal.ofBits .f32 0x00000000#32) ≠ ⊤
  rw [Cert.LibF32Literals.ofBits_zero, Cert.LibF32Literals.ofBits_one]
  exact Cert.Gcn.NodeFactor.factor_nonneg_ne_top D

/-! ## The edge arrays -/

/-- The program's dimension numbers of scattering rows are the plain ones. -/
theorem scatter_dims :
    scatter_S100000x128_S1700000x1_S1700000x128_1_0_0_1
      = Cert.LibRowIndex.rowScatterDims 100000 1700000 128 Facts₀.scatter_S100000x128_S1700000x1_S1700000x128_1_0_0_1_wf :=
  rfl

/-- The program's dimension numbers of taking rows are the plain ones. -/
theorem gather_rows_dims :
    gather_S100000x128_S1700000x1_S1700000x128_1_0_n_n_0_1_1128
      = Cert.LibGatherRows.rowDims 100000 1700000 128
          Facts₀.gather_S100000x128_S1700000x1_S1700000x128_1_0_n_n_0_1_1128_wf :=
  rfl

/-- The program's dimension numbers of taking entries of a vector are the plain ones. -/
theorem gather_vec_dims :
    gather_S100000_S1700000x1_S1700000_n_0_n_n_0_1_1
      = Cert.LibRowIndex.vecDims 100000 1700000 Facts₀.gather_S100000_S1700000x1_S1700000_n_0_n_n_0_1_1_wf :=
  rfl

/-- The edges' source nodes are spelt twice by the program: one term. -/
theorem sources_eq (x1 : (⟨S2x1600000, .i32⟩ : BufTy).Contents (Elt Ideal)) :
    val_main_v22 (F := Ideal) x1 = val_main_v38 (F := Ideal) x1 := rfl

/-- The array the sums start from is zero everywhere. -/
theorem start_zero : val_main_v43 (F := Ideal) = fun _ => (0 : EReal) := by
  funext i
  rw [val_main_v43_apply, val_main_cst_9_apply]
  exact Cert.LibF32Literals.ofBits_zero

/-- The end node a factor is taken at is the stored end node after the wrap of negative numbers. -/
theorem wrapped_end (x1 : (⟨S2x1600000, .i32⟩ : BufTy).Contents (Elt Ideal)) (e : Fin 1700000) :
    val_main_v29 (F := Ideal) x1 (ix2 e (0 : Fin 1))
      = Scalar.select (IntOp.cmpi .slt (val_main_v44 (F := Ideal) x1 (ix2 e (0 : Fin 1))) 0#32)
          (IntOp.addi (val_main_v44 (F := Ideal) x1 (ix2 e (0 : Fin 1))) 100000#32)
          (val_main_v44 (F := Ideal) x1 (ix2 e (0 : Fin 1))) := by
  rw [val_main_v29_apply, val_main_v28_apply, val_main_v25_apply, val_main_v27_apply, val_main_v24_apply,
    val_main_v26_apply, val_main_c_5_apply, val_main_c_6_apply, val_main_v44_apply]

/-- The weight of an edge, the same on every lane: the factor of its source node times the factor of its end node. -/
theorem edge_weight (x1 : (⟨S2x1600000, .i32⟩ : BufTy).Contents (Elt Ideal)) (e : Fin 1700000) (f : Fin 128) :
    val_main_v41 (F := Ideal) x1 (ix2 e f)
      = Host.gather (Cert.LibRowIndex.vecDims 100000 1700000 Facts₀.gather_S100000_S1700000x1_S1700000_n_0_n_n_0_1_1_wf)
            (val_main_v16 (F := Ideal) x1) (val_main_v38 (F := Ideal) x1) (ix1 e)
          * Host.gather (Cert.LibRowIndex.vecDims 100000 1700000 Facts₀.gather_S100000_S1700000x1_S1700000_n_0_n_n_0_1_1_wf)
            (val_main_v16 (F := Ideal) x1) (val_main_v29 (F := Ideal) x1) (ix1 e) := by
  have hj : idx_main_v40 (idx_main_v41 (ix2 e f)) = ix1 e :=
    funext fun a => Fin.ext (by match a with | ⟨0, _⟩ => rfl)
  rw [val_main_v41_apply, val_main_v40_apply, val_main_v31_apply, hj, ← gather_vec_dims, ← sources_eq]
  rfl

/-! ## The edge law in the program's spelling -/

/-- The sum, over the edges ending at node i, of the source rows of M weighted by both end factors is the sum of the
    source rows of the row-scaled array g(n, ·) = M(n, ·) · d(n), times d(i). -/
theorem edge_sum (x1 : (⟨S2x1600000, .i32⟩ : BufTy).Contents (Elt Ideal)) (M g : S100000x128.Idx → EReal)
    (hg : ∀ (p : Fin 100000) (q : Fin 128), g (ix2 p q) = M (ix2 p q) * val_main_v16 (F := Ideal) x1 (ix1 p))
    (i : Fin 100000) (q : Fin 128) :
    Host.scatterAdd (F := Ideal) (φ := .f32) scatter_S100000x128_S1700000x1_S1700000x128_1_0_0_1 (val_main_v43 (F := Ideal))
        (val_main_v44 (F := Ideal) x1)
        (mulf (F := Ideal) (φ := .f32) (Host.gather gather_S100000x128_S1700000x1_S1700000x128_1_0_n_n_0_1_1128 M (val_main_v38 (F := Ideal) x1))
          (val_main_v41 (F := Ideal) x1)) (ix2 i q)
      = Host.scatterAdd (F := Ideal) (φ := .f32) scatter_S100000x128_S1700000x1_S1700000x128_1_0_0_1 (val_main_v43 (F := Ideal))
          (val_main_v44 (F := Ideal) x1)
          (Host.gather gather_S100000x128_S1700000x1_S1700000x128_1_0_n_n_0_1_1128 g (val_main_v38 (F := Ideal) x1))
          (ix2 i q)
        * val_main_v16 (F := Ideal) x1 (ix1 i) := by
  rw [scatter_dims, gather_rows_dims]
  exact Cert.Gcn.EdgeLaw.scatter_weighted_eq_scaled (N := 100000) (R := 1700000) (C := 128) (by decide)
    Facts₀.scatter_S100000x128_S1700000x1_S1700000x128_1_0_0_1_wf
    Facts₀.gather_S100000x128_S1700000x1_S1700000x128_1_0_n_n_0_1_1128_wf
    Facts₀.gather_S100000_S1700000x1_S1700000_n_0_n_n_0_1_1_wf
    (val_main_v43 (F := Ideal)) start_zero
    (val_main_v38 (F := Ideal) x1) (val_main_v29 (F := Ideal) x1) (val_main_v44 (F := Ideal) x1) 100000#32
    (wrapped_end x1) (val_main_v16 (F := Ideal) x1) (factor_ok x1) M g hg
    (val_main_v41 (F := Ideal) x1) (edge_weight x1) i q

/-! ## The three layers' sums are one term -/

/-- The later layers re-spell the array the sums start from, -/
theorem start_eq2 : val_main_v61 (F := Ideal) = val_main_v43 (F := Ideal) := rfl
theorem start_eq3 : val_main_v79 (F := Ideal) = val_main_v43 (F := Ideal) := rfl

/-- the edges' stored end nodes, -/
theorem ends_eq2 (x1 : (⟨S2x1600000, .i32⟩ : BufTy).Contents (Elt Ideal)) : val_main_v62 (F := Ideal) x1 = val_main_v44 (F := Ideal) x1 := rfl
theorem ends_eq3 (x1 : (⟨S2x1600000, .i32⟩ : BufTy).Contents (Elt Ideal)) : val_main_v80 (F := Ideal) x1 = val_main_v44 (F := Ideal) x1 := rfl

/-- the edges' source nodes, -/
theorem sources_eq2 (x1 : (⟨S2x1600000, .i32⟩ : BufTy).Contents (Elt Ideal)) : val_main_v56 (F := Ideal) x1 = val_main_v38 (F := Ideal) x1 := rfl
theorem sources_eq3 (x1 : (⟨S2x1600000, .i32⟩ : BufTy).Contents (Elt Ideal)) : val_main_v74 (F := Ideal) x1 = val_main_v38 (F := Ideal) x1 := rfl

/-- and the edge weights. -/
theorem weights_eq2 (x1 : (⟨S2x1600000, .i32⟩ : BufTy).Contents (Elt Ideal)) : val_main_v59 (F := Ideal) x1 = val_main_v41 (F := Ideal) x1 := rfl
theorem weights_eq3 (x1 : (⟨S2x1600000, .i32⟩ : BufTy).Contents (Elt Ideal)) : val_main_v77 (F := Ideal) x1 = val_main_v41 (F := Ideal) x1 := rfl

/-- The first layer's sum: the weighted source rows of the transformed features, summed at the end nodes. -/
theorem v45_eq (x0 : (⟨S100000x128, .f32⟩ : BufTy).Contents (Elt Ideal))
    (x1 : (⟨S2x1600000, .i32⟩ : BufTy).Contents (Elt Ideal))
    (x3 : (⟨S128x128, .f32⟩ : BufTy).Contents (Elt Ideal)) :
    val_main_v45 (F := Ideal) x0 x1 x3
      = Host.scatterAdd (F := Ideal) (φ := .f32) scatter_S100000x128_S1700000x1_S1700000x128_1_0_0_1 (val_main_v43 (F := Ideal))
        (val_main_v44 (F := Ideal) x1)
        (mulf (F := Ideal) (φ := .f32) (Host.gather gather_S100000x128_S1700000x1_S1700000x128_1_0_n_n_0_1_1128 (val_main_v32 (F := Ideal) x0 x3) (val_main_v38 (F := Ideal) x1))
          (val_main_v41 (F := Ideal) x1)) := rfl

/-- The second layer's sum is the same term of the second layer's transformed features. -/
theorem v63_eq (x0 : (⟨S100000x128, .f32⟩ : BufTy).Contents (Elt Ideal))
    (x1 : (⟨S2x1600000, .i32⟩ : BufTy).Contents (Elt Ideal))
    (x3 : (⟨S128x128, .f32⟩ : BufTy).Contents (Elt Ideal))
    (x4 : (⟨S128, .f32⟩ : BufTy).Contents (Elt Ideal))
    (x5 : (⟨S128x128, .f32⟩ : BufTy).Contents (Elt Ideal)) :
    val_main_v63 (F := Ideal) x0 x1 x3 x4 x5
      = Host.scatterAdd (F := Ideal) (φ := .f32) scatter_S100000x128_S1700000x1_S1700000x128_1_0_0_1 (val_main_v43 (F := Ideal))
        (val_main_v44 (F := Ideal) x1)
        (mulf (F := Ideal) (φ := .f32) (Host.gather gather_S100000x128_S1700000x1_S1700000x128_1_0_n_n_0_1_1128 (val_main_v50 (F := Ideal) x0 x1 x3 x4 x5) (val_main_v38 (F := Ideal) x1))
          (val_main_v41 (F := Ideal) x1)) := by
  unfold val_main_v63 val_main_v60 val_main_v57
  rw [start_eq2, ends_eq2 x1, sources_eq2 x1, weights_eq2 x1]

/-- The third layer's sum is the same term of the third layer's transformed features. -/
theorem v81_eq (x0 : (⟨S100000x128, .f32⟩ : BufTy).Contents (Elt Ideal))
    (x1 : (⟨S2x1600000, .i32⟩ : BufTy).Contents (Elt Ideal))
    (x3 : (⟨S128x128, .f32⟩ : BufTy).Contents (Elt Ideal))
    (x4 : (⟨S128, .f32⟩ : BufTy).Contents (Elt Ideal))
    (x5 : (⟨S128x128, .f32⟩ : BufTy).Contents (Elt Ideal))
    (x6 : (⟨S128, .f32⟩ : BufTy).Contents (Elt Ideal))
    (x7 : (⟨S128x128, .f32⟩ : BufTy).Contents (Elt Ideal)) :
    val_main_v81 (F := Ideal) x0 x1 x3 x4 x5 x6 x7
      = Host.scatterAdd (F := Ideal) (φ := .f32) scatter_S100000x128_S1700000x1_S1700000x128_1_0_0_1 (val_main_v43 (F := Ideal))
        (val_main_v44 (F := Ideal) x1)
        (mulf (F := Ideal) (φ := .f32) (Host.gather gather_S100000x128_S1700000x1_S1700000x128_1_0_n_n_0_1_1128 (val_main_v68 (F := Ideal) x0 x1 x3 x4 x5 x6 x7) (val_main_v38 (F := Ideal) x1))
          (val_main_v41 (F := Ideal) x1)) := by
  unfold val_main_v81 val_main_v78 val_main_v75
  rw [start_eq3, ends_eq3 x1, sources_eq3 x1, weights_eq3 x1]

/-! ## The dense products -/

/-- The program's dimension numbers of the dense product are the plain ones. -/
theorem dot_dims : dot_S100000x128_S128x128_S100000x128_1_0_0_1_n_n = DotDims.plain 100000 128 128 := rfl

/-- The dense product of node features with a weight matrix, entry by entry. -/
theorem dense_apply (A : S100000x128.Idx → EReal) (W : S128x128.Idx → EReal) (p : Fin 100000) (q : Fin 128) :
    Host.dotGeneral (F := Ideal) (φ₁ := .f32) (φ₂ := .f32) dot_S100000x128_S128x128_S100000x128_1_0_0_1_n_n none A W (ix2 p q)
      = ∑ k : Fin 128, A (ix2 p k) * W (ix2 k q) := by
  rw [dot_dims]
  exact StackMember.dotGeneral_plain_apply none A W p q

theorem v32_apply' (x0 : (⟨S100000x128, .f32⟩ : BufTy).Contents (Elt Ideal))
    (x3 : (⟨S128x128, .f32⟩ : BufTy).Contents (Elt Ideal)) (p : Fin 100000) (q : Fin 128) :
    val_main_v32 (F := Ideal) x0 x3 (ix2 p q) = ∑ k : Fin 128, x0 (ix2 p k) * x3 (ix2 k q) := by
  unfold val_main_v32
  exact dense_apply x0 x3 p q

theorem v50_apply' (x0 : (⟨S100000x128, .f32⟩ : BufTy).Contents (Elt Ideal))
    (x1 : (⟨S2x1600000, .i32⟩ : BufTy).Contents (Elt Ideal))
    (x3 : (⟨S128x128, .f32⟩ : BufTy).Contents (Elt Ideal))
    (x4 : (⟨S128, .f32⟩ : BufTy).Contents (Elt Ideal))
    (x5 : (⟨S128x128, .f32⟩ : BufTy).Contents (Elt Ideal)) (p : Fin 100000) (q : Fin 128) :
    val_main_v50 (F := Ideal) x0 x1 x3 x4 x5 (ix2 p q)
      = ∑ k : Fin 128, val_main_v49 (F := Ideal) x0 x1 x3 x4 (ix2 p k) * x5 (ix2 k q) := by
  unfold val_main_v50
  exact dense_apply (val_main_v49 (F := Ideal) x0 x1 x3 x4) x5 p q

theorem v68_apply' (x0 : (⟨S100000x128, .f32⟩ : BufTy).Contents (Elt Ideal))
    (x1 : (⟨S2x1600000, .i32⟩ : BufTy).Contents (Elt Ideal))
    (x3 : (⟨S128x128, .f32⟩ : BufTy).Contents (Elt Ideal))
    (x4 : (⟨S128, .f32⟩ : BufTy).Contents (Elt Ideal))
    (x5 : (⟨S128x128, .f32⟩ : BufTy).Contents (Elt Ideal))
    (x6 : (⟨S128, .f32⟩ : BufTy).Contents (Elt Ideal))
    (x7 : (⟨S128x128, .f32⟩ : BufTy).Contents (Elt Ideal)) (p : Fin 100000) (q : Fin 128) :
    val_main_v68 (F := Ideal) x0 x1 x3 x4 x5 x6 x7 (ix2 p q)
      = ∑ k : Fin 128, val_main_v67 (F := Ideal) x0 x1 x3 x4 x5 x6 (ix2 p k) * x7 (ix2 k q) := by
  unfold val_main_v68
  exact dense_apply (val_main_v67 (F := Ideal) x0 x1 x3 x4 x5 x6) x7 p q

/-! ## Bias and ramp -/

/-- The first layer's end: the sum plus the bias of its column, ramped at zero. -/
theorem v49_apply' (x0 : (⟨S100000x128, .f32⟩ : BufTy).Contents (Elt Ideal))
    (x1 : (⟨S2x1600000, .i32⟩ : BufTy).Contents (Elt Ideal))
    (x3 : (⟨S128x128, .f32⟩ : BufTy).Contents (Elt Ideal))
    (x4 : (⟨S128, .f32⟩ : BufTy).Contents (Elt Ideal)) (p : Fin 100000) (q : Fin 128) :
    val_main_v49 (F := Ideal) x0 x1 x3 x4 (ix2 p q)
      = max (val_main_v45 (F := Ideal) x0 x1 x3 (ix2 p q) + x4 (ix1 q)) 0 := by
  have hj : idx_main_v46 (idx_main_v47 (ix2 p q)) = ix1 q :=
    funext fun a => Fin.ext (by match a with | ⟨0, _⟩ => rfl)
  rw [val_main_v49_apply, val_main_v48_apply, val_main_v47_apply, val_main_v46_apply, val_main_call1_v0_apply,
    val_main_call1_cst_apply, hj]
  show max (val_main_v45 (F := Ideal) x0 x1 x3 (ix2 p q) + x4 (ix1 q)) (Ideal.ofBits .f32 0x00000000#32)
    = max (val_main_v45 (F := Ideal) x0 x1 x3 (ix2 p q) + x4 (ix1 q)) 0
  rw [Cert.LibF32Literals.ofBits_zero]

/-- The second layer's end: the sum plus the bias of its column, ramped at zero. -/
theorem v67_apply' (x0 : (⟨S100000x128, .f32⟩ : BufTy).Contents (Elt Ideal))
    (x1 : (⟨S2x1600000, .i32⟩ : BufTy).Contents (Elt Ideal))
    (x3 : (⟨S128x128, .f32⟩ : BufTy).Contents (Elt Ideal))
    (x4 : (⟨S128, .f32⟩ : BufTy).Contents (Elt Ideal))
    (x5 : (⟨S128x128, .f32⟩ : BufTy).Contents (Elt Ideal))
    (x6 : (⟨S128, .f32⟩ : BufTy).Contents (Elt Ideal)) (p : Fin 100000) (q : Fin 128) :
    val_main_v67 (F := Ideal) x0 x1 x3 x4 x5 x6 (ix2 p q)
      = max (val_main_v63 (F := Ideal) x0 x1 x3 x4 x5 (ix2 p q) + x6 (ix1 q)) 0 := by
  have hj : idx_main_v64 (idx_main_v65 (ix2 p q)) = ix1 q :=
    funext fun a => Fin.ext (by match a with | ⟨0, _⟩ => rfl)
  rw [val_main_v67_apply, val_main_v66_apply, val_main_v65_apply, val_main_v64_apply, val_main_call2_v0_apply,
    val_main_call2_cst_apply, hj]
  show max (val_main_v63 (F := Ideal) x0 x1 x3 x4 x5 (ix2 p q) + x6 (ix1 q)) (Ideal.ofBits .f32 0x00000000#32)
    = max (val_main_v63 (F := Ideal) x0 x1 x3 x4 x5 (ix2 p q) + x6 (ix1 q)) 0
  rw [Cert.LibF32Literals.ofBits_zero]

/-- The third layer's end: the sum plus the bias of its column, no ramp. -/
theorem v84_apply' (x0 : (⟨S100000x128, .f32⟩ : BufTy).Contents (Elt Ideal))
    (x1 : (⟨S2x1600000, .i32⟩ : BufTy).Contents (Elt Ideal))
    (x3 : (⟨S128x128, .f32⟩ : BufTy).Contents (Elt Ideal))
    (x4 : (⟨S128, .f32⟩ : BufTy).Contents (Elt Ideal))
    (x5 : (⟨S128x128, .f32⟩ : BufTy).Contents (Elt Ideal))
    (x6 : (⟨S128, .f32⟩ : BufTy).Contents (Elt Ideal))
    (x7 : (⟨S128x128, .f32⟩ : BufTy).Contents (Elt Ideal))
    (x8 : (⟨S128, .f32⟩ : BufTy).Contents (Elt Ideal)) (p : Fin 100000) (q : Fin 128) :
    val_main_v84 (F := Ideal) x0 x1 x3 x4 x5 x6 x7 x8 (ix2 p q)
      = val_main_v81 (F := Ideal) x0 x1 x3 x4 x5 x6 x7 (ix2 p q) + x8 (ix1 q) := by
  have hj : idx_main_v82 (idx_main_v83 (ix2 p q)) = ix1 q :=
    funext fun a => Fin.ext (by match a with | ⟨0, _⟩ => rfl)
  refine (val_main_v84_apply x0 x1 x3 x4 x5 x6 x7 x8 (ix2 p q)).trans ?_
  show val_main_v81 (F := Ideal) x0 x1 x3 x4 x5 x6 x7 (ix2 p q) + val_main_v83 (F := Ideal) x8 (ix2 p q) = _
  rw [val_main_v83_apply, val_main_v82_apply, hj]

/-! ## The classifier's bias row -/

/-- The classifier's bias vector made a row: its entry in column o is the vector's entry o. -/
theorem v98_apply' (x10 : (⟨S10, .f32⟩ : BufTy).Contents (Elt Ideal)) (o : Fin 10) :
    val_main_v98 (F := Ideal) x10 (ix2 (0 : Fin 1) o) = x10 (ix1 o) := by
  rw [val_main_v98_apply]
  exact congrArg x10 (funext fun a => Fin.ext (by match a with | ⟨0, _⟩ => rfl))

end Cert.ReferenceIdeal.RefSide
-- ==== Proof.LayerChain.lean ====
/-
  The three graph-convolution layers in the row-scaled arrangement end at the reference's last layer.

  Every node n has a factor d(n). The reference weights each edge's source row by d(source) · d(end) before adding it at
  the end node. Scaling the rows first instead, g(n, ·) = M(n, ·) · d(n), the weighted neighbour sum of M at node i is
  the unweighted neighbour sum of g at i times d(i). So scaling the unweighted sum by the end node's factor, adding the
  bias row and ramping at zero reproduces the reference's ramped stage, and the next dense transform of that stage with its
  rows scaled is again the reference's dense stage times the row's factor. Three such steps, the last without the ramp,
  give the reference's last layer.
-/
import proofs.«151492_j3530463117755_2_alg».proof.Proof.RefRead
import proofs.«151492_j3530463117755_2_alg».proof.Proof.Spec
import proofs.«151492_j3530463117755_2_alg».proof.Proof.RefSide
import Idealize.ShloMosaic.PureOps.Ideal.Laws
import Idealize.ShloMosaic.Lib.ValueIdx

noncomputable section

namespace Cert.ReferenceIdeal.LayerChain

open Cert.ReferenceIdeal Cert.ReferenceIdeal.Gen Cert.ReferenceIdeal.ReadP Cert.ReferenceIdeal.RefSide Cert.Gcn
open Idealize.ShloMosaic Idealize.ShloMosaic.ValueIdx

/-- The unweighted neighbour sum of the rows of an array: every edge's source row, gathered, added at the edge's end node. -/
def nsum (x1 : (⟨S2x1600000, .i32⟩ : BufTy).Contents (Elt Ideal)) (M' : S100000x128.Idx → EReal) : S100000x128.Idx → EReal :=
  Host.scatterAdd (F := Ideal) (φ := .f32) scatter_S100000x128_S1700000x1_S1700000x128_1_0_0_1 (val_main_v43 (F := Ideal))
    (val_main_v44 (F := Ideal) x1)
    (Host.gather gather_S100000x128_S1700000x1_S1700000x128_1_0_n_n_0_1_1128 M' (val_main_v38 (F := Ideal) x1))

variable (x0 : (⟨S100000x128, .f32⟩ : BufTy).Contents (Elt Ideal)) (x1 : (⟨S2x1600000, .i32⟩ : BufTy).Contents (Elt Ideal))
  (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal))

/-! ## One layer, for any weighted stage -/

/-- The weighted neighbour sum of rows M is the unweighted neighbour sum of the rows of M scaled by their factors, scaled
    once more by the end node's factor. -/
theorem weighted_eq (s M g : S100000x128.Idx → EReal)
    (hs : s = Host.scatterAdd (F := Ideal) (φ := .f32) scatter_S100000x128_S1700000x1_S1700000x128_1_0_0_1
      (val_main_v43 (F := Ideal)) (val_main_v44 (F := Ideal) x1)
      (mulf (Host.gather gather_S100000x128_S1700000x1_S1700000x128_1_0_n_n_0_1_1128 M (val_main_v38 (F := Ideal) x1))
        (val_main_v41 (F := Ideal) x1)))
    (hg : ∀ (p : Fin 100000) (q : Fin 128), g (ix2 p q) = M (ix2 p q) * val_main_v16 (F := Ideal) x1 (ix1 p))
    (i : Fin 100000) (q : Fin 128) :
    s (ix2 i q) = nsum x1 g (ix2 i q) * val_main_v16 (F := Ideal) x1 (ix1 i) := by
  rw [hs]
  exact edge_sum x1 M g hg i q

/-- Scaling the unweighted sum by the end node's factor, adding the bias and ramping gives the reference's ramped stage. -/
theorem finish_eq (s M g : S100000x128.Idx → EReal)
    (hs : s = Host.scatterAdd (F := Ideal) (φ := .f32) scatter_S100000x128_S1700000x1_S1700000x128_1_0_0_1
      (val_main_v43 (F := Ideal)) (val_main_v44 (F := Ideal) x1)
      (mulf (Host.gather gather_S100000x128_S1700000x1_S1700000x128_1_0_n_n_0_1_1128 M (val_main_v38 (F := Ideal) x1))
        (val_main_v41 (F := Ideal) x1)))
    (hg : ∀ (p : Fin 100000) (q : Fin 128), g (ix2 p q) = M (ix2 p q) * val_main_v16 (F := Ideal) x1 (ix1 p))
    (dcol : SN1.Idx → EReal) (brow : S1C.Idx → EReal) (b : S128.Idx → EReal)
    (hd : ∀ p : Fin 100000, dcol (ix2 p (0 : Fin 1)) = val_main_v16 (F := Ideal) x1 (ix1 p))
    (hb : ∀ q : Fin 128, brow (ix2 (0 : Fin 1) q) = b (ix1 q)) (p : Fin 100000) (q : Fin 128) :
    finish (nsum x1 g) dcol brow (ix2 p q) = max (s (ix2 p q) + b (ix1 q)) 0 := by
  rw [finish_apply, hd, hb, ← weighted_eq x1 s M g hs hg p q]

/-- The same without the ramp. -/
theorem biasFinal_eq (s M g : S100000x128.Idx → EReal)
    (hs : s = Host.scatterAdd (F := Ideal) (φ := .f32) scatter_S100000x128_S1700000x1_S1700000x128_1_0_0_1
      (val_main_v43 (F := Ideal)) (val_main_v44 (F := Ideal) x1)
      (mulf (Host.gather gather_S100000x128_S1700000x1_S1700000x128_1_0_n_n_0_1_1128 M (val_main_v38 (F := Ideal) x1))
        (val_main_v41 (F := Ideal) x1)))
    (hg : ∀ (p : Fin 100000) (q : Fin 128), g (ix2 p q) = M (ix2 p q) * val_main_v16 (F := Ideal) x1 (ix1 p))
    (dcol : SN1.Idx → EReal) (brow : S1C.Idx → EReal) (b : S128.Idx → EReal)
    (hd : ∀ p : Fin 100000, dcol (ix2 p (0 : Fin 1)) = val_main_v16 (F := Ideal) x1 (ix1 p))
    (hb : ∀ q : Fin 128, brow (ix2 (0 : Fin 1) q) = b (ix1 q)) (p : Fin 100000) (q : Fin 128) :
    biasFinal (nsum x1 g) dcol brow (ix2 p q) = s (ix2 p q) + b (ix1 q) := by
  rw [biasFinal_apply, hd, hb, ← weighted_eq x1 s M g hs hg p q]

/-! ## The three layers -/

variable (dcol : SN1.Idx → EReal) (b1row b2row b3row : S1C.Idx → EReal)

/-- The first dense transform with its rows scaled is the reference's, entry by entry, times the row's factor. -/
theorem scaled1 (hd : ∀ p : Fin 100000, dcol (ix2 p (0 : Fin 1)) = val_main_v16 (F := Ideal) x1 (ix1 p))
    (p : Fin 100000) (q : Fin 128) :
    prescale x0 x3 dcol (ix2 p q) = val_main_v32 (F := Ideal) x0 x3 (ix2 p q) * val_main_v16 (F := Ideal) x1 (ix1 p) := by
  rw [prescale_apply, hd, v32_apply']

/-- The end of the first layer is the reference's first ramped stage. -/
theorem layer1 (hd : ∀ p : Fin 100000, dcol (ix2 p (0 : Fin 1)) = val_main_v16 (F := Ideal) x1 (ix1 p))
    (h1 : ∀ q : Fin 128, b1row (ix2 (0 : Fin 1) q) = x4 (ix1 q)) :
    finish (nsum x1 (prescale x0 x3 dcol)) dcol b1row = val_main_v49 (F := Ideal) x0 x1 x3 x4 := by
  funext j
  obtain ⟨p, q, rfl⟩ : ∃ (p : Fin 100000) (q : Fin 128), j = ix2 p q := ⟨j 0, j 1, eq_ix2 j⟩
  rw [finish_eq x1 (val_main_v45 (F := Ideal) x0 x1 x3) (val_main_v32 (F := Ideal) x0 x3) (prescale x0 x3 dcol)
    (v45_eq x0 x1 x3) (scaled1 x0 x1 x3 dcol hd) dcol b1row x4 hd h1 p q, v49_apply']

/-- The second dense transform with its rows scaled is the reference's times the row's factor. -/
theorem scaled2 (hd : ∀ p : Fin 100000, dcol (ix2 p (0 : Fin 1)) = val_main_v16 (F := Ideal) x1 (ix1 p))
    (h1 : ∀ q : Fin 128, b1row (ix2 (0 : Fin 1) q) = x4 (ix1 q)) (p : Fin 100000) (q : Fin 128) :
    fused (nsum x1 (prescale x0 x3 dcol)) dcol b1row x5 (ix2 p q)
      = val_main_v50 (F := Ideal) x0 x1 x3 x4 x5 (ix2 p q) * val_main_v16 (F := Ideal) x1 (ix1 p) := by
  show prescale (finish (nsum x1 (prescale x0 x3 dcol)) dcol b1row) x5 dcol (ix2 p q) = _
  rw [layer1 x0 x1 x3 x4 dcol b1row hd h1, prescale_apply, hd, v50_apply']

/-- The end of the second layer is the reference's second ramped stage. -/
theorem layer2 (hd : ∀ p : Fin 100000, dcol (ix2 p (0 : Fin 1)) = val_main_v16 (F := Ideal) x1 (ix1 p))
    (h1 : ∀ q : Fin 128, b1row (ix2 (0 : Fin 1) q) = x4 (ix1 q))
    (h2 : ∀ q : Fin 128, b2row (ix2 (0 : Fin 1) q) = x6 (ix1 q)) :
    finish (nsum x1 (fused (nsum x1 (prescale x0 x3 dcol)) dcol b1row x5)) dcol b2row
      = val_main_v67 (F := Ideal) x0 x1 x3 x4 x5 x6 := by
  funext j
  obtain ⟨p, q, rfl⟩ : ∃ (p : Fin 100000) (q : Fin 128), j = ix2 p q := ⟨j 0, j 1, eq_ix2 j⟩
  rw [finish_eq x1 (val_main_v63 (F := Ideal) x0 x1 x3 x4 x5) (val_main_v50 (F := Ideal) x0 x1 x3 x4 x5) _
    (v63_eq x0 x1 x3 x4 x5) (scaled2 x0 x1 x3 x4 x5 dcol b1row hd h1) dcol b2row x6 hd h2 p q, v67_apply']

/-- The third dense transform with its rows scaled is the reference's times the row's factor. -/
theorem scaled3 (hd : ∀ p : Fin 100000, dcol (ix2 p (0 : Fin 1)) = val_main_v16 (F := Ideal) x1 (ix1 p))
    (h1 : ∀ q : Fin 128, b1row (ix2 (0 : Fin 1) q) = x4 (ix1 q))
    (h2 : ∀ q : Fin 128, b2row (ix2 (0 : Fin 1) q) = x6 (ix1 q)) (p : Fin 100000) (q : Fin 128) :
    fused (nsum x1 (fused (nsum x1 (prescale x0 x3 dcol)) dcol b1row x5)) dcol b2row x7 (ix2 p q)
      = val_main_v68 (F := Ideal) x0 x1 x3 x4 x5 x6 x7 (ix2 p q) * val_main_v16 (F := Ideal) x1 (ix1 p) := by
  show prescale (finish (nsum x1 (fused (nsum x1 (prescale x0 x3 dcol)) dcol b1row x5)) dcol b2row) x7 dcol (ix2 p q) = _
  rw [layer2 x0 x1 x3 x4 x5 x6 dcol b1row b2row hd h1 h2, prescale_apply, hd, v68_apply']

/-- The three layers in the row-scaled arrangement end at the reference's last layer. -/
theorem chain (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (dcol : SN1.Idx → EReal) (b1row b2row b3row : S1C.Idx → EReal)
    (hd : ∀ p : Fin 100000, dcol (ix2 p (0 : Fin 1)) = val_main_v16 (F := Ideal) x1 (ix1 p))
    (h1 : ∀ q : Fin 128, b1row (ix2 (0 : Fin 1) q) = x4 (ix1 q))
    (h2 : ∀ q : Fin 128, b2row (ix2 (0 : Fin 1) q) = x6 (ix1 q))
    (h3 : ∀ q : Fin 128, b3row (ix2 (0 : Fin 1) q) = x8 (ix1 q)) :
    biasFinal (nsum x1 (fused (nsum x1 (fused (nsum x1 (prescale x0 x3 dcol)) dcol b1row x5)) dcol b2row x7)) dcol b3row
      = val_main_v84 (F := Ideal) x0 x1 x3 x4 x5 x6 x7 x8 := by
  funext j
  obtain ⟨p, q, rfl⟩ : ∃ (p : Fin 100000) (q : Fin 128), j = ix2 p q := ⟨j 0, j 1, eq_ix2 j⟩
  rw [biasFinal_eq x1 (val_main_v81 (F := Ideal) x0 x1 x3 x4 x5 x6 x7) (val_main_v68 (F := Ideal) x0 x1 x3 x4 x5 x6 x7) _
    (v81_eq x0 x1 x3 x4 x5 x6 x7) (scaled3 x0 x1 x3 x4 x5 x6 x7 dcol b1row b2row hd h1 h2) dcol b3row x8 hd h3 p q, v84_apply']

end Cert.ReferenceIdeal.LayerChain

end
-- ==== Proof.RefHead.lean ====
/-
  The reference program's last operations are the head of the network: the classifier on the pooled rows, then the
  softmax of each row.

  Entry (g, o) of the reference's logits is the sum over k of the pooled rows at (g, k) times the weights at (k, o), plus
  the bias row at o. Its row maximum is the ten entries of a row folded with max from the −∞ word, taken once more
  against that word; its exponentials are of the entries less their row's maximum; each row's sum starts from zero; and the
  result divides each exponential by its row's sum. Identifying the composed index maps of the broadcasts and of the
  contraction with coordinates, these are the specification's logits and softmaxRows entry by entry.
-/
import proofs.«151492_j3530463117755_2_alg».proof.Proof.RefRead
import proofs.«151492_j3530463117755_2_alg».proof.Proof.Spec
import Idealize.ShloMosaic.PureOps.Reduce
import Idealize.ShloMosaic.PureOps.Ideal.Laws
import Idealize.ShloMosaic.Lib.ValueIdx

namespace Cert.ReferenceIdeal.RefHead

open Cert.ReferenceIdeal Cert.ReferenceIdeal.Gen Cert.ReferenceIdeal.ReadP
open Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal)) (x9 : (⟨S128x10, .f32⟩ : BufTy).Contents (Elt Ideal))
  (x10 : (⟨S10, .f32⟩ : BufTy).Contents (Elt Ideal))

/-- The reference's logits are the specification's classifier on its pooled rows, its weights and its bias row. -/
theorem ref_logits :
    val_main_v100 (F := Ideal) x0 x1 x2 x3 x4 x5 x6 x7 x8 x9 x10
      = Cert.Gcn.logits (val_main_v96 (F := Ideal) x0 x1 x2 x3 x4 x5 x6 x7 x8) x9 (val_main_v98 (F := Ideal) x10) := by
  funext j
  obtain ⟨g, o, rfl⟩ : ∃ (g : Fin 64) (o : Fin 10), j = ix2 g o := ⟨j 0, j 1, eq_ix2 j⟩
  have el : ∀ k : Fin 128, lidx_main_v97 (ix2 g o) k = ix2 g k := fun k =>
    funext fun a => Fin.ext (by match a with | ⟨0, _⟩ => rfl | ⟨1, _⟩ => rfl)
  have er : ∀ k : Fin 128, ridx_main_v97 (ix2 g o) k = ix2 k o := fun k =>
    funext fun a => Fin.ext (by match a with | ⟨0, _⟩ => rfl | ⟨1, _⟩ => rfl)
  have eb : idx_main_v99 (ix2 g o) = ix2 (0 : Fin 1) o :=
    funext fun a => Fin.ext (by match a with | ⟨0, _⟩ => rfl | ⟨1, _⟩ => rfl)
  rw [val_main_v100_apply, val_main_v97_apply, val_main_v99_apply, Cert.Gcn.logits_apply, Ideal.addf_def, eb]
  simp only [el, er]

/-- The reference's row maximum is the specification's, of the reference's logits. -/
theorem ref_rowMax (g : Fin 64) :
    val_main_v103 (F := Ideal) x0 x1 x2 x3 x4 x5 x6 x7 x8 x9 x10 (ix1 g)
      = Cert.Gcn.rowMax (val_main_v100 (F := Ideal) x0 x1 x2 x3 x4 x5 x6 x7 x8 x9 x10) g := by
  rw [val_main_v103_apply, val_main_v102_apply, val_main_cst_21_apply, Ideal.maximumf_def, Ideal.ofBits_def]
  unfold Cert.Gcn.rowMax Cert.Gcn.negInf val_main_v101
  generalize val_main_v100 (F := Ideal) x0 x1 x2 x3 x4 x5 x6 x7 x8 x9 x10 = L
  refine congrArg (max _) ?_
  refine (Host.reduce_eq_fold_single (α := Ideal .f32) (s := S64x10) (t := S64) (a := 1) FloatOps.maximumf L
    (val_main_cst_20 (F := Ideal)) reducesTo_S64x10_S64_d1 (by decide) h_S_ (ix1 g)).trans ?_
  rw [val_main_cst_20_apply, Ideal.ofBits_def]
  exact congrArg (fun f => Finset.fold max (Ideal.ofBits .f32 0xFF800000#32) f (Finset.univ : Finset (Fin 10)))
    (funext fun o => congrArg L (funext fun a => Fin.ext (by match a with | ⟨0, _⟩ => rfl | ⟨1, _⟩ => rfl)))

/-- The reference's exponentials are the specification's numerators. -/
theorem ref_exp (g : Fin 64) (o : Fin 10) :
    val_main_v107 (F := Ideal) x0 x1 x2 x3 x4 x5 x6 x7 x8 x9 x10 (ix2 g o)
      = Ideal.exp (val_main_v100 (F := Ideal) x0 x1 x2 x3 x4 x5 x6 x7 x8 x9 x10 (ix2 g o)
          - Cert.Gcn.rowMax (val_main_v100 (F := Ideal) x0 x1 x2 x3 x4 x5 x6 x7 x8 x9 x10) g) := by
  have e : idx_main_v104 (idx_main_v105 (ix2 g o)) = ix1 g :=
    funext fun a => Fin.ext (by match a with | ⟨0, _⟩ => rfl)
  rw [val_main_v107_apply, val_main_v106_apply, val_main_v105_apply, val_main_v104_apply, Ideal.hostUnary_exp_def,
    Ideal.subf_def, e, ref_rowMax]

/-- The reference's result is the softmax of each row of its logits. -/
theorem ref_softmax :
    val_main_v111 (F := Ideal) x0 x1 x2 x3 x4 x5 x6 x7 x8 x9 x10
      = Cert.Gcn.softmaxRows (val_main_v100 (F := Ideal) x0 x1 x2 x3 x4 x5 x6 x7 x8 x9 x10) := by
  funext j
  obtain ⟨g, o, rfl⟩ : ∃ (g : Fin 64) (o : Fin 10), j = ix2 g o := ⟨j 0, j 1, eq_ix2 j⟩
  have e : ∀ k : Fin 10, idx_main_v108 (idx_main_v109 (idx_main_v110 (ix2 g o))) k = ix2 g k := fun k =>
    funext fun a => Fin.ext (by match a with | ⟨0, _⟩ => rfl | ⟨1, _⟩ => rfl)
  rw [val_main_v111_apply, val_main_v110_apply, val_main_v109_apply, val_main_v108_apply, Ideal.hostDivf_def,
    Cert.Gcn.softmaxRows_apply, val_main_cst_22_apply, Ideal.ofBits_def, Ideal.ofBits_zero_f32, zero_add, ref_exp]
  simp only [e, ref_exp]

/-- The reference's result is the head of its pooled rows, its classifier weights and its bias row. -/
theorem ref_head :
    val_main_v111 (F := Ideal) x0 x1 x2 x3 x4 x5 x6 x7 x8 x9 x10
      = Cert.Gcn.head (val_main_v96 (F := Ideal) x0 x1 x2 x3 x4 x5 x6 x7 x8) x9 (val_main_v98 (F := Ideal) x10) := by
  rw [ref_softmax, ref_logits]
  rfl

end Cert.ReferenceIdeal.RefHead
-- ==== Proof.LibColRow.lean ====
/-
  Columns and rows of a rank-2 array on the host: the layouts a per-row scale and a per-column bias pass through.

  A vector of a entries becomes an [a, 1] column, either by a reshape or by a broadcast along a new unit axis, and the column
  is then repeated across b lanes; a vector of b entries becomes a [1, b] row and is repeated down a rows. Read at an index
  written by its coordinates, each of these is the operand at the row coordinate alone (for a column) or at the lane
  coordinate alone (for a row).
-/
import Idealize.ShloMosaic.Lib.ValueIdx
import Idealize.ShloMosaic.Lib.Pipeline.Value

namespace Cert.LibColRow

open Idealize.ShloMosaic Idealize.ShloMosaic.ValueIdx

variable {α : Type}

/-- A vector broadcast to an `[a, 1]` column reads, at `(p, u)`, the vector at `p`. -/
theorem bcast_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A vector reshaped to an `[a, 1]` column reads, at `(p, u)`, the vector at `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An `[a, 1]` column broadcast (along both axes in place) to `[a, b]` reads, at `(p, q)`, the column at row `p`. -/
theorem bcast_a1_ab_apply {a b : ℕ} (col : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h col (ix2 p q) = col (ix2 p (0 : Fin 1)) := by
  refine broadcastInDim_apply _ h col (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- A vector broadcast to a `[1, b]` row reads, at `(u, q)`, the vector at `q`. -/
theorem bcast_b_1b_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h v (ix2 u q) = v (ix1 q) := by
  refine broadcastInDim_apply _ h v (ix2 u q) (ix1 q) fun ax => ?_
  match ax with
  | ⟨0, _⟩ =>
    show q.val = if b = 1 then 0 else q.val
    split
    · have := q.isLt; omega
    · rfl

/-- A `[1, b]` row broadcast (along both axes in place) to `[a, b]` reads, at `(p, q)`, the row at lane `q`. -/
theorem bcast_1b_ab_apply {a b : ℕ} (row : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h row (ix2 p q) = row (ix2 (0 : Fin 1) q) := by
  refine broadcastInDim_apply _ h row (ix2 p q) (ix2 (0 : Fin 1) q) fun ax => ?_
  match ax with
  | ⟨0, _⟩ => exact (if_pos rfl).symm
  | ⟨1, _⟩ =>
    show q.val = if b = 1 then 0 else q.val
    split
    · have := q.isLt; omega
    · rfl

end Cert.LibColRow
-- ==== Proof.Bridge.lean ====
/-
  The idealized kernel's result is the reference's, as functions of the argument arrays.

  The kernel program computes a three-layer graph convolution in a factored arrangement: each region's result is one of the
  whole-array functions of Spec.lean applied to what the host stretches before it left, the stretches gather and sum rows
  along the edges, and the last region is the classifier with its softmax on the pooled rows. Walking the result buffer
  back through the ten segments:

    result  = head (pooled rows) Wl (bl as a row)                                       region 4
    pooled  = the mean per graph of  h                                                  last stretch
    h       = biasFinal a3 dcol (b3 as a row),   a3 = nsum g3                           region 3, third layer's stretch
    g3      = fused a2 dcol (b2 as a row) W3,    a2 = nsum g2                           region 2, second layer's stretch
    g2      = fused a1 dcol (b1 as a row) W2,    a1 = nsum g1                           region 1, first layer's stretch
    g1      = prescale x W1 dcol                                                        region 0

  where dcol is the column of node factors and nsum the neighbour sum along the edges. The chain of the three layers in
  this arrangement is the reference's last-layer stage (LayerChain.lean: the node factor of an edge's end is common to all
  the edges summed at that node and moves out of the sum); the pooling is the same operations on both sides; and the
  reference's head is the same function of the pooled rows (RefHead.lean).
-/
import proofs.«151492_j3530463117755_2_alg».proof.Proof.KHost
import proofs.«151492_j3530463117755_2_alg».proof.Proof.KKeep
import proofs.«151492_j3530463117755_2_alg».proof.Proof.Region0
import proofs.«151492_j3530463117755_2_alg».proof.Proof.Region1
import proofs.«151492_j3530463117755_2_alg».proof.Proof.Region2
import proofs.«151492_j3530463117755_2_alg».proof.Proof.Region3
import proofs.«151492_j3530463117755_2_alg».proof.Proof.Region4
import proofs.«151492_j3530463117755_2_alg».proof.Proof.LayerChain
import proofs.«151492_j3530463117755_2_alg».proof.Proof.RefHead
import proofs.«151492_j3530463117755_2_alg».proof.Proof.Spec
import proofs.«151492_j3530463117755_2_alg».proof.Proof.LibColRow
import Idealize.ShloMosaic.Lib.ValueLayout

set_option maxRecDepth 16384
set_option maxHeartbeats 1000000

noncomputable section

namespace Cert.KernelIdeal.Bridge

open Cert.KernelIdeal Cert.KernelIdeal.Gen Idealize.ShloMosaic Idealize.ShloMosaic.TcCoe Idealize.SL.Sem
open Idealize.ShloMosaic.ValueIdx Cert.Gcn
open Cert.ReferenceIdeal.ReadP (val_main_v5 val_main_v6 val_main_v16 val_main_v84 val_main_v96 val_main_v98 val_main_v111)
open Cert.ReferenceIdeal.LayerChain (nsum)

variable (m : (ℓ : Loc nD τ sig) → Buf (Elt Ideal) ℓ) (ρ : Dev nD → PrngReg) (c : Dev nD)

/-! ## Layouts -/

/-- The column of node factors: the factor vector of the launched edge list, recast. -/
def dcol : S100000x1.Idx → EReal :=
  shapeCast S100000x1 (val_main_v16 (F := Ideal) (m ((c : Thread nD τ).loc main_arg1))) shapeCasts_S100000_S100000x1

theorem dcol_apply (p : Fin 100000) :
    dcol m c (ix2 p (0 : Fin 1)) = val_main_v16 (F := Ideal) (m ((c : Thread nD τ).loc main_arg1)) (ix1 p) :=
  Cert.LibColRow.shapeCast_a_a1_apply _ shapeCasts_S100000_S100000x1 p 0

/-- A bias vector recast as a row reads the vector at the lane. -/
theorem brow_apply (b : S128.Idx → EReal) (q : Fin 128) :
    shapeCast S1x128 b shapeCasts_S128_S1x128 (ix2 (0 : Fin 1) q) = b (ix1 q) :=
  shapeCast_a_1a_apply b shapeCasts_S128_S1x128 0 q

/-- The classifier's bias recast as a row is the reference's broadcast of it to a row. -/
theorem blrow_eq (b : S10.Idx → EReal) :
    shapeCast S1x10 b shapeCasts_S10_S1x10 = val_main_v98 (F := Ideal) b := by
  funext i
  obtain ⟨u, o, rfl⟩ : ∃ (u : Fin 1) (o : Fin 10), i = ix2 u o := ⟨i 0, i 1, eq_ix2 i⟩
  rw [shapeCast_a_1a_apply]
  exact (Cert.LibColRow.bcast_b_1b_apply b _ u o).symm

/-! ## The neighbour sum and the pooling, in the two programs' spellings -/

/-- The kernel program's gather-and-sum along the edges is the neighbour sum `nsum`. -/
theorem nsum_eq (x1 : IVec S2x1600000 32) (G : S100000x128.Idx → EReal) :
    Host.scatterAdd (F := Ideal) (φ := .f32) scatter_S100000x128_S1700000x1_S1700000x128_1_0_0_1
        (broadcastInDim S100000x128 ![] bcast_S_S100000x128 (constant (F := Ideal) S_ .f32 0x00000000#32))
        (broadcastInDim S1700000x1 ![0] bcast_S1700000_S1700000x1_0 (val_main_v6 (F := Ideal) x1))
        (Host.gather gather_S100000x128_S1700000x1_S1700000x128_1_0_n_n_0_1_1128 G
          (Cert.KernelIdeal.KHost.wrapCol (val_main_v5 (F := Ideal) x1)))
      = nsum x1 G := rfl

/-- The kernel program's mean over each graph's nodes of an array that is the reference's last-layer stage is the
    reference's pooled stage. -/
theorem pool_eq (x0 : S100000x128.Idx → EReal) (x1 : IVec S2x1600000 32) (x2 : IVec S100000 32) (x3 : S128x128.Idx → EReal)
    (x4 : S128.Idx → EReal) (x5 : S128x128.Idx → EReal) (x6 : S128.Idx → EReal) (x7 : S128x128.Idx → EReal)
    (x8 : S128.Idx → EReal) :
    Host.divf (F := Ideal)
        (Host.scatterAdd scatter_S64x128_S100000x1_S100000x128_1_0_0_1
          (broadcastInDim S64x128 ![] bcast_S_S64x128 (constant (F := Ideal) S_ .f32 0x00000000#32))
          (broadcastInDim S100000x1 ![0] bcast_S100000_S100000x1_0 x2)
          (val_main_v84 (F := Ideal) x0 x1 x3 x4 x5 x6 x7 x8))
        (broadcastInDim S64x128 ![0, 1] bcast_S64x1_S64x128_0_1 (broadcastInDim S64x1 ![0] bcast_S64_S64x1_0
          (maximumf
            (Host.scatterAdd scatter_S64_S100000x1_S100000_n_0_0_1
              (broadcastInDim S64 ![] bcast_S_S64 (constant (F := Ideal) S_ .f32 0x00000000#32))
              (broadcastInDim S100000x1 ![0] bcast_S100000_S100000x1_0 x2)
              (broadcastInDim S100000 ![] bcast_S_S100000 (constant (F := Ideal) S_ .f32 0x3F800000#32)))
            (broadcastInDim S64 ![] bcast_S_S64 (constant (F := Ideal) S_ .f32 0x3F800000#32)))))
      = val_main_v96 (F := Ideal) x0 x1 x2 x3 x4 x5 x6 x7 x8 := rfl

/-! ## The regions' results, walked back -/

/-- Region 0: the first dense transform, rows scaled. -/
theorem g1 : W2 m ρ c (Proc.devRef .tc main_call0_v18) = prescale (m ((c : Thread nD τ).loc main_arg0)) (m ((c : Thread nD τ).loc main_arg3)) (dcol m c) := by
  refine (W2_arr m ρ c 3).trans ((Cert.KernelIdeal.Region0.final0 (V1 m ρ) c).trans ?_)
  show prescale (W1 m ρ c (Proc.devRef .tc main_arg0)) (W1 m ρ c (Proc.devRef .tc main_arg3)) (W1 m ρ c (Proc.devRef .tc main_call0_v17)) = _
  rw [Cert.KernelIdeal.KKeep.x_W1, Cert.KernelIdeal.KKeep.w1_W1, Cert.KernelIdeal.KHost.dcol_W1]
  rfl

/-- The first layer's neighbour sums. -/
theorem a1 : W3 m ρ c (Proc.devRef .tc main_call0_v28) = nsum (m ((c : Thread nD τ).loc main_arg1)) (prescale (m ((c : Thread nD τ).loc main_arg0)) (m ((c : Thread nD τ).loc main_arg3)) (dcol m c)) := by
  rw [Cert.KernelIdeal.KHost.agg1_raw, Cert.KernelIdeal.KKeep.dst_W2, Cert.KernelIdeal.KKeep.src_W2,
    Cert.KernelIdeal.KHost.dst_W1, Cert.KernelIdeal.KHost.src_W1, g1]
  exact nsum_eq _ _

/-- Region 1: the end of layer 1 and the start of layer 2. -/
theorem g2 : W4 m ρ c (Proc.devRef .tc main_call0_v30)
    = fused (nsum (m ((c : Thread nD τ).loc main_arg1)) (prescale (m ((c : Thread nD τ).loc main_arg0)) (m ((c : Thread nD τ).loc main_arg3)) (dcol m c))) (dcol m c)
        (shapeCast S1x128 (m ((c : Thread nD τ).loc main_arg4)) shapeCasts_S128_S1x128) (m ((c : Thread nD τ).loc main_arg5)) := by
  refine (W4_arr m ρ c 4).trans ((Cert.KernelIdeal.Region1.final1 (V3 m ρ) c).trans ?_)
  show fused (W3 m ρ c (Proc.devRef .tc main_call0_v28)) (W3 m ρ c (Proc.devRef .tc main_call0_v17)) (W3 m ρ c (Proc.devRef .tc main_call0_v29)) (W3 m ρ c (Proc.devRef .tc main_arg5)) = _
  rw [a1, Cert.KernelIdeal.KKeep.dcol_W3, Cert.KernelIdeal.KHost.dcol_W1, Cert.KernelIdeal.KHost.brow1_raw,
    Cert.KernelIdeal.KKeep.b1_W2, Cert.KernelIdeal.KKeep.w2_W3]
  rfl

/-- The second layer's neighbour sums. -/
theorem a2 : W5 m ρ c (Proc.devRef .tc main_call0_v40)
    = nsum (m ((c : Thread nD τ).loc main_arg1)) (fused (nsum (m ((c : Thread nD τ).loc main_arg1)) (prescale (m ((c : Thread nD τ).loc main_arg0)) (m ((c : Thread nD τ).loc main_arg3)) (dcol m c))) (dcol m c)
        (shapeCast S1x128 (m ((c : Thread nD τ).loc main_arg4)) shapeCasts_S128_S1x128) (m ((c : Thread nD τ).loc main_arg5))) := by
  rw [Cert.KernelIdeal.KHost.agg2_raw, Cert.KernelIdeal.KKeep.dst_W4, Cert.KernelIdeal.KKeep.src_W4,
    Cert.KernelIdeal.KHost.dst_W1, Cert.KernelIdeal.KHost.src_W1, g2]
  exact nsum_eq _ _

/-- Region 2: the end of layer 2 and the start of layer 3. -/
theorem g3 : W6 m ρ c (Proc.devRef .tc main_call0_v42)
    = fused (nsum (m ((c : Thread nD τ).loc main_arg1)) (fused (nsum (m ((c : Thread nD τ).loc main_arg1)) (prescale (m ((c : Thread nD τ).loc main_arg0)) (m ((c : Thread nD τ).loc main_arg3)) (dcol m c))) (dcol m c)
        (shapeCast S1x128 (m ((c : Thread nD τ).loc main_arg4)) shapeCasts_S128_S1x128) (m ((c : Thread nD τ).loc main_arg5)))) (dcol m c)
        (shapeCast S1x128 (m ((c : Thread nD τ).loc main_arg6)) shapeCasts_S128_S1x128) (m ((c : Thread nD τ).loc main_arg7)) := by
  refine (W6_arr m ρ c 4).trans ((Cert.KernelIdeal.Region2.final2 (V5 m ρ) c).trans ?_)
  show fused (W5 m ρ c (Proc.devRef .tc main_call0_v40)) (W5 m ρ c (Proc.devRef .tc main_call0_v17)) (W5 m ρ c (Proc.devRef .tc main_call0_v41)) (W5 m ρ c (Proc.devRef .tc main_arg7)) = _
  rw [a2, Cert.KernelIdeal.KKeep.dcol_W5, Cert.KernelIdeal.KHost.dcol_W1, Cert.KernelIdeal.KHost.brow2_raw,
    Cert.KernelIdeal.KKeep.b2_W4, Cert.KernelIdeal.KKeep.w3_W5]
  rfl

/-- The third layer's neighbour sums. -/
theorem a3 : W7 m ρ c (Proc.devRef .tc main_call0_v52)
    = nsum (m ((c : Thread nD τ).loc main_arg1)) (fused (nsum (m ((c : Thread nD τ).loc main_arg1)) (fused (nsum (m ((c : Thread nD τ).loc main_arg1)) (prescale (m ((c : Thread nD τ).loc main_arg0)) (m ((c : Thread nD τ).loc main_arg3)) (dcol m c))) (dcol m c)
        (shapeCast S1x128 (m ((c : Thread nD τ).loc main_arg4)) shapeCasts_S128_S1x128) (m ((c : Thread nD τ).loc main_arg5)))) (dcol m c)
        (shapeCast S1x128 (m ((c : Thread nD τ).loc main_arg6)) shapeCasts_S128_S1x128) (m ((c : Thread nD τ).loc main_arg7))) := by
  rw [Cert.KernelIdeal.KHost.agg3_raw, Cert.KernelIdeal.KKeep.dst_W6, Cert.KernelIdeal.KKeep.src_W6,
    Cert.KernelIdeal.KHost.dst_W1, Cert.KernelIdeal.KHost.src_W1, g3]
  exact nsum_eq _ _

/-- Region 3: the end of the last layer is the reference's last-layer stage. -/
theorem h_eq : W8 m ρ c (Proc.devRef .tc main_call0_v54)
    = val_main_v84 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 3).trans ((Cert.KernelIdeal.Region3.final3 (V7 m ρ) c).trans ?_)
  show biasFinal (W7 m ρ c (Proc.devRef .tc main_call0_v52)) (W7 m ρ c (Proc.devRef .tc main_call0_v17)) (W7 m ρ c (Proc.devRef .tc main_call0_v53)) = _
  rw [a3, Cert.KernelIdeal.KKeep.dcol_W7, Cert.KernelIdeal.KHost.dcol_W1, Cert.KernelIdeal.KHost.brow3_raw,
    Cert.KernelIdeal.KKeep.b3_W6]
  exact Cert.ReferenceIdeal.LayerChain.chain _ _ _ _ _ _ _ _ (dcol m c) _ _ _ (dcol_apply m c)
    (brow_apply _) (brow_apply _) (brow_apply _)

/-- The pooled rows are the reference's pooled stage. -/
theorem pooled_eq : W9 m ρ c (Proc.devRef .tc main_call0_v66)
    = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [Cert.KernelIdeal.KHost.pooled_raw, Cert.KernelIdeal.KKeep.batch_W8, h_eq]
  exact pool_eq _ _ _ _ _ _ _ _ _

/-- Region 4: the result buffer at the end is the reference's result term of the same arguments. -/
theorem result_eq : W10 m ρ c (Proc.devRef .tc main_v0)
    = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W10_arr m ρ c 3).trans ((Cert.KernelIdeal.Region4.final4 (V9 m ρ) c).trans ?_)
  show head (W9 m ρ c (Proc.devRef .tc main_call0_v66)) (W9 m ρ c (Proc.devRef .tc main_arg9)) (W9 m ρ c (Proc.devRef .tc main_call0_v67)) = _
  rw [pooled_eq, Cert.KernelIdeal.KKeep.wl_W9, Cert.KernelIdeal.KHost.blrow_raw, Cert.KernelIdeal.KKeep.bl_W8, blrow_eq]
  exact (Cert.ReferenceIdeal.RefHead.ref_head _ _ _ _ _ _ _ _ _ _ _).symm

end Cert.KernelIdeal.Bridge

end
-- ==== Proof.lean ====
/-
  The certificate of a three-layer graph convolution network with mean pooling and a softmax head: the kernel program, its
  idealization and the reference program.

  The frames. The kernel program and its idealization are five pallas_calls among stretches of host operations; their
  generated frame certificates say that every weakly fair execution terminates, nothing faulting, with the argument arrays
  as launched. The reference program is host operations only; its frame is its run with the result dropped.

  The idealization rewrote no operation, so there is nothing to preserve.

  The values, on the extended reals. Every node n has a factor d(n) = select(deg n > 0, rsqrt(max(deg n, 1)), 0), a
  non-negative finite number. The reference computes each layer as  out(i, ·) = ∑ over the edges e ending at i of
  m(src e, ·) · (d(src e) · d(i)) + b  with m the dense transform of the layer's input. The kernel computes
  out(i, ·) = (∑ over the same edges of (m(src e, ·) · d(src e))) · d(i) + b: the rows are scaled by their own node's
  factor inside the region that makes the dense transform, the host sums the scaled rows along the edges, and the next
  region multiplies by the end node's factor. The two agree because d(i) is common to all the edges summed at i and a
  non-negative finite factor moves out of a sum of extended reals whatever the summands; a change of float format is the
  identity on the extended reals, and the matrix unit's product into a zero accumulator is the host's product. The mean
  over each graph's nodes is the same host operations in both programs, and the classifier with its row softmax is one
  function of the pooled rows in the kernel's vector spelling and in the host's.
-/
import proofs.«151492_j3530463117755_2_alg».proof.Defs
import proofs.«151492_j3530463117755_2_alg».proof.Proof.Gen.Kernel
import proofs.«151492_j3530463117755_2_alg».proof.Proof.Gen.Kernel.Frame
import proofs.«151492_j3530463117755_2_alg».proof.Proof.Gen.KernelIdeal
import proofs.«151492_j3530463117755_2_alg».proof.Proof.Gen.KernelIdeal.Frame
import proofs.«151492_j3530463117755_2_alg».proof.Proof.Gen.ReferenceIdeal
import proofs.«151492_j3530463117755_2_alg».proof.Proof.Gen.Pre_finite_inputs
import proofs.«151492_j3530463117755_2_alg».proof.Proof.KRun
import proofs.«151492_j3530463117755_2_alg».proof.Proof.RefRun
import proofs.«151492_j3530463117755_2_alg».proof.Proof.RefRead
import proofs.«151492_j3530463117755_2_alg».proof.Proof.Bridge
import Idealize.ShloMosaic.Adequacy
import Idealize.ShloMosaic.Init

noncomputable section

namespace Cert.Proof

open Idealize.ShloMosaic Idealize.ShloMosaic.TcCoe Idealize.SL.Sem

namespace Claims

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

theorem preserves : Cert.preserves_Kernel_KernelIdeal := trivial

/-- Both idealized programs run; the kernel's result buffer ends at the contents its last region leaves, the reference's at
    its operations' term of the arguments; from arguments that agree these are one array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W10 m ρ c (Proc.devRef .tc Cert.KernelIdeal.main_v0),
    Cert.KernelIdeal.KRun.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  rw [Cert.ReferenceIdeal.ReadP.val_main_v111_eq, h0, h1, h2, h3, h4, h5, h6, h7, h8, h9, h10]
  exact (Cert.KernelIdeal.Bridge.result_eq m ρ c).symm

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_reference, Claims.preserves, Claims.algebraic⟩

end Cert.Proof

end
